-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x27x5x512 : Shape := ⟨4, ![1024, 27, 5, 512]⟩
abbrev S81x512 : Shape := ⟨2, ![81, 512]⟩
abbrev S81 : Shape := ⟨1, ![81]⟩
abbrev S135x512 : Shape := ⟨2, ![135, 512]⟩
abbrev S135 : Shape := ⟨1, ![135]⟩
abbrev S_ : Shape := ⟨0, ![]⟩

class Facts : Prop where
  bcast_S_S1024x27x5x512 : S_.BroadcastsInDim S1024x27x5x512 (![] : Fin 0 → Fin S1024x27x5x512.rank)
  reducesTo_S1024x27x5x512_S_d0_1_2_3 : S1024x27x5x512.ReducesTo [0, 1, 2, 3] S_
  h_S_ : 0 < S_.numel
  bcast_S_S81x512 : S_.BroadcastsInDim S81x512 (![] : Fin 0 → Fin S81x512.rank)
  reducesTo_S81x512_S_d0_1 : S81x512.ReducesTo [0, 1] S_
  bcast_S_S81 : S_.BroadcastsInDim S81 (![] : Fin 0 → Fin S81.rank)
  reducesTo_S81_S_d0 : S81.ReducesTo [0] S_
  bcast_S_S135x512 : S_.BroadcastsInDim S135x512 (![] : Fin 0 → Fin S135x512.rank)
  reducesTo_S135x512_S_d0_1 : S135x512.ReducesTo [0, 1] S_
  bcast_S_S135 : S_.BroadcastsInDim S135 (![] : Fin 0 → Fin S135.rank)
  reducesTo_S135_S_d0 : S135.ReducesTo [0] S_

variable [Facts]

def fn_part3 {F : FTy → Type} [FloatOps F] (main_v48 : IVec S_ 1) (main_v49 : FVec F S81 .f32) (main_v50 : FVec F S81 .f32) : IVec S_ 1 :=
  let main_v51 : IVec S81 1 := cmpf .olt main_v49 main_v50
  let main_c_19 : IVec S_ 1 := constantI S_ 1 1#1
  let main_v52 : IVec S_ 1 := (fun x v => Host.reduce IntOp.andi x v reducesTo_S81_S_d0 h_S_) main_v51 main_c_19
  let main_v53 : IVec S_ 1 := andi main_v48 main_v52
  main_v53

def fn_part2 {F : FTy → Type} [FloatOps F] (main_arg7 : FVec F S81x512 .f32) (main_arg8 : FVec F S81 .f32) (main_arg9 : FVec F S81x512 .f32) (main_arg10 : FVec F S81 .f32) (main_v33 : IVec S_ 1) : IVec S_ 1 :=
  let main_v34 : FVec F S81x512 .f32 := Host.absf main_arg7
  let main_cst_12 : FVec F S_ .f32 := constant S_ .f32 0x7F800000#32
  let main_v35 : FVec F S81x512 .f32 := broadcastInDim S81x512 ![] bcast_S_S81x512 main_cst_12
  let main_v36 : IVec S81x512 1 := cmpf .olt main_v34 main_v35
  let main_c_13 : IVec S_ 1 := constantI S_ 1 1#1
  let main_v37 : IVec S_ 1 := (fun x v => Host.reduce IntOp.andi x v reducesTo_S81x512_S_d0_1 h_S_) main_v36 main_c_13
  let main_v38 : IVec S_ 1 := andi main_v33 main_v37
  let main_v39 : FVec F S81 .f32 := Host.absf main_arg8
  let main_cst_14 : FVec F S_ .f32 := constant S_ .f32 0x7F800000#32
  let main_v40 : FVec F S81 .f32 := broadcastInDim S81 ![] bcast_S_S81 main_cst_14
  let main_v41 : IVec S81 1 := cmpf .olt main_v39 main_v40
  let main_c_15 : IVec S_ 1 := constantI S_ 1 1#1
  let main_v42 : IVec S_ 1 := (fun x v => Host.reduce IntOp.andi x v reducesTo_S81_S_d0 h_S_) main_v41 main_c_15
  let main_v43 : IVec S_ 1 := andi main_v38 main_v42
  let main_v44 : FVec F S81x512 .f32 := Host.absf main_arg9
  let main_cst_16 : FVec F S_ .f32 := constant S_ .f32 0x7F800000#32
  let main_v45 : FVec F S81x512 .f32 := broadcastInDim S81x512 ![] bcast_S_S81x512 main_cst_16
  let main_v46 : IVec S81x512 1 := cmpf .olt main_v44 main_v45
  let main_c_17 : IVec S_ 1 := constantI S_ 1 1#1
  let main_v47 : IVec S_ 1 := (fun x v => Host.reduce IntOp.andi x v reducesTo_S81x512_S_d0_1 h_S_) main_v46 main_c_17
  let main_v48 : IVec S_ 1 := andi main_v43 main_v47
  let main_v49 : FVec F S81 .f32 := Host.absf main_arg10
  let main_cst_18 : FVec F S_ .f32 := constant S_ .f32 0x7F800000#32
  let main_v50 : FVec F S81 .f32 := broadcastInDim S81 ![] bcast_S_S81 main_cst_18
  fn_part3 (F := F) main_v48 main_v49 main_v50

def fn_part1 {F : FTy → Type} [FloatOps F] (main_arg4 : FVec F S81 .f32) (main_arg5 : FVec F S135x512 .f32) (main_arg6 : FVec F S135 .f32) (main_arg7 : FVec F S81x512 .f32) (main_arg8 : FVec F S81 .f32) (main_arg9 : FVec F S81x512 .f32) (main_arg10 : FVec F S81 .f32) (main_v13 : IVec S_ 1) (main_v16 : IVec S81x512 1) : IVec S_ 1 :=
  let main_c_5 : IVec S_ 1 := constantI S_ 1 1#1
  let main_v17 : IVec S_ 1 := (fun x v => Host.reduce IntOp.andi x v reducesTo_S81x512_S_d0_1 h_S_) main_v16 main_c_5
  let main_v18 : IVec S_ 1 := andi main_v13 main_v17
  let main_v19 : FVec F S81 .f32 := Host.absf main_arg4
  let main_cst_6 : FVec F S_ .f32 := constant S_ .f32 0x7F800000#32
  let main_v20 : FVec F S81 .f32 := broadcastInDim S81 ![] bcast_S_S81 main_cst_6
  let main_v21 : IVec S81 1 := cmpf .olt main_v19 main_v20
  let main_c_7 : IVec S_ 1 := constantI S_ 1 1#1
  let main_v22 : IVec S_ 1 := (fun x v => Host.reduce IntOp.andi x v reducesTo_S81_S_d0 h_S_) main_v21 main_c_7
  let main_v23 : IVec S_ 1 := andi main_v18 main_v22
  let main_v24 : FVec F S135x512 .f32 := Host.absf main_arg5
  let main_cst_8 : FVec F S_ .f32 := constant S_ .f32 0x7F800000#32
  let main_v25 : FVec F S135x512 .f32 := broadcastInDim S135x512 ![] bcast_S_S135x512 main_cst_8
  let main_v26 : IVec S135x512 1 := cmpf .olt main_v24 main_v25
  let main_c_9 : IVec S_ 1 := constantI S_ 1 1#1
  let main_v27 : IVec S_ 1 := (fun x v => Host.reduce IntOp.andi x v reducesTo_S135x512_S_d0_1 h_S_) main_v26 main_c_9
  let main_v28 : IVec S_ 1 := andi main_v23 main_v27
  let main_v29 : FVec F S135 .f32 := Host.absf main_arg6
  let main_cst_10 : FVec F S_ .f32 := constant S_ .f32 0x7F800000#32
  let main_v30 : FVec F S135 .f32 := broadcastInDim S135 ![] bcast_S_S135 main_cst_10
  let main_v31 : IVec S135 1 := cmpf .olt main_v29 main_v30
  let main_c_11 : IVec S_ 1 := constantI S_ 1 1#1
  let main_v32 : IVec S_ 1 := (fun x v => Host.reduce IntOp.andi x v reducesTo_S135_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x27x5x512 .f32) (main_arg1 : FVec F S81x512 .f32) (main_arg2 : FVec F S81 .f32) (main_arg3 : FVec F S81x512 .f32) (main_arg4 : FVec F S81 .f32) (main_arg5 : FVec F S135x512 .f32) (main_arg6 : FVec F S135 .f32) (main_arg7 : FVec F S81x512 .f32) (main_arg8 : FVec F S81 .f32) (main_arg9 : FVec F S81x512 .f32) (main_arg10 : FVec F S81 .f32) : IVec S_ 1 :=
  let main_v0 : FVec F S1024x27x5x512 .f32 := Host.absf main_arg0
  let main_cst : FVec F S_ .f32 := constant S_ .f32 0x7F800000#32
  let main_v1 : FVec F S1024x27x5x512 .f32 := broadcastInDim S1024x27x5x512 ![] bcast_S_S1024x27x5x512 main_cst
  let main_v2 : IVec S1024x27x5x512 1 := cmpf .olt main_v0 main_v1
  let main_c : IVec S_ 1 := constantI S_ 1 1#1
  let main_v3 : IVec S_ 1 := (fun x v => Host.reduce IntOp.andi x v reducesTo_S1024x27x5x512_S_d0_1_2_3 h_S_) main_v2 main_c
  let main_v4 : FVec F S81x512 .f32 := Host.absf main_arg1
  let main_cst_0 : FVec F S_ .f32 := constant S_ .f32 0x7F800000#32
  let main_v5 : FVec F S81x512 .f32 := broadcastInDim S81x512 ![] bcast_S_S81x512 main_cst_0
  let main_v6 : IVec S81x512 1 := cmpf .olt main_v4 main_v5
  let main_c_1 : IVec S_ 1 := constantI S_ 1 1#1
  let main_v7 : IVec S_ 1 := (fun x v => Host.reduce IntOp.andi x v reducesTo_S81x512_S_d0_1 h_S_) main_v6 main_c_1
  let main_v8 : IVec S_ 1 := andi main_v3 main_v7
  let main_v9 : FVec F S81 .f32 := Host.absf main_arg2
  let main_cst_2 : FVec F S_ .f32 := constant S_ .f32 0x7F800000#32
  let main_v10 : FVec F S81 .f32 := broadcastInDim S81 ![] bcast_S_S81 main_cst_2
  let main_v11 : IVec S81 1 := cmpf .olt main_v9 main_v10
  let main_c_3 : IVec S_ 1 := constantI S_ 1 1#1
  let main_v12 : IVec S_ 1 := (fun x v => Host.reduce IntOp.andi x v reducesTo_S81_S_d0 h_S_) main_v11 main_c_3
  let main_v13 : IVec S_ 1 := andi main_v8 main_v12
  let main_v14 : FVec F S81x512 .f32 := Host.absf main_arg3
  let main_cst_4 : FVec F S_ .f32 := constant S_ .f32 0x7F800000#32
  let main_v15 : FVec F S81x512 .f32 := broadcastInDim S81x512 ![] bcast_S_S81x512 main_cst_4
  let main_v16 : IVec S81x512 1 := cmpf .olt main_v14 main_v15
  fn_part1 (F := F) main_arg4 main_arg5 main_arg6 main_arg7 main_arg8 main_arg9 main_arg10 main_v13 main_v16
-- ==== Kernel.lean ====
abbrev S1024x27x5x512 : Shape := ⟨4, ![1024, 27, 5, 512]⟩
abbrev S81x512 : Shape := ⟨2, ![81, 512]⟩
abbrev S81 : Shape := ⟨1, ![81]⟩
abbrev S135x512 : Shape := ⟨2, ![135, 512]⟩
abbrev S135 : Shape := ⟨1, ![135]⟩
abbrev S1x81 : Shape := ⟨2, ![1, 81]⟩
abbrev S1x135 : Shape := ⟨2, ![1, 135]⟩
abbrev S1024x27x9x51 : Shape := ⟨4, ![1024, 27, 9, 51]⟩
abbrev S32x27x5x512 : Shape := ⟨4, ![32, 27, 5, 512]⟩
abbrev S32x27x9x51 : Shape := ⟨4, ![32, 27, 9, 51]⟩
abbrev S32x27x1x512 : Shape := ⟨4, ![32, 27, 1, 512]⟩
abbrev S32x27x512 : Shape := ⟨3, ![32, 27, 512]⟩
abbrev S864x512 : Shape := ⟨2, ![864, 512]⟩
abbrev S864x81 : Shape := ⟨2, ![864, 81]⟩
abbrev S32x27x81 : Shape := ⟨3, ![32, 27, 81]⟩
abbrev S32x27x9x9 : Shape := ⟨4, ![32, 27, 9, 9]⟩
abbrev S864x135 : Shape := ⟨2, ![864, 135]⟩
abbrev S32x27x135 : Shape := ⟨3, ![32, 27, 135]⟩
abbrev S32x27x9x15 : Shape := ⟨4, ![32, 27, 9, 15]⟩
abbrev S32x27x9x3 : Shape := ⟨4, ![32, 27, 9, 3]⟩
abbrev S32x27x9x12 : Shape := ⟨4, ![32, 27, 9, 12]⟩
abbrev S1024x243x17x3 : Shape := ⟨4, ![1024, 243, 17, 3]⟩

abbrev nBuf : Space → Nat
  | .hbm => 18
  | .vmem => 14
  | .smem => 0
  | _ => 0

abbrev bufTy : (tb : Table) → Fin (tcTables nBuf tb) → BufTy
  | .hbm, ⟨0, _⟩ => ⟨S1024x27x5x512, .f32⟩
  | .hbm, ⟨1, _⟩ => ⟨S81x512, .f32⟩
  | .hbm, ⟨2, _⟩ => ⟨S81, .f32⟩
  | .hbm, ⟨3, _⟩ => ⟨S81x512, .f32⟩
  | .hbm, ⟨4, _⟩ => ⟨S81, .f32⟩
  | .hbm, ⟨5, _⟩ => ⟨S135x512, .f32⟩
  | .hbm, ⟨6, _⟩ => ⟨S135, .f32⟩
  | .hbm, ⟨7, _⟩ => ⟨S81x512, .f32⟩
  | .hbm, ⟨8, _⟩ => ⟨S81, .f32⟩
  | .hbm, ⟨9, _⟩ => ⟨S81x512, .f32⟩
  | .hbm, ⟨10, _⟩ => ⟨S81, .f32⟩
  | .hbm, ⟨11, _⟩ => ⟨S1x81, .f32⟩
  | .hbm, ⟨12, _⟩ => ⟨S1x81, .f32⟩
  | .hbm, ⟨13, _⟩ => ⟨S1x135, .f32⟩
  | .hbm, ⟨14, _⟩ => ⟨S1x81, .f32⟩
  | .hbm, ⟨15, _⟩ => ⟨S1x81, .f32⟩
  | .hbm, ⟨16, _⟩ => ⟨S1024x27x9x51, .f32⟩
  | .hbm, ⟨17, _⟩ => ⟨S1024x243x17x3, .f32⟩
  | .local _ .vmem, ⟨0, _⟩ => ⟨S32x27x5x512, .f32⟩
  | .local _ .vmem, ⟨1, _⟩ => ⟨S32x27x5x512, .f32⟩
  | .local _ .vmem, ⟨2, _⟩ => ⟨S81x512, .f32⟩
  | .local _ .vmem, ⟨3, _⟩ => ⟨S1x81, .f32⟩
  | .local _ .vmem, ⟨4, _⟩ => ⟨S81x512, .f32⟩
  | .local _ .vmem, ⟨5, _⟩ => ⟨S1x81, .f32⟩
  | .local _ .vmem, ⟨6, _⟩ => ⟨S135x512, .f32⟩
  | .local _ .vmem, ⟨7, _⟩ => ⟨S1x135, .f32⟩
  | .local _ .vmem, ⟨8, _⟩ => ⟨S81x512, .f32⟩
  | .local _ .vmem, ⟨9, _⟩ => ⟨S1x81, .f32⟩
  | .local _ .vmem, ⟨10, _⟩ => ⟨S81x512, .f32⟩
  | .local _ .vmem, ⟨11, _⟩ => ⟨S1x81, .f32⟩
  | .local _ .vmem, ⟨12, _⟩ => ⟨S32x27x9x51, .f32⟩
  | .local _ .vmem, ⟨13, _⟩ => ⟨S32x27x9x51, .f32⟩
  | _, _ => ⟨S1024x27x5x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x27x5x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S81x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x81 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S81x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x81 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S135x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x135 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S81x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x81 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S81x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x81 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x27x9x51 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S81_S1x81 : S81.ShapeCasts S1x81
  shapeCasts_S135_S1x135 : S135.ShapeCasts S1x135
  inb_S32x27x5x512_S32x27x1x512_0_0_0_0 : ∀ a, (![0, 0, 0, 0] : Fin 4 → Nat) a + S32x27x1x512.size a ≤ S32x27x5x512.size a
  h_S32x27x1x512 : 0 < S32x27x1x512.numel
  shapeCasts_S32x27x1x512_S32x27x512 : S32x27x1x512.ShapeCasts S32x27x512
  shapeCasts_S32x27x512_S864x512 : S32x27x512.ShapeCasts S864x512
  bitsLt_bf16_f32 : FTy.bits .bf16 < FTy.bits .f32
  inb_S81x512_S81x512_0_0 : ∀ a, (![0, 0] : Fin 2 → Nat) a + S81x512.size a ≤ S81x512.size a
  h_S81x512 : 0 < S81x512.numel
  inb_S1x81_S1x81_0_0 : ∀ a, (![0, 0] : Fin 2 → Nat) a + S1x81.size a ≤ S1x81.size a
  h_S1x81 : 0 < S1x81.numel
  shapeCasts_S1x81_S1x81 : S1x81.ShapeCasts S1x81
  broadcasts_S1x81_S864x81 : S1x81.Broadcasts S864x81
  shapeCasts_S864x81_S32x27x81 : S864x81.ShapeCasts S32x27x81
  shapeCasts_S32x27x81_S32x27x9x9 : S32x27x81.ShapeCasts S32x27x9x9
  inb_S32x27x9x51_S32x27x9x9_0_0_0_3 : ∀ a, (![0, 0, 0, 3] : Fin 4 → Nat) a + S32x27x9x9.size a ≤ S32x27x9x51.size a
  h_S32x27x9x9 : 0 < S32x27x9x9.numel
  inb_S32x27x5x512_S32x27x1x512_0_0_1_0 : ∀ a, (![0, 0, 1, 0] : Fin 4 → Nat) a + S32x27x1x512.size a ≤ S32x27x5x512.size a
  inb_S32x27x9x51_S32x27x9x9_0_0_0_12 : ∀ a, (![0, 0, 0, 12] : Fin 4 → Nat) a + S32x27x9x9.size a ≤ S32x27x9x51.size a
  inb_S32x27x5x512_S32x27x1x512_0_0_2_0 : ∀ a, (![0, 0, 2, 0] : Fin 4 → Nat) a + S32x27x1x512.size a ≤ S32x27x5x512.size a
  inb_S135x512_S135x512_0_0 : ∀ a, (![0, 0] : Fin 2 → Nat) a + S135x512.size a ≤ S135x512.size a
  h_S135x512 : 0 < S135x512.numel
  inb_S1x135_S1x135_0_0 : ∀ a, (![0, 0] : Fin 2 → Nat) a + S1x135.size a ≤ S1x135.size a
  h_S1x135 : 0 < S1x135.numel
  shapeCasts_S1x135_S1x135 : S1x135.ShapeCasts S1x135
  broadcasts_S1x135_S864x135 : S1x135.Broadcasts S864x135
  shapeCasts_S864x135_S32x27x135 : S864x135.ShapeCasts S32x27x135
  shapeCasts_S32x27x135_S32x27x9x15 : S32x27x135.ShapeCasts S32x27x9x15
  slices_S32x27x9x15_o0_0_0_0_S32x27x9x3 : S32x27x9x15.Slices ![0, 0, 0, 0] S32x27x9x3
  inb_S32x27x9x51_S32x27x9x3_0_0_0_0 : ∀ a, (![0, 0, 0, 0] : Fin 4 → Nat) a + S32x27x9x3.size a ≤ S32x27x9x51.size a
  h_S32x27x9x3 : 0 < S32x27x9x3.numel
  slices_S32x27x9x15_o0_0_0_3_S32x27x9x12 : S32x27x9x15.Slices ![0, 0, 0, 3] S32x27x9x12
  inb_S32x27x9x51_S32x27x9x12_0_0_0_21 : ∀ a, (![0, 0, 0, 21] : Fin 4 → Nat) a + S32x27x9x12.size a ≤ S32x27x9x51.size a
  h_S32x27x9x12 : 0 < S32x27x9x12.numel
  inb_S32x27x5x512_S32x27x1x512_0_0_3_0 : ∀ a, (![0, 0, 3, 0] : Fin 4 → Nat) a + S32x27x1x512.size a ≤ S32x27x5x512.size a
  inb_S32x27x9x51_S32x27x9x9_0_0_0_33 : ∀ a, (![0, 0, 0, 33] : Fin 4 → Nat) a + S32x27x9x9.size a ≤ S32x27x9x51.size a
  inb_S32x27x5x512_S32x27x1x512_0_0_4_0 : ∀ a, (![0, 0, 4, 0] : Fin 4 → Nat) a + S32x27x1x512.size a ≤ S32x27x5x512.size a
  inb_S32x27x9x51_S32x27x9x9_0_0_0_42 : ∀ a, (![0, 0, 0, 42] : Fin 4 → Nat) a + S32x27x9x9.size a ≤ S32x27x9x51.size a
  shapeCasts_S1024x27x9x51_S1024x243x17x3 : S1024x27x9x51.ShapeCasts S1024x243x17x3
  dot_S864x512_S81x512_S864x81_1_1_0_0_n_n_wf : DotDims.WF S864x512 S81x512 S864x81 [1] [1] [0] [0] [] []
  dot_S864x512_S135x512_S864x135_1_1_0_0_n_n_wf : DotDims.WF S864x512 S135x512 S864x135 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x27x5x512.size a ≤ S1024x27x5x512.size a
  hwx0_0 : ∀ i : grid0.Coords, EltTy.bits .f32 = 32 ∨ (Rect.block (s := S1024x27x5x512) S32x27x5x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S81x512.size a ≤ S81x512.size a
  hwx0_1 : ∀ i : grid0.Coords, EltTy.bits .f32 = 32 ∨ (Rect.block (s := S81x512) S81x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x81.size a ≤ S1x81.size a
  hwx0_2 : ∀ i : grid0.Coords, EltTy.bits .f32 = 32 ∨ (Rect.block (s := S1x81) S1x81.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S81x512.size a ≤ S81x512.size a
  hwx0_3 : ∀ i : grid0.Coords, EltTy.bits .f32 = 32 ∨ (Rect.block (s := S81x512) S81x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x81.size a ≤ S1x81.size a
  hwx0_4 : ∀ i : grid0.Coords, EltTy.bits .f32 = 32 ∨ (Rect.block (s := S1x81) S1x81.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S135x512.size a ≤ S135x512.size a
  hwx0_5 : ∀ i : grid0.Coords, EltTy.bits .f32 = 32 ∨ (Rect.block (s := S135x512) S135x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x135.size a ≤ S1x135.size a
  hwx0_6 : ∀ i : grid0.Coords, EltTy.bits .f32 = 32 ∨ (Rect.block (s := S1x135) S1x135.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S81x512.size a ≤ S81x512.size a
  hwx0_7 : ∀ i : grid0.Coords, EltTy.bits .f32 = 32 ∨ (Rect.block (s := S81x512) S81x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x81.size a ≤ S1x81.size a
  hwx0_8 : ∀ i : grid0.Coords, EltTy.bits .f32 = 32 ∨ (Rect.block (s := S1x81) S1x81.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S81x512.size a ≤ S81x512.size a
  hwx0_9 : ∀ i : grid0.Coords, EltTy.bits .f32 = 32 ∨ (Rect.block (s := S81x512) S81x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x81.size a ≤ S1x81.size a
  hwx0_10 : ∀ i : grid0.Coords, EltTy.bits .f32 = 32 ∨ (Rect.block (s := S1x81) S1x81.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x27x9x51.size a ≤ S1024x27x9x51.size a
  hwx0_11 : ∀ i : grid0.Coords, EltTy.bits .f32 = 32 ∨ (Rect.block (s := S1024x27x9x51) S32x27x9x51.size (cc0_transform_11 i) (hinb0_11 i)).WholeWords (EltTy.packing .f32)

variable [Facts₀]

def dot_S864x512_S81x512_S864x81_1_1_0_0_n_n : DotDims S864x512 S81x512 S864x81 where
  lhsContracting := [1]
  rhsContracting := [1]
  lhsNonContracting := [0]
  rhsNonContracting := [0]
  lhsBatch := []
  rhsBatch := []
  wf := dot_S864x512_S81x512_S864x81_1_1_0_0_n_n_wf
def dot_S864x512_S135x512_S864x135_1_1_0_0_n_n : DotDims S864x512 S135x512 S864x135 where
  lhsContracting := [1]
  rhsContracting := [1]
  lhsNonContracting := [0]
  rhsNonContracting := [0]
  lhsBatch := []
  rhsBatch := []
  wf := dot_S864x512_S135x512_S864x135_1_1_0_0_n_n_wf

abbrev win0_0 : Pipeline.Window sig grid0 :=
  Pipeline.Window.ofSpec (Memref.whole main_arg0) S32x27x5x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S81x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x81.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S81x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x81.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S135x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x135.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S81x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x81.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S81x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x81.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S32x27x9x51.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1024x27x5x512 : Shape := ⟨4, ![1024, 27, 5, 512]⟩
abbrev S81x512 : Shape := ⟨2, ![81, 512]⟩
abbrev S81 : Shape := ⟨1, ![81]⟩
abbrev S135x512 : Shape := ⟨2, ![135, 512]⟩
abbrev S135 : Shape := ⟨1, ![135]⟩
abbrev S3 : Shape := ⟨1, ![3]⟩
abbrev S5 : Shape := ⟨1, ![5]⟩
abbrev S_ : Shape := ⟨0, ![]⟩
abbrev S1024x243x17x3 : Shape := ⟨4, ![1024, 243, 17, 3]⟩
abbrev S1024x243x17x1 : Shape := ⟨4, ![1024, 243, 17, 1]⟩
abbrev S1024x27x1x512 : Shape := ⟨4, ![1024, 27, 1, 512]⟩
abbrev S1024x27x512 : Shape := ⟨3, ![1024, 27, 512]⟩
abbrev S1024x27x81 : Shape := ⟨3, ![1024, 27, 81]⟩
abbrev S1x1x81 : Shape := ⟨3, ![1, 1, 81]⟩
abbrev S1024x243x3x3 : Shape := ⟨4, ![1024, 243, 3, 3]⟩
abbrev S3x1 : Shape := ⟨2, ![3, 1]⟩
abbrev S1024x243x3x1 : Shape := ⟨4, ![1024, 243, 3, 1]⟩
abbrev S1024x27x135 : Shape := ⟨3, ![1024, 27, 135]⟩
abbrev S1x1x135 : Shape := ⟨3, ![1, 1, 135]⟩
abbrev S1024x243x5x3 : Shape := ⟨4, ![1024, 243, 5, 3]⟩
abbrev S5x1 : Shape := ⟨2, ![5, 1]⟩
abbrev S1024x243x5x1 : Shape := ⟨4, ![1024, 243, 5, 1]⟩

abbrev nBuf : Space → Nat
  | .hbm => 161
  | .vmem => 0
  | .smem => 0
  | _ => 0

abbrev hbmTy0_0 (i : Nat) : BufTy := match i % 128 with
  | 0 => ⟨S1024x27x5x512, .f32⟩
  | 1 => ⟨S81x512, .f32⟩
  | 2 => ⟨S81, .f32⟩
  | 3 => ⟨S81x512, .f32⟩
  | 4 => ⟨S81, .f32⟩
  | 5 => ⟨S135x512, .f32⟩
  | 6 => ⟨S135, .f32⟩
  | 7 => ⟨S81x512, .f32⟩
  | 8 => ⟨S81, .f32⟩
  | 9 => ⟨S81x512, .f32⟩
  | 10 => ⟨S81, .f32⟩
  | 11 => ⟨S3, .i32⟩
  | 12 => ⟨S3, .i32⟩
  | 13 => ⟨S5, .i32⟩
  | 14 => ⟨S3, .i32⟩
  | 15 => ⟨S3, .i32⟩
  | 16 => ⟨S_, .f32⟩
  | 17 => ⟨S1024x243x17x3, .f32⟩
  | 18 => ⟨S_, .f32⟩
  | 19 => ⟨S1024x243x17x1, .f32⟩
  | 20 => ⟨S1024x27x1x512, .f32⟩
  | 21 => ⟨S1024x27x512, .f32⟩
  | 22 => ⟨S1024x27x81, .f32⟩
  | 23 => ⟨S1x1x81, .f32⟩
  | 24 => ⟨S1024x27x81, .f32⟩
  | 25 => ⟨S1024x27x81, .f32⟩
  | 26 => ⟨S1024x243x3x3, .f32⟩
  | 27 => ⟨S_, .i32⟩
  | 28 => ⟨S3, .i32⟩
  | 29 => ⟨S3, .i1⟩
  | 30 => ⟨S_, .i32⟩
  | 31 => ⟨S3, .i32⟩
  | 32 => ⟨S3, .i32⟩
  | 33 => ⟨S3, .i32⟩
  | 34 => ⟨S3x1, .i32⟩
  | 35 => ⟨S1024x243x17x3, .f32⟩
  | 36 => ⟨S_, .i32⟩
  | 37 => ⟨S3, .i32⟩
  | 38 => ⟨S3, .i1⟩
  | 39 => ⟨S_, .i32⟩
  | 40 => ⟨S3, .i32⟩
  | 41 => ⟨S3, .i32⟩
  | 42 => ⟨S3, .i32⟩
  | 43 => ⟨S3x1, .i32⟩
  | 44 => ⟨S_, .f32⟩
  | 45 => ⟨S1024x243x3x1, .f32⟩
  | 46 => ⟨S1024x243x17x1, .f32⟩
  | 47 => ⟨S1024x27x1x512, .f32⟩
  | 48 => ⟨S1024x27x512, .f32⟩
  | 49 => ⟨S1024x27x81, .f32⟩
  | 50 => ⟨S1x1x81, .f32⟩
  | 51 => ⟨S1024x27x81, .f32⟩
  | 52 => ⟨S1024x27x81, .f32⟩
  | 53 => ⟨S1024x243x3x3, .f32⟩
  | 54 => ⟨S_, .i32⟩
  | 55 => ⟨S3, .i32⟩
  | 56 => ⟨S3, .i1⟩
  | 57 => ⟨S_, .i32⟩
  | 58 => ⟨S3, .i32⟩
  | 59 => ⟨S3, .i32⟩
  | 60 => ⟨S3, .i32⟩
  | 61 => ⟨S3x1, .i32⟩
  | 62 => ⟨S1024x243x17x3, .f32⟩
  | 63 => ⟨S_, .i32⟩
  | 64 => ⟨S3, .i32⟩
  | 65 => ⟨S3, .i1⟩
  | 66 => ⟨S_, .i32⟩
  | 67 => ⟨S3, .i32⟩
  | 68 => ⟨S3, .i32⟩
  | 69 => ⟨S3, .i32⟩
  | 70 => ⟨S3x1, .i32⟩
  | 71 => ⟨S_, .f32⟩
  | 72 => ⟨S1024x243x3x1, .f32⟩
  | 73 => ⟨S1024x243x17x1, .f32⟩
  | 74 => ⟨S1024x27x1x512, .f32⟩
  | 75 => ⟨S1024x27x512, .f32⟩
  | 76 => ⟨S1024x27x135, .f32⟩
  | 77 => ⟨S1x1x135, .f32⟩
  | 78 => ⟨S1024x27x135, .f32⟩
  | 79 => ⟨S1024x27x135, .f32⟩
  | 80 => ⟨S1024x243x5x3, .f32⟩
  | 81 => ⟨S_, .i32⟩
  | 82 => ⟨S5, .i32⟩
  | 83 => ⟨S5, .i1⟩
  | 84 => ⟨S_, .i32⟩
  | 85 => ⟨S5, .i32⟩
  | 86 => ⟨S5, .i32⟩
  | 87 => ⟨S5, .i32⟩
  | 88 => ⟨S5x1, .i32⟩
  | 89 => ⟨S1024x243x17x3, .f32⟩
  | 90 => ⟨S_, .i32⟩
  | 91 => ⟨S5, .i32⟩
  | 92 => ⟨S5, .i1⟩
  | 93 => ⟨S_, .i32⟩
  | 94 => ⟨S5, .i32⟩
  | 95 => ⟨S5, .i32⟩
  | 96 => ⟨S5, .i32⟩
  | 97 => ⟨S5x1, .i32⟩
  | 98 => ⟨S_, .f32⟩
  | 99 => ⟨S1024x243x5x1, .f32⟩
  | 100 => ⟨S1024x243x17x1, .f32⟩
  | 101 => ⟨S1024x27x1x512, .f32⟩
  | 102 => ⟨S1024x27x512, .f32⟩
  | 103 => ⟨S1024x27x81, .f32⟩
  | 104 => ⟨S1x1x81, .f32⟩
  | 105 => ⟨S1024x27x81, .f32⟩
  | 106 => ⟨S1024x27x81, .f32⟩
  | 107 => ⟨S1024x243x3x3, .f32⟩
  | 108 => ⟨S_, .i32⟩
  | 109 => ⟨S3, .i32⟩
  | 110 => ⟨S3, .i1⟩
  | 111 => ⟨S_, .i32⟩
  | 112 => ⟨S3, .i32⟩
  | 113 => ⟨S3, .i32⟩
  | 114 => ⟨S3, .i32⟩
  | 115 => ⟨S3x1, .i32⟩
  | 116 => ⟨S1024x243x17x3, .f32⟩
  | 117 => ⟨S_, .i32⟩
  | 118 => ⟨S3, .i32⟩
  | 119 => ⟨S3, .i1⟩
  | 120 => ⟨S_, .i32⟩
  | 121 => ⟨S3, .i32⟩
  | 122 => ⟨S3, .i32⟩
  | 123 => ⟨S3, .i32⟩
  | 124 => ⟨S3x1, .i32⟩
  | 125 => ⟨S_, .f32⟩
  | 126 => ⟨S1024x243x3x1, .f32⟩
  | 127 => ⟨S1024x243x17x1, .f32⟩
  | _ => ⟨S1024x27x5x512, .f32⟩

abbrev hbmTy0_1 (i : Nat) : BufTy := match i % 128 with
  | 0 => ⟨S1024x27x1x512, .f32⟩
  | 1 => ⟨S1024x27x512, .f32⟩
  | 2 => ⟨S1024x27x81, .f32⟩
  | 3 => ⟨S1x1x81, .f32⟩
  | 4 => ⟨S1024x27x81, .f32⟩
  | 5 => ⟨S1024x27x81, .f32⟩
  | 6 => ⟨S1024x243x3x3, .f32⟩
  | 7 => ⟨S_, .i32⟩
  | 8 => ⟨S3, .i32⟩
  | 9 => ⟨S3, .i1⟩
  | 10 => ⟨S_, .i32⟩
  | 11 => ⟨S3, .i32⟩
  | 12 => ⟨S3, .i32⟩
  | 13 => ⟨S3, .i32⟩
  | 14 => ⟨S3x1, .i32⟩
  | 15 => ⟨S1024x243x17x3, .f32⟩
  | 16 => ⟨S_, .i32⟩
  | 17 => ⟨S3, .i32⟩
  | 18 => ⟨S3, .i1⟩
  | 19 => ⟨S_, .i32⟩
  | 20 => ⟨S3, .i32⟩
  | 21 => ⟨S3, .i32⟩
  | 22 => ⟨S3, .i32⟩
  | 23 => ⟨S3x1, .i32⟩
  | 24 => ⟨S_, .f32⟩
  | 25 => ⟨S1024x243x3x1, .f32⟩
  | 26 => ⟨S1024x243x17x1, .f32⟩
  | 27 => ⟨S_, .f32⟩
  | 28 => ⟨S_, .f32⟩
  | 29 => ⟨S1024x243x17x1, .f32⟩
  | 30 => ⟨S1024x243x17x1, .f32⟩
  | 31 => ⟨S1024x243x17x3, .f32⟩
  | 32 => ⟨S1024x243x17x3, .f32⟩
  | _ => ⟨S1024x27x5x512, .f32⟩

abbrev hbmTy (i : Nat) : BufTy := match i / 128 with
  | 0 => hbmTy0_0 i
  | 1 => hbmTy0_1 i
  | _ => ⟨S1024x27x5x512, .f32⟩

abbrev bufTy : (tb : Table) → Fin (tcTables nBuf tb) → BufTy
  | .hbm, ⟨i, _⟩ => hbmTy i
  | _, _ => ⟨S1024x27x5x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_cst : Ref sig .tc := ⟨.hbm, 16, rfl⟩
abbrev main_v0 : Ref sig .tc := ⟨.hbm, 17, rfl⟩
abbrev main_cst_4 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_5 : Ref sig .tc := ⟨.hbm, 27, rfl⟩
abbrev main_v9 : Ref sig .tc := ⟨.hbm, 28, rfl⟩
abbrev main_v10 : Ref sig .tc := ⟨.hbm, 29, rfl⟩
abbrev main_c_6 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_7 : Ref sig .tc := ⟨.hbm, 36, rfl⟩
abbrev main_v16 : Ref sig .tc := ⟨.hbm, 37, rfl⟩
abbrev main_v17 : Ref sig .tc := ⟨.hbm, 38, rfl⟩
abbrev main_c_8 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_9 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_10 : Ref sig .tc := ⟨.hbm, 54, rfl⟩
abbrev main_v31 : Ref sig .tc := ⟨.hbm, 55, rfl⟩
abbrev main_v32 : Ref sig .tc := ⟨.hbm, 56, rfl⟩
abbrev main_c_11 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_12 : Ref sig .tc := ⟨.hbm, 63, rfl⟩
abbrev main_v38 : Ref sig .tc := ⟨.hbm, 64, rfl⟩
abbrev main_v39 : Ref sig .tc := ⟨.hbm, 65, rfl⟩
abbrev main_c_13 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_14 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_15 : Ref sig .tc := ⟨.hbm, 81, rfl⟩
abbrev main_v53 : Ref sig .tc := ⟨.hbm, 82, rfl⟩
abbrev main_v54 : Ref sig .tc := ⟨.hbm, 83, rfl⟩
abbrev main_c_16 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_17 : Ref sig .tc := ⟨.hbm, 90, rfl⟩
abbrev main_v60 : Ref sig .tc := ⟨.hbm, 91, rfl⟩
abbrev main_v61 : Ref sig .tc := ⟨.hbm, 92, rfl⟩
abbrev main_c_18 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_19 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_20 : Ref sig .tc := ⟨.hbm, 108, rfl⟩
abbrev main_v75 : Ref sig .tc := ⟨.hbm, 109, rfl⟩
abbrev main_v76 : Ref sig .tc := ⟨.hbm, 110, rfl⟩
abbrev main_c_21 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_22 : Ref sig .tc := ⟨.hbm, 117, rfl⟩
abbrev main_v82 : Ref sig .tc := ⟨.hbm, 118, rfl⟩
abbrev main_v83 : Ref sig .tc := ⟨.hbm, 119, rfl⟩
abbrev main_c_23 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_24 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_25 : Ref sig .tc := ⟨.hbm, 135, rfl⟩
abbrev main_v97 : Ref sig .tc := ⟨.hbm, 136, rfl⟩
abbrev main_v98 : Ref sig .tc := ⟨.hbm, 137, rfl⟩
abbrev main_c_26 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_27 : Ref sig .tc := ⟨.hbm, 144, rfl⟩
abbrev main_v104 : Ref sig .tc := ⟨.hbm, 145, rfl⟩
abbrev main_v105 : Ref sig .tc := ⟨.hbm, 146, rfl⟩
abbrev main_c_28 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_29 : Ref sig .tc := ⟨.hbm, 152, rfl⟩
abbrev main_v110 : Ref sig .tc := ⟨.hbm, 153, rfl⟩
abbrev main_v111 : Ref sig .tc := ⟨.hbm, 154, rfl⟩
abbrev main_cst_30 : Ref sig .tc := ⟨.hbm, 155, rfl⟩
abbrev main_call0_v0 : Ref sig .tc := ⟨.hbm, 156, rfl⟩
abbrev main_call0_v1 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩

abbrev nD : Nat := 1
abbrev τ : Topo := Topo.v7x

variable {F : FTy → Type} [FloatOps F]

class Facts₀ : Prop where
  bcast_S_S1024x243x17x3 : S_.BroadcastsInDim S1024x243x17x3 (![] : Fin 0 → Fin S1024x243x17x3.rank)
  bcast_S_S1024x243x17x1 : S_.BroadcastsInDim S1024x243x17x1 (![] : Fin 0 → Fin S1024x243x17x1.rank)
  slices_S1024x27x5x512_S1024x27x1x512_0_0_0_0 : S1024x27x5x512.Slices ![0, 0, 0, 0] S1024x27x1x512
  shapeCasts_S1024x27x1x512_S1024x27x512 : S1024x27x1x512.ShapeCasts S1024x27x512
  bcast_S81_S1x1x81_2 : S81.BroadcastsInDim S1x1x81 (![2] : Fin 1 → Fin S1x1x81.rank)
  bcast_S1x1x81_S1024x27x81_0_1_2 : S1x1x81.BroadcastsInDim S1024x27x81 (![0, 1, 2] : Fin 3 → Fin S1024x27x81.rank)
  shapeCasts_S1024x27x81_S1024x243x3x3 : S1024x27x81.ShapeCasts S1024x243x3x3
  bcast_S_S3 : S_.BroadcastsInDim S3 (![] : Fin 0 → Fin S3.rank)
  bcast_S3_S3x1_0 : S3.BroadcastsInDim S3x1 (![0] : Fin 1 → Fin S3x1.rank)
  bcast_S_S1024x243x3x1 : S_.BroadcastsInDim S1024x243x3x1 (![] : Fin 0 → Fin S1024x243x3x1.rank)
  slices_S1024x27x5x512_S1024x27x1x512_0_0_1_0 : S1024x27x5x512.Slices ![0, 0, 1, 0] S1024x27x1x512
  slices_S1024x27x5x512_S1024x27x1x512_0_0_2_0 : S1024x27x5x512.Slices ![0, 0, 2, 0] S1024x27x1x512
  bcast_S135_S1x1x135_2 : S135.BroadcastsInDim S1x1x135 (![2] : Fin 1 → Fin S1x1x135.rank)
  bcast_S1x1x135_S1024x27x135_0_1_2 : S1x1x135.BroadcastsInDim S1024x27x135 (![0, 1, 2] : Fin 3 → Fin S1024x27x135.rank)
  shapeCasts_S1024x27x135_S1024x243x5x3 : S1024x27x135.ShapeCasts S1024x243x5x3
  bcast_S_S5 : S_.BroadcastsInDim S5 (![] : Fin 0 → Fin S5.rank)
  bcast_S5_S5x1_0 : S5.BroadcastsInDim S5x1 (![0] : Fin 1 → Fin S5x1.rank)
  bcast_S_S1024x243x5x1 : S_.BroadcastsInDim S1024x243x5x1 (![] : Fin 0 → Fin S1024x243x5x1.rank)
  slices_S1024x27x5x512_S1024x27x1x512_0_0_3_0 : S1024x27x5x512.Slices ![0, 0, 3, 0] S1024x27x1x512
  slices_S1024x27x5x512_S1024x27x1x512_0_0_4_0 : S1024x27x5x512.Slices ![0, 0, 4, 0] S1024x27x1x512
  bcast_S1024x243x17x1_S1024x243x17x3_0_1_2_3 : S1024x243x17x1.BroadcastsInDim S1024x243x17x3 (![0, 1, 2, 3] : Fin 4 → Fin S1024x243x17x3.rank)
  dot_S1024x27x512_S81x512_S1024x27x81_2_1_01_0_n_n_wf : DotDims.WF S1024x27x512 S81x512 S1024x27x81 [2] [1] [0, 1] [0] [] []
  scatter_S1024x243x17x3_S3x1_S1024x243x3x3_013_2_2_1_wf : ScatterDims.WF S1024x243x17x3 S3x1 S1024x243x3x3 [0, 1, 3] [2] [2] 1
  scatter_S1024x243x17x1_S3x1_S1024x243x3x1_013_2_2_1_wf : ScatterDims.WF S1024x243x17x1 S3x1 S1024x243x3x1 [0, 1, 3] [2] [2] 1
  dot_S1024x27x512_S135x512_S1024x27x135_2_1_01_0_n_n_wf : DotDims.WF S1024x27x512 S135x512 S1024x27x135 [2] [1] [0, 1] [0] [] []
  scatter_S1024x243x17x3_S5x1_S1024x243x5x3_013_2_2_1_wf : ScatterDims.WF S1024x243x17x3 S5x1 S1024x243x5x3 [0, 1, 3] [2] [2] 1
  scatter_S1024x243x17x1_S5x1_S1024x243x5x1_013_2_2_1_wf : ScatterDims.WF S1024x243x17x1 S5x1 S1024x243x5x1 [0, 1, 3] [2] [2] 1

variable [Facts₀]

def dot_S1024x27x512_S81x512_S1024x27x81_2_1_01_0_n_n : DotDims S1024x27x512 S81x512 S1024x27x81 where
  lhsContracting := [2]
  rhsContracting := [1]
  lhsNonContracting := [0, 1]
  rhsNonContracting := [0]
  lhsBatch := []
  rhsBatch := []
  wf := dot_S1024x27x512_S81x512_S1024x27x81_2_1_01_0_n_n_wf
def scatter_S1024x243x17x3_S3x1_S1024x243x3x3_013_2_2_1 : ScatterDims S1024x243x17x3 S3x1 S1024x243x3x3 where
  updateWindowDims := [0, 1, 3]
  insertedWindowDims := [2]
  scatterDimsToOperandDims := [2]
  indexVectorDim := 1
  wf := scatter_S1024x243x17x3_S3x1_S1024x243x3x3_013_2_2_1_wf
def scatter_S1024x243x17x1_S3x1_S1024x243x3x1_013_2_2_1 : ScatterDims S1024x243x17x1 S3x1 S1024x243x3x1 where
  updateWindowDims := [0, 1, 3]
  insertedWindowDims := [2]
  scatterDimsToOperandDims := [2]
  indexVectorDim := 1
  wf := scatter_S1024x243x17x1_S3x1_S1024x243x3x1_013_2_2_1_wf
def dot_S1024x27x512_S135x512_S1024x27x135_2_1_01_0_n_n : DotDims S1024x27x512 S135x512 S1024x27x135 where
  lhsContracting := [2]
  rhsContracting := [1]
  lhsNonContracting := [0, 1]
  rhsNonContracting := [0]
  lhsBatch := []
  rhsBatch := []
  wf := dot_S1024x27x512_S135x512_S1024x27x135_2_1_01_0_n_n_wf
def scatter_S1024x243x17x3_S5x1_S1024x243x5x3_013_2_2_1 : ScatterDims S1024x243x17x3 S5x1 S1024x243x5x3 where
  updateWindowDims := [0, 1, 3]
  insertedWindowDims := [2]
  scatterDimsToOperandDims := [2]
  indexVectorDim := 1
  wf := scatter_S1024x243x17x3_S5x1_S1024x243x5x3_013_2_2_1_wf
def scatter_S1024x243x17x1_S5x1_S1024x243x5x1_013_2_2_1 : ScatterDims S1024x243x17x1 S5x1 S1024x243x5x1 where
  updateWindowDims := [0, 1, 3]
  insertedWindowDims := [2]
  scatterDimsToOperandDims := [2]
  indexVectorDim := 1
  wf := scatter_S1024x243x17x1_S5x1_S1024x243x5x1_013_2_2_1_wf

class Facts : Prop extends Facts₀ where

variable [Facts]
-- ==== Proof.Spec.lean ====
/-
  The function both programs compute, index by index, on the extended reals.

  tokens is f32[1024, 27, 5, 512]: for each batch row `b` and patch `t` one 512-vector per joint group. Group `g`
  (of `gs` joints) has a weight matrix `W` of `9·gs·3` rows and 512 columns and a bias of that length; its linear head at row
  `o` is `lin = Σ_h tokens[b, t, g, h] · W[o, h] + bias[o]`. Row `o = p·(gs·3) + k·3 + c` belongs to time step `p` of the
  patch (0 … 8), to the group's `k`-th joint and to channel `c`. The five groups are the joints `{1,2,3}`, `{4,5,6}`,
  `{0,7,8,9,10}`, `{11,12,13}`, `{14,15,16}`: every joint lies in exactly one of them. Writing `L = 3·j + c` for the lane of
  joint `j`, channel `c` among the 51 lanes of one time step, the result at `(b, t, p, L)` is the head of the group that owns
  joint `L / 3`, at the row of that joint's place in its group (`blk`); the result array f32[1024, 243, 17, 3] holds it at
  `(b, 9·t + p, j, c)` (`Gat`, `G`), and the same numbers laid out as f32[1024, 27, 9, 51] are `Gblk`.
  `lin` and `blk` are stated for any number `B` of batch rows (the whole array has 1024, one block of the kernel's grid 32)
  and with each bias as a function of the row number (a bias stored as a vector or as a one-row matrix is read the same way).
-/
import Idealize.ShloMosaic.Lib.ValueIdx

noncomputable section

open scoped BigOperators

namespace Cert.Decoder

open Idealize.ShloMosaic Idealize.ShloMosaic.ValueIdx

/-- One linear head: row `o` of group `g` at batch row `b`, patch `t`. -/
def lin {B n : Nat} (tok : FVec Ideal ⟨4, ![B, 27, 5, 512]⟩ .f32) (W : FVec Ideal ⟨2, ![n, 512]⟩ .f32)
    (bias : Fin n → EReal) (g : Fin 5) (b : Fin B) (t : Fin 27) (o : Fin n) : EReal :=
  (∑ h : Fin 512, tok (ix4 b t g h) * W (ix2 o h)) + bias o

/-- The head's row depends only on its number. -/
theorem lin_congr {B n : Nat} (tok : FVec Ideal ⟨4, ![B, 27, 5, 512]⟩ .f32) (W : FVec Ideal ⟨2, ![n, 512]⟩ .f32)
    (bias : Fin n → EReal) (g : Fin 5) (b : Fin B) (t : Fin 27) {o o' : Fin n} (h : o.val = o'.val) :
    lin tok W bias g b t o = lin tok W bias g b t o' := by
  rw [Fin.ext h]

section
variable {B : Nat} (tok : FVec Ideal ⟨4, ![B, 27, 5, 512]⟩ .f32)
  (W0 : FVec Ideal ⟨2, ![81, 512]⟩ .f32) (c0 : Fin 81 → EReal)
  (W1 : FVec Ideal ⟨2, ![81, 512]⟩ .f32) (c1 : Fin 81 → EReal)
  (W2 : FVec Ideal ⟨2, ![135, 512]⟩ .f32) (c2 : Fin 135 → EReal)
  (W3 : FVec Ideal ⟨2, ![81, 512]⟩ .f32) (c3 : Fin 81 → EReal)
  (W4 : FVec Ideal ⟨2, ![81, 512]⟩ .f32) (c4 : Fin 81 → EReal)

/-- The result at batch row `b`, patch `t`, time step `p` of the patch and lane `L = 3·joint + channel`: lanes 0–2 are joint 0
    (the first joint of group 2), 3–11 joints 1–3 (group 0), 12–20 joints 4–6 (group 1), 21–32 joints 7–10 (the other four
    joints of group 2), 33–41 joints 11–13 (group 3), 42–50 joints 14–16 (group 4). -/
def blk (b : Fin B) (t : Fin 27) (p : Fin 9) (L : Fin 51) : EReal :=
  if _h0 : L.val < 3 then lin tok W2 c2 2 b t ⟨p.val * 15 + L.val, by omega⟩
  else if _h1 : L.val < 12 then lin tok W0 c0 0 b t ⟨p.val * 9 + (L.val - 3), by omega⟩
  else if _h2 : L.val < 21 then lin tok W1 c1 1 b t ⟨p.val * 9 + (L.val - 12), by omega⟩
  else if _h3 : L.val < 33 then lin tok W2 c2 2 b t ⟨p.val * 15 + (L.val - 18), by omega⟩
  else if _h4 : L.val < 42 then lin tok W3 c3 3 b t ⟨p.val * 9 + (L.val - 33), by omega⟩
  else lin tok W4 c4 4 b t ⟨p.val * 9 + (L.val - 42), by omega⟩

end

section
variable (tok : FVec Ideal ⟨4, ![1024, 27, 5, 512]⟩ .f32)
  (W0 : FVec Ideal ⟨2, ![81, 512]⟩ .f32) (b0 : FVec Ideal ⟨1, ![81]⟩ .f32)
  (W1 : FVec Ideal ⟨2, ![81, 512]⟩ .f32) (b1 : FVec Ideal ⟨1, ![81]⟩ .f32)
  (W2 : FVec Ideal ⟨2, ![135, 512]⟩ .f32) (b2 : FVec Ideal ⟨1, ![135]⟩ .f32)
  (W3 : FVec Ideal ⟨2, ![81, 512]⟩ .f32) (b3 : FVec Ideal ⟨1, ![81]⟩ .f32)
  (W4 : FVec Ideal ⟨2, ![81, 512]⟩ .f32) (b4 : FVec Ideal ⟨1, ![81]⟩ .f32)

/-- The result of the eleven argument arrays at batch row `b`, patch `t`, time step `p`, lane `L`. -/
def blkA (b : Fin 1024) (t : Fin 27) (p : Fin 9) (L : Fin 51) : EReal :=
  blk tok W0 (fun o => b0 (ix1 o)) W1 (fun o => b1 (ix1 o)) W2 (fun o => b2 (ix1 o)) W3 (fun o => b3 (ix1 o))
    W4 (fun o => b4 (ix1 o)) b t p L

/-- The result laid out as f32[1024, 27, 9, 51]. -/
def Gblk : FVec Ideal ⟨4, ![1024, 27, 9, 51]⟩ .f32 :=
  fun i => blkA tok W0 b0 W1 b1 W2 b2 W3 b3 W4 b4 (i 0) (i 1) (i 2) (i 3)

/-- The result at batch row `b`, time `T = 9·t + p`, joint `j`, channel `c`. -/
def Gat (b : Fin 1024) (T : Fin 243) (j : Fin 17) (c : Fin 3) : EReal :=
  blkA tok W0 b0 W1 b1 W2 b2 W3 b3 W4 b4 b ⟨T.val / 9, by omega⟩ ⟨T.val % 9, by omega⟩ ⟨j.val * 3 + c.val, by omega⟩

/-- The result array f32[1024, 243, 17, 3]. -/
def G : FVec Ideal ⟨4, ![1024, 243, 17, 3]⟩ .f32 :=
  fun i => Gat tok W0 b0 W1 b1 W2 b2 W3 b3 W4 b4 (i 0) (i 1) (i 2) (i 3)

theorem G_ix4 (b : Fin 1024) (T : Fin 243) (j : Fin 17) (c : Fin 3) :
    G tok W0 b0 W1 b1 W2 b2 W3 b3 W4 b4 (ix4 b T j c) = Gat tok W0 b0 W1 b1 W2 b2 W3 b3 W4 b4 b T j c := rfl

theorem Gblk_ix4 (b : Fin 1024) (t : Fin 27) (p : Fin 9) (L : Fin 51) :
    Gblk tok W0 b0 W1 b1 W2 b2 W3 b3 W4 b4 (ix4 b t p L) = blkA tok W0 b0 W1 b1 W2 b2 W3 b3 W4 b4 b t p L := rfl

end

end Cert.Decoder

end
-- ==== Proof.KHost.lean ====
/- The host operations of the kernel's program around its region, at the ideal instance.

   Before the region the five bias vectors are reshaped to one-row matrices ([81] to [1, 81], [135] to [1, 135]): the
   matrix the region finds holds, at (0, o), the vector's entry o. After the region the one output array
   f32[1024, 27, 9, 51] is reshaped to f32[1024, 243, 17, 3]: the element at (b, T, j, c) is the array's element with the
   same row-major position, (b, T / 9, T % 9, 3 j + c) — so the reshape of the result laid out by patches, time steps
   and lanes is the result laid out by times, joints and channels. -/
import proofs.«135711_j69887707841118_2_alg».proof.Proof.Gen.KernelIdeal.Frame
import proofs.«135711_j69887707841118_2_alg».proof.Proof.Spec
import Idealize.ShloMosaic.Lib.ValueLayout
import Idealize.ShloMosaic.Lib.Pipeline.Value

noncomputable section

namespace Cert.KernelIdeal.HostOps

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (c : Dev nD)

/-! ## Before the region: the biases as one-row matrices -/

/-- The region finds `main_v0` at the reshape of `main_arg2`'s launch contents. -/
theorem V_v0 : (Gen.V m c main_v0 : S1x81.Idx → EReal)
    = shapeCast S1x81 (m ((c.tc : Thread nD τ).loc main_arg2) : S81.Idx → EReal) Gen.shapeCasts_S81_S1x81 := by
  show StableHlo.after Gen.hostOps0 (fun b => m (c, b)) (Proc.devRef .tc main_v0) = _
  after_results
  rfl

/-- Its entry (0, o) is the vector's entry o. -/
theorem V_v0_apply (o : Fin 81) :
    (Gen.V m c main_v0 : S1x81.Idx → EReal) (ix2 (0 : Fin 1) o) = (m ((c.tc : Thread nD τ).loc main_arg2) : S81.Idx → EReal) (ix1 o) := by
  rw [V_v0]
  exact shapeCast_a_1a_apply _ _ 0 o

/-- The region finds `main_v1` at the reshape of `main_arg4`'s launch contents. -/
theorem V_v1 : (Gen.V m c main_v1 : S1x81.Idx → EReal)
    = shapeCast S1x81 (m ((c.tc : Thread nD τ).loc main_arg4) : S81.Idx → EReal) Gen.shapeCasts_S81_S1x81 := by
  show StableHlo.after Gen.hostOps0 (fun b => m (c, b)) (Proc.devRef .tc main_v1) = _
  after_results
  rfl

/-- Its entry (0, o) is the vector's entry o. -/
theorem V_v1_apply (o : Fin 81) :
    (Gen.V m c main_v1 : S1x81.Idx → EReal) (ix2 (0 : Fin 1) o) = (m ((c.tc : Thread nD τ).loc main_arg4) : S81.Idx → EReal) (ix1 o) := by
  rw [V_v1]
  exact shapeCast_a_1a_apply _ _ 0 o

/-- The region finds `main_v2` at the reshape of `main_arg6`'s launch contents. -/
theorem V_v2 : (Gen.V m c main_v2 : S1x135.Idx → EReal)
    = shapeCast S1x135 (m ((c.tc : Thread nD τ).loc main_arg6) : S135.Idx → EReal) Gen.shapeCasts_S135_S1x135 := by
  show StableHlo.after Gen.hostOps0 (fun b => m (c, b)) (Proc.devRef .tc main_v2) = _
  after_results
  rfl

/-- Its entry (0, o) is the vector's entry o. -/
theorem V_v2_apply (o : Fin 135) :
    (Gen.V m c main_v2 : S1x135.Idx → EReal) (ix2 (0 : Fin 1) o) = (m ((c.tc : Thread nD τ).loc main_arg6) : S135.Idx → EReal) (ix1 o) := by
  rw [V_v2]
  exact shapeCast_a_1a_apply _ _ 0 o

/-- The region finds `main_v3` at the reshape of `main_arg8`'s launch contents. -/
theorem V_v3 : (Gen.V m c main_v3 : S1x81.Idx → EReal)
    = shapeCast S1x81 (m ((c.tc : Thread nD τ).loc main_arg8) : S81.Idx → EReal) Gen.shapeCasts_S81_S1x81 := by
  show StableHlo.after Gen.hostOps0 (fun b => m (c, b)) (Proc.devRef .tc main_v3) = _
  after_results
  rfl

/-- Its entry (0, o) is the vector's entry o. -/
theorem V_v3_apply (o : Fin 81) :
    (Gen.V m c main_v3 : S1x81.Idx → EReal) (ix2 (0 : Fin 1) o) = (m ((c.tc : Thread nD τ).loc main_arg8) : S81.Idx → EReal) (ix1 o) := by
  rw [V_v3]
  exact shapeCast_a_1a_apply _ _ 0 o

/-- The region finds `main_v4` at the reshape of `main_arg10`'s launch contents. -/
theorem V_v4 : (Gen.V m c main_v4 : S1x81.Idx → EReal)
    = shapeCast S1x81 (m ((c.tc : Thread nD τ).loc main_arg10) : S81.Idx → EReal) Gen.shapeCasts_S81_S1x81 := by
  show StableHlo.after Gen.hostOps0 (fun b => m (c, b)) (Proc.devRef .tc main_v4) = _
  after_results
  rfl

/-- Its entry (0, o) is the vector's entry o. -/
theorem V_v4_apply (o : Fin 81) :
    (Gen.V m c main_v4 : S1x81.Idx → EReal) (ix2 (0 : Fin 1) o) = (m ((c.tc : Thread nD τ).loc main_arg10) : S81.Idx → EReal) (ix1 o) := by
  rw [V_v4]
  exact shapeCast_a_1a_apply _ _ 0 o

/-! ## After the region: the output array reshaped -/

/-- The result buffer after the tail is the reshape of what the region leaves in its output array. -/
theorem tail_eq (Gb : S1024x27x9x51.Idx → EReal) (h : (Gen.dats m 0 c).arrAt 11 cfg0.N = Gb) :
    (Pipeline.afterTail₀ cfgs (Gen.dats m) 0 (Gen.V0 m) [Gen.hostOps1] c main_v6 : S1024x243x17x3.Idx → EReal)
      = shapeCast S1024x243x17x3 Gb Gen.shapeCasts_S1024x27x9x51_S1024x243x17x3 := by
  unfold Pipeline.afterTail₀
  show StableHlo.after Gen.hostOps1 _ (Proc.devRef .tc main_v6) = _
  after_results
  have e : Pipeline.withArrays (cfgs 0).spec c (Gen.V0 m c) (fun w => (Gen.dats m 0 c).arrAt w (cfgs 0).N)
      (Proc.devRef .tc main_v5) = Gb :=
    (Pipeline.withArrays_arr spec0 Gen.launch0.win.arr_inj c _ _ 11).trans h
  rw [e]
  rfl

/-! ## The reshape of the result -/

section Reshape
variable (tok : FVec Ideal ⟨4, ![1024, 27, 5, 512]⟩ .f32)
  (W0 : FVec Ideal ⟨2, ![81, 512]⟩ .f32) (b0 : FVec Ideal ⟨1, ![81]⟩ .f32)
  (W1 : FVec Ideal ⟨2, ![81, 512]⟩ .f32) (b1 : FVec Ideal ⟨1, ![81]⟩ .f32)
  (W2 : FVec Ideal ⟨2, ![135, 512]⟩ .f32) (b2 : FVec Ideal ⟨1, ![135]⟩ .f32)
  (W3 : FVec Ideal ⟨2, ![81, 512]⟩ .f32) (b3 : FVec Ideal ⟨1, ![81]⟩ .f32)
  (W4 : FVec Ideal ⟨2, ![81, 512]⟩ .f32) (b4 : FVec Ideal ⟨1, ![81]⟩ .f32)

/-- Element (b, T, j, c) of f32[1024, 243, 17, 3] and element (b, T / 9, T % 9, 3 j + c) of f32[1024, 27, 9, 51] have the
    same row-major position: 12393 b + 51 T + 3 j + c, since 51 T = 459 (T / 9) + 51 (T % 9). -/
theorem reshape_G :
    shapeCast S1024x243x17x3 (Cert.Decoder.Gblk tok W0 b0 W1 b1 W2 b2 W3 b3 W4 b4 : S1024x27x9x51.Idx → EReal)
        Gen.shapeCasts_S1024x27x9x51_S1024x243x17x3
      = Cert.Decoder.G tok W0 b0 W1 b1 W2 b2 W3 b3 W4 b4 := by
  funext i
  obtain ⟨b, T, j, cc, rfl⟩ : ∃ (b : Fin 1024) (T : Fin 243) (j : Fin 17) (cc : Fin 3), i = ix4 b T j cc :=
    ⟨i 0, i 1, i 2, i 3, eq_ix4 i⟩
  refine (shapeCast_apply _ _ (ix4 b T j cc)
    (ix4 b (⟨T.val / 9, by omega⟩ : Fin 27) (⟨T.val % 9, by omega⟩ : Fin 9) (⟨j.val * 3 + cc.val, by omega⟩ : Fin 51)) ?_).trans ?_
  · rw [Shape.rowMajor_val_four, Shape.rowMajor_val_four]
    show ((b.val * 27 + T.val / 9) * 9 + T.val % 9) * 51 + (j.val * 3 + cc.val) = ((b.val * 243 + T.val) * 17 + j.val) * 3 + cc.val
    omega
  · rfl

end Reshape

end Cert.KernelIdeal.HostOps

end
-- ==== Proof.KBlocks.lean ====
/-
  The kernel's windows, block by block.

  The grid has 32 points. At point t the token window reads batch rows 32·t … 32·t + 31 of the tokens (its block has all the
  patches, groups and features), the output window writes the same batch rows of the output array (all patches, time steps
  and lanes), and the ten weight and bias windows read their whole arrays at every point. Every index of the output array
  [1024, 27, 9, 51] lies in the block of the point (batch row) / 32, so the 32 blocks cover the array.
-/
import proofs.«135711_j69887707841118_2_alg».proof.Proof.Gen.KernelIdeal.Frame
import proofs.«135711_j69887707841118_2_alg».proof.Proof.Spec
import Idealize.ShloMosaic.Lib.Pipeline.Value

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The index maps over the grid -/

/-- The token window's block index at point t is (t, 0, 0, 0) … -/
theorem idx_w0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
/-- … and so is the output window's. -/
theorem idx_w11 : ∀ t : Fin cfg0.N, win0_11.index t (0 : Fin 4) = t.val ∧ win0_11.index t (1 : Fin 4) = 0
    ∧ win0_11.index t (2 : Fin 4) = 0 ∧ win0_11.index t (3 : Fin 4) = 0 :=
  (by decide +kernel : ∀ t : Fin grid0.N, _)
/-- Window 1 stays on block (0, 0). -/
theorem idx_w1 : ∀ t : Fin cfg0.N, win0_1.index t (0 : Fin 2) = 0 ∧ win0_1.index t (1 : Fin 2) = 0 :=
  (by decide +kernel : ∀ t : Fin grid0.N, _)
/-- Window 2 stays on block (0, 0). -/
theorem idx_w2 : ∀ t : Fin cfg0.N, win0_2.index t (0 : Fin 2) = 0 ∧ win0_2.index t (1 : Fin 2) = 0 :=
  (by decide +kernel : ∀ t : Fin grid0.N, _)
/-- Window 3 stays on block (0, 0). -/
theorem idx_w3 : ∀ t : Fin cfg0.N, win0_3.index t (0 : Fin 2) = 0 ∧ win0_3.index t (1 : Fin 2) = 0 :=
  (by decide +kernel : ∀ t : Fin grid0.N, _)
/-- Window 4 stays on block (0, 0). -/
theorem idx_w4 : ∀ t : Fin cfg0.N, win0_4.index t (0 : Fin 2) = 0 ∧ win0_4.index t (1 : Fin 2) = 0 :=
  (by decide +kernel : ∀ t : Fin grid0.N, _)
/-- Window 5 stays on block (0, 0). -/
theorem idx_w5 : ∀ t : Fin cfg0.N, win0_5.index t (0 : Fin 2) = 0 ∧ win0_5.index t (1 : Fin 2) = 0 :=
  (by decide +kernel : ∀ t : Fin grid0.N, _)
/-- Window 6 stays on block (0, 0). -/
theorem idx_w6 : ∀ t : Fin cfg0.N, win0_6.index t (0 : Fin 2) = 0 ∧ win0_6.index t (1 : Fin 2) = 0 :=
  (by decide +kernel : ∀ t : Fin grid0.N, _)
/-- Window 7 stays on block (0, 0). -/
theorem idx_w7 : ∀ t : Fin cfg0.N, win0_7.index t (0 : Fin 2) = 0 ∧ win0_7.index t (1 : Fin 2) = 0 :=
  (by decide +kernel : ∀ t : Fin grid0.N, _)
/-- Window 8 stays on block (0, 0). -/
theorem idx_w8 : ∀ t : Fin cfg0.N, win0_8.index t (0 : Fin 2) = 0 ∧ win0_8.index t (1 : Fin 2) = 0 :=
  (by decide +kernel : ∀ t : Fin grid0.N, _)
/-- Window 9 stays on block (0, 0). -/
theorem idx_w9 : ∀ t : Fin cfg0.N, win0_9.index t (0 : Fin 2) = 0 ∧ win0_9.index t (1 : Fin 2) = 0 :=
  (by decide +kernel : ∀ t : Fin grid0.N, _)
/-- Window 10 stays on block (0, 0). -/
theorem idx_w10 : ∀ t : Fin cfg0.N, win0_10.index t (0 : Fin 2) = 0 ∧ win0_10.index t (1 : Fin 2) = 0 :=
  (by decide +kernel : ∀ t : Fin grid0.N, _)

theorem lt_N (t : Fin cfg0.N) : t.val < 32 := Nat.lt_of_lt_of_eq t.isLt N_0

/-! ## The blocks the body reads -/

/-- The token block at point t holds batch rows 32·t … 32·t + 31 of the tokens. -/
theorem iblk0_apply (c : Dev nD) (t : Fin cfg0.N) (b : Fin 32) (tt : Fin 27) (g : Fin 5) (f : Fin 512)
    (hb : t.val * 32 + b.val < 1024) :
    (iblk m c 0 t : Vec Ideal S32x27x5x512 .f32) (ix4 b tt g f)
      = (V m c main_arg0 : S1024x27x5x512.Idx → EReal) (ix4 (⟨t.val * 32 + b.val, hb⟩ : Fin 1024) tt g f) := by
  obtain ⟨e0, e1, e2, e3⟩ := idx_w0 t
  unfold iblk
  rw [View.read_apply]
  show V m c main_arg0 _ = V m c main_arg0 _
  refine congrArg (V m c main_arg0) (funext fun a => Fin.ext ?_)
  match a with
  | ⟨0, _⟩ => show win0_0.index t (0 : Fin 4) * 32 + 1 * b.val = t.val * 32 + b.val; rw [e0]; omega
  | ⟨1, _⟩ => show win0_0.index t (1 : Fin 4) * 27 + 1 * tt.val = tt.val; rw [e1]; omega
  | ⟨2, _⟩ => show win0_0.index t (2 : Fin 4) * 5 + 1 * g.val = g.val; rw [e2]; omega
  | ⟨3, _⟩ => show win0_0.index t (3 : Fin 4) * 512 + 1 * f.val = f.val; rw [e3]; omega

/-- Window 1's block is its whole array. -/
theorem iblk1_eq (c : Dev nD) (t : Fin cfg0.N) :
    (iblk m c 1 t : Vec Ideal S81x512 .f32) = (V m c main_arg1 : S81x512.Idx → EReal) := by
  obtain ⟨e0, e1⟩ := idx_w1 t
  funext x
  unfold iblk
  rw [View.read_apply]
  show V m c main_arg1 _ = V m c main_arg1 x
  refine congrArg (V m c main_arg1) (funext fun a => Fin.ext ?_)
  match a with
  | ⟨0, _⟩ => show win0_1.index t (0 : Fin 2) * 81 + 1 * (x 0).val = (x 0).val; rw [e0]; omega
  | ⟨1, _⟩ => show win0_1.index t (1 : Fin 2) * 512 + 1 * (x 1).val = (x 1).val; rw [e1]; omega

/-- Window 2's block is its whole array. -/
theorem iblk2_eq (c : Dev nD) (t : Fin cfg0.N) :
    (iblk m c 2 t : Vec Ideal S1x81 .f32) = (V m c main_v0 : S1x81.Idx → EReal) := by
  obtain ⟨e0, e1⟩ := idx_w2 t
  funext x
  unfold iblk
  rw [View.read_apply]
  show V m c main_v0 _ = V m c main_v0 x
  refine congrArg (V m c main_v0) (funext fun a => Fin.ext ?_)
  match a with
  | ⟨0, _⟩ => show win0_2.index t (0 : Fin 2) * 1 + 1 * (x 0).val = (x 0).val; rw [e0]; omega
  | ⟨1, _⟩ => show win0_2.index t (1 : Fin 2) * 81 + 1 * (x 1).val = (x 1).val; rw [e1]; omega

/-- Window 3's block is its whole array. -/
theorem iblk3_eq (c : Dev nD) (t : Fin cfg0.N) :
    (iblk m c 3 t : Vec Ideal S81x512 .f32) = (V m c main_arg3 : S81x512.Idx → EReal) := by
  obtain ⟨e0, e1⟩ := idx_w3 t
  funext x
  unfold iblk
  rw [View.read_apply]
  show V m c main_arg3 _ = V m c main_arg3 x
  refine congrArg (V m c main_arg3) (funext fun a => Fin.ext ?_)
  match a with
  | ⟨0, _⟩ => show win0_3.index t (0 : Fin 2) * 81 + 1 * (x 0).val = (x 0).val; rw [e0]; omega
  | ⟨1, _⟩ => show win0_3.index t (1 : Fin 2) * 512 + 1 * (x 1).val = (x 1).val; rw [e1]; omega

/-- Window 4's block is its whole array. -/
theorem iblk4_eq (c : Dev nD) (t : Fin cfg0.N) :
    (iblk m c 4 t : Vec Ideal S1x81 .f32) = (V m c main_v1 : S1x81.Idx → EReal) := by
  obtain ⟨e0, e1⟩ := idx_w4 t
  funext x
  unfold iblk
  rw [View.read_apply]
  show V m c main_v1 _ = V m c main_v1 x
  refine congrArg (V m c main_v1) (funext fun a => Fin.ext ?_)
  match a with
  | ⟨0, _⟩ => show win0_4.index t (0 : Fin 2) * 1 + 1 * (x 0).val = (x 0).val; rw [e0]; omega
  | ⟨1, _⟩ => show win0_4.index t (1 : Fin 2) * 81 + 1 * (x 1).val = (x 1).val; rw [e1]; omega

/-- Window 5's block is its whole array. -/
theorem iblk5_eq (c : Dev nD) (t : Fin cfg0.N) :
    (iblk m c 5 t : Vec Ideal S135x512 .f32) = (V m c main_arg5 : S135x512.Idx → EReal) := by
  obtain ⟨e0, e1⟩ := idx_w5 t
  funext x
  unfold iblk
  rw [View.read_apply]
  show V m c main_arg5 _ = V m c main_arg5 x
  refine congrArg (V m c main_arg5) (funext fun a => Fin.ext ?_)
  match a with
  | ⟨0, _⟩ => show win0_5.index t (0 : Fin 2) * 135 + 1 * (x 0).val = (x 0).val; rw [e0]; omega
  | ⟨1, _⟩ => show win0_5.index t (1 : Fin 2) * 512 + 1 * (x 1).val = (x 1).val; rw [e1]; omega

/-- Window 6's block is its whole array. -/
theorem iblk6_eq (c : Dev nD) (t : Fin cfg0.N) :
    (iblk m c 6 t : Vec Ideal S1x135 .f32) = (V m c main_v2 : S1x135.Idx → EReal) := by
  obtain ⟨e0, e1⟩ := idx_w6 t
  funext x
  unfold iblk
  rw [View.read_apply]
  show V m c main_v2 _ = V m c main_v2 x
  refine congrArg (V m c main_v2) (funext fun a => Fin.ext ?_)
  match a with
  | ⟨0, _⟩ => show win0_6.index t (0 : Fin 2) * 1 + 1 * (x 0).val = (x 0).val; rw [e0]; omega
  | ⟨1, _⟩ => show win0_6.index t (1 : Fin 2) * 135 + 1 * (x 1).val = (x 1).val; rw [e1]; omega

/-- Window 7's block is its whole array. -/
theorem iblk7_eq (c : Dev nD) (t : Fin cfg0.N) :
    (iblk m c 7 t : Vec Ideal S81x512 .f32) = (V m c main_arg7 : S81x512.Idx → EReal) := by
  obtain ⟨e0, e1⟩ := idx_w7 t
  funext x
  unfold iblk
  rw [View.read_apply]
  show V m c main_arg7 _ = V m c main_arg7 x
  refine congrArg (V m c main_arg7) (funext fun a => Fin.ext ?_)
  match a with
  | ⟨0, _⟩ => show win0_7.index t (0 : Fin 2) * 81 + 1 * (x 0).val = (x 0).val; rw [e0]; omega
  | ⟨1, _⟩ => show win0_7.index t (1 : Fin 2) * 512 + 1 * (x 1).val = (x 1).val; rw [e1]; omega

/-- Window 8's block is its whole array. -/
theorem iblk8_eq (c : Dev nD) (t : Fin cfg0.N) :
    (iblk m c 8 t : Vec Ideal S1x81 .f32) = (V m c main_v3 : S1x81.Idx → EReal) := by
  obtain ⟨e0, e1⟩ := idx_w8 t
  funext x
  unfold iblk
  rw [View.read_apply]
  show V m c main_v3 _ = V m c main_v3 x
  refine congrArg (V m c main_v3) (funext fun a => Fin.ext ?_)
  match a with
  | ⟨0, _⟩ => show win0_8.index t (0 : Fin 2) * 1 + 1 * (x 0).val = (x 0).val; rw [e0]; omega
  | ⟨1, _⟩ => show win0_8.index t (1 : Fin 2) * 81 + 1 * (x 1).val = (x 1).val; rw [e1]; omega

/-- Window 9's block is its whole array. -/
theorem iblk9_eq (c : Dev nD) (t : Fin cfg0.N) :
    (iblk m c 9 t : Vec Ideal S81x512 .f32) = (V m c main_arg9 : S81x512.Idx → EReal) := by
  obtain ⟨e0, e1⟩ := idx_w9 t
  funext x
  unfold iblk
  rw [View.read_apply]
  show V m c main_arg9 _ = V m c main_arg9 x
  refine congrArg (V m c main_arg9) (funext fun a => Fin.ext ?_)
  match a with
  | ⟨0, _⟩ => show win0_9.index t (0 : Fin 2) * 81 + 1 * (x 0).val = (x 0).val; rw [e0]; omega
  | ⟨1, _⟩ => show win0_9.index t (1 : Fin 2) * 512 + 1 * (x 1).val = (x 1).val; rw [e1]; omega

/-- Window 10's block is its whole array. -/
theorem iblk10_eq (c : Dev nD) (t : Fin cfg0.N) :
    (iblk m c 10 t : Vec Ideal S1x81 .f32) = (V m c main_v4 : S1x81.Idx → EReal) := by
  obtain ⟨e0, e1⟩ := idx_w10 t
  funext x
  unfold iblk
  rw [View.read_apply]
  show V m c main_v4 _ = V m c main_v4 x
  refine congrArg (V m c main_v4) (funext fun a => Fin.ext ?_)
  match a with
  | ⟨0, _⟩ => show win0_10.index t (0 : Fin 2) * 1 + 1 * (x 0).val = (x 0).val; rw [e0]; omega
  | ⟨1, _⟩ => show win0_10.index t (1 : Fin 2) * 81 + 1 * (x 1).val = (x 1).val; rw [e1]; omega

/-! ## The output window's blocks cover the output array -/

/-- An index of the output array is in point t's block iff each coordinate is in the block's range on its axis. -/
theorem mem_blk (t : Fin cfg0.N) (i : S1024x27x9x51.Idx) :
    i ∈ ((cfg0.win 11).blk t).view.set ↔ ∀ a : Fin 4, win0_11.index t a * S32x27x9x51.size a ≤ (i a).val
      ∧ (i a).val < win0_11.index t a * S32x27x9x51.size a + S32x27x9x51.size a := by
  show i ∈ ((View.whole main_v5).slice (win0_11.rect t)).set ↔ _
  rw [View.set_slice_whole, Rect.mem_set_unit]
  exact Iff.rfl

/-- Every index of the output array is in the block of the point (batch row) / 32, which writes back. -/
theorem cover (i : S1024x27x9x51.Idx) :
    ∃ t : Fin cfg0.N, (cfg0.win 11).flush t = true ∧ i ∈ ((cfg0.win 11).blk t).view.set := by
  have hi0 : (i 0).val < 1024 := (i 0).isLt
  have hi1 : (i 1).val < 27 := (i 1).isLt
  have hi2 : (i 2).val < 9 := (i 2).isLt
  have hi3 : (i 3).val < 51 := (i 3).isLt
  obtain ⟨t, ht⟩ : ∃ t : Fin cfg0.N, t.val = (i 0).val / 32 :=
    ⟨⟨(i 0).val / 32, by rw [show cfg0.N = 32 from N_0]; omega⟩, rfl⟩
  obtain ⟨e0, e1, e2, e3⟩ := idx_w11 t
  refine ⟨t, flush0_11 t, ?_⟩
  rw [mem_blk]
  intro a
  match a with
  | ⟨0, _⟩ =>
    show win0_11.index t (0 : Fin 4) * 32 ≤ (i 0).val ∧ (i 0).val < win0_11.index t (0 : Fin 4) * 32 + 32
    rw [e0, ht]; omega
  | ⟨1, _⟩ =>
    show win0_11.index t (1 : Fin 4) * 27 ≤ (i 1).val ∧ (i 1).val < win0_11.index t (1 : Fin 4) * 27 + 27
    rw [e1]; omega
  | ⟨2, _⟩ =>
    show win0_11.index t (2 : Fin 4) * 9 ≤ (i 2).val ∧ (i 2).val < win0_11.index t (2 : Fin 4) * 9 + 9
    rw [e2]; omega
  | ⟨3, _⟩ =>
    show win0_11.index t (3 : Fin 4) * 51 ≤ (i 3).val ∧ (i 3).val < win0_11.index t (3 : Fin 4) * 51 + 51
    rw [e3]; omega

/-! ## The specification depends on the tokens only through one batch row -/

/-- If two token arrays agree on a batch row each, the specification's values on those rows agree. -/
theorem blk_congr {B B' : Nat} (tok : FVec Ideal ⟨4, ![B, 27, 5, 512]⟩ .f32) (tok' : FVec Ideal ⟨4, ![B', 27, 5, 512]⟩ .f32)
    (W0 : FVec Ideal ⟨2, ![81, 512]⟩ .f32) (c0 : Fin 81 → EReal) (W1 : FVec Ideal ⟨2, ![81, 512]⟩ .f32) (c1 : Fin 81 → EReal)
    (W2 : FVec Ideal ⟨2, ![135, 512]⟩ .f32) (c2 : Fin 135 → EReal) (W3 : FVec Ideal ⟨2, ![81, 512]⟩ .f32) (c3 : Fin 81 → EReal)
    (W4 : FVec Ideal ⟨2, ![81, 512]⟩ .f32) (c4 : Fin 81 → EReal) (b : Fin B) (b' : Fin B')
    (h : ∀ (t : Fin 27) (g : Fin 5) (f : Fin 512), tok (ix4 b t g f) = tok' (ix4 b' t g f))
    (t : Fin 27) (p : Fin 9) (L : Fin 51) :
    Cert.Decoder.blk tok W0 c0 W1 c1 W2 c2 W3 c3 W4 c4 b t p L = Cert.Decoder.blk tok' W0 c0 W1 c1 W2 c2 W3 c3 W4 c4 b' t p L := by
  unfold Cert.Decoder.blk Cert.Decoder.lin
  simp only [h]

end Cert.KernelIdeal.Final

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.KPay.lean ====
/-
  The kernel body's stored values, read at an index of the stored block.

  Each of the body's six stores writes a group's linear head for one block of 32 batch rows: the block's
  [32, 27, 1, 512] slice of tokens for the group is flattened to 864 rows of 512, multiplied by the transposed weight
  matrix (a product `A · Bᵀ` into a zero accumulator; the roundings to the matrix unit's input format are the identity on
  the extended reals), the bias row is added to every row, and the 864 × n result is cut back to [32, 27, 9, n / 9].
  Row `b·27 + t` of the flattened block is batch row `b`, patch `t`, and column `p·(n/9) + q` is time step `p`, place `q`,
  so the stored value at `(b, t, p, q)` is `Σ_h x[b, t, 0, h] · w[p·(n/9) + q, h] + bias[0, p·(n/9) + q]`.
  For the group of five joints (n = 135) the body stores two lane ranges of that value: places 0–2 and places 3–14.
-/
import proofs.«135711_j69887707841118_2_alg».proof.Proof.Gen.KernelIdeal.Skeleton
import proofs.«135711_j69887707841118_2_alg».proof.Proof.LibMatmulT
import Idealize.ShloMosaic.Lib.Pipeline.Value
import Idealize.ShloMosaic.Lib.ValueIdx

noncomputable section

open scoped BigOperators

namespace Cert.KernelIdeal.Head

open Cert.KernelIdeal Cert.KernelIdeal.Gen Idealize.ShloMosaic Idealize.ShloMosaic.ValueIdx

/-- A group of three joints (81 rows): the stored value at batch row `b`, patch `t`, time step `p`, place `q` of 9. -/
theorem head81_apply (x : Vec Ideal S32x27x1x512 .f32) (w : Vec Ideal S81x512 .f32) (bias : Vec Ideal S1x81 .f32)
    (b : Fin 32) (t : Fin 27) (p q : Fin 9) :
    k0_pay2 (F := Ideal) x w bias (ix4 b t p q)
      = (∑ h : Fin 512, x (ix4 b t (0 : Fin 1) h) * w (ix2 (⟨p.val * 9 + q.val, by omega⟩ : Fin 81) h))
        + bias (ix2 (0 : Fin 1) (⟨p.val * 9 + q.val, by omega⟩ : Fin 81)) := by
  unfold k0_pay2
  refine (shapeCast_apply _ _ (ix4 b t p q) (ix3 b t (⟨p.val * 9 + q.val, by omega⟩ : Fin 81)) ?_).trans ?_
  · rw [Shape.rowMajor_val_three, Shape.rowMajor_val_four]
    show ((b.val * 27 + t.val) * 81 + (p.val * 9 + q.val)) = (((b.val * 27 + t.val) * 9 + p.val) * 9 + q.val)
    omega
  refine (shapeCast_apply _ _ (ix3 b t (⟨p.val * 9 + q.val, by omega⟩ : Fin 81)) (ix2 (⟨b.val * 27 + t.val, by omega⟩ : Fin 864) (⟨p.val * 9 + q.val, by omega⟩ : Fin 81)) ?_).trans ?_
  · rw [Shape.rowMajor_val_two, Shape.rowMajor_val_three]
    rfl
  refine congrArg₂ (· + ·) ?_ ?_
  · refine (MatmulT.matmul_zero_apply (M := 864) (K := 512) (N := 81) Facts₀.dot_S864x512_S81x512_S864x81_1_1_0_0_n_n_wf none _ _ _ _).trans ?_
    refine Finset.sum_congr rfl fun h _ => ?_
    refine congrArg (· * w (ix2 (⟨p.val * 9 + q.val, by omega⟩ : Fin 81) h)) ?_
    show shapeCast S864x512 (shapeCast S32x27x512 x shapeCasts_S32x27x1x512_S32x27x512) shapeCasts_S32x27x512_S864x512
        (ix2 (⟨b.val * 27 + t.val, by omega⟩ : Fin 864) h) = _
    refine (shapeCast_apply _ _ (ix2 (⟨b.val * 27 + t.val, by omega⟩ : Fin 864) h) (ix3 b t h) ?_).trans ?_
    · rw [Shape.rowMajor_val_two, Shape.rowMajor_val_three]
      rfl
    refine shapeCast_apply _ _ (ix3 b t h) (ix4 b t (0 : Fin 1) h) ?_
    rw [Shape.rowMajor_val_three, Shape.rowMajor_val_four]
    show ((b.val * 27 + t.val) * 1 + 0) * 512 + h.val = (b.val * 27 + t.val) * 512 + h.val
    omega
  · refine (broadcastTo_apply _ _ (ix2 (⟨b.val * 27 + t.val, by omega⟩ : Fin 864) (⟨p.val * 9 + q.val, by omega⟩ : Fin 81)) (ix2 (0 : Fin 1) (⟨p.val * 9 + q.val, by omega⟩ : Fin 81)) ?_).trans ?_
    · intro a
      match a with
      | ⟨0, _⟩ => rfl
      | ⟨1, _⟩ => rfl
    rw [shapeCast_self]

/-- The four groups of three joints are computed by the same operations. -/
theorem pay1_eq (x : Vec Ideal S32x27x1x512 .f32) (w : Vec Ideal S81x512 .f32) (bias : Vec Ideal S1x81 .f32) :
    k0_pay1 (F := Ideal) x w bias = k0_pay2 (F := Ideal) x w bias := rfl
theorem pay3_eq (x : Vec Ideal S32x27x1x512 .f32) (w : Vec Ideal S81x512 .f32) (bias : Vec Ideal S1x81 .f32) :
    k0_pay3 (F := Ideal) x w bias = k0_pay2 (F := Ideal) x w bias := rfl
theorem pay7_eq (x : Vec Ideal S32x27x1x512 .f32) (w : Vec Ideal S81x512 .f32) (bias : Vec Ideal S1x81 .f32) :
    k0_pay7 (F := Ideal) x w bias = k0_pay2 (F := Ideal) x w bias := rfl

/-- The group of five joints (135 rows): the value at batch row `b`, patch `t`, time step `p`, place `q` of 15. -/
theorem head135_apply (x : Vec Ideal S32x27x1x512 .f32) (w : Vec Ideal S135x512 .f32) (bias : Vec Ideal S1x135 .f32)
    (b : Fin 32) (t : Fin 27) (p : Fin 9) (q : Fin 15) :
    k0_pay4 (F := Ideal) x w bias (ix4 b t p q)
      = (∑ h : Fin 512, x (ix4 b t (0 : Fin 1) h) * w (ix2 (⟨p.val * 15 + q.val, by omega⟩ : Fin 135) h))
        + bias (ix2 (0 : Fin 1) (⟨p.val * 15 + q.val, by omega⟩ : Fin 135)) := by
  unfold k0_pay4
  refine (shapeCast_apply _ _ (ix4 b t p q) (ix3 b t (⟨p.val * 15 + q.val, by omega⟩ : Fin 135)) ?_).trans ?_
  · rw [Shape.rowMajor_val_three, Shape.rowMajor_val_four]
    show ((b.val * 27 + t.val) * 135 + (p.val * 15 + q.val)) = (((b.val * 27 + t.val) * 9 + p.val) * 15 + q.val)
    omega
  refine (shapeCast_apply _ _ (ix3 b t (⟨p.val * 15 + q.val, by omega⟩ : Fin 135)) (ix2 (⟨b.val * 27 + t.val, by omega⟩ : Fin 864) (⟨p.val * 15 + q.val, by omega⟩ : Fin 135)) ?_).trans ?_
  · rw [Shape.rowMajor_val_two, Shape.rowMajor_val_three]
    rfl
  refine congrArg₂ (· + ·) ?_ ?_
  · refine (MatmulT.matmul_zero_apply (M := 864) (K := 512) (N := 135) Facts₀.dot_S864x512_S135x512_S864x135_1_1_0_0_n_n_wf none _ _ _ _).trans ?_
    refine Finset.sum_congr rfl fun h _ => ?_
    refine congrArg (· * w (ix2 (⟨p.val * 15 + q.val, by omega⟩ : Fin 135) h)) ?_
    show shapeCast S864x512 (shapeCast S32x27x512 x shapeCasts_S32x27x1x512_S32x27x512) shapeCasts_S32x27x512_S864x512
        (ix2 (⟨b.val * 27 + t.val, by omega⟩ : Fin 864) h) = _
    refine (shapeCast_apply _ _ (ix2 (⟨b.val * 27 + t.val, by omega⟩ : Fin 864) h) (ix3 b t h) ?_).trans ?_
    · rw [Shape.rowMajor_val_two, Shape.rowMajor_val_three]
      rfl
    refine shapeCast_apply _ _ (ix3 b t h) (ix4 b t (0 : Fin 1) h) ?_
    rw [Shape.rowMajor_val_three, Shape.rowMajor_val_four]
    show ((b.val * 27 + t.val) * 1 + 0) * 512 + h.val = (b.val * 27 + t.val) * 512 + h.val
    omega
  · refine (broadcastTo_apply _ _ (ix2 (⟨b.val * 27 + t.val, by omega⟩ : Fin 864) (⟨p.val * 15 + q.val, by omega⟩ : Fin 135)) (ix2 (0 : Fin 1) (⟨p.val * 15 + q.val, by omega⟩ : Fin 135)) ?_).trans ?_
    · intro a
      match a with
      | ⟨0, _⟩ => rfl
      | ⟨1, _⟩ => rfl
    rw [shapeCast_self]

/-- The first stored range of the group of five: places 0–2. -/
theorem slice_lo_apply (x : Vec Ideal S32x27x1x512 .f32) (w : Vec Ideal S135x512 .f32) (bias : Vec Ideal S1x135 .f32)
    (b : Fin 32) (t : Fin 27) (p : Fin 9) (q : Fin 3) :
    k0_pay5 (F := Ideal) x w bias (ix4 b t p q) = k0_pay4 (F := Ideal) x w bias (ix4 b t p (⟨q.val, by omega⟩ : Fin 15)) := by
  unfold k0_pay5
  refine extractStridedSlice_apply _ _ _ (ix4 b t p q) (ix4 b t p (⟨q.val, by omega⟩ : Fin 15)) ?_
  intro a
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

/-- The second stored range of the group of five: places 3–14. -/
theorem slice_hi_apply (x : Vec Ideal S32x27x1x512 .f32) (w : Vec Ideal S135x512 .f32) (bias : Vec Ideal S1x135 .f32)
    (b : Fin 32) (t : Fin 27) (p : Fin 9) (q : Fin 12) :
    k0_pay6 (F := Ideal) x w bias (ix4 b t p q) = k0_pay4 (F := Ideal) x w bias (ix4 b t p (⟨q.val + 3, by omega⟩ : Fin 15)) := by
  unfold k0_pay6
  refine extractStridedSlice_apply _ _ _ (ix4 b t p q) (ix4 b t p (⟨q.val + 3, by omega⟩ : Fin 15)) ?_
  intro a
  match a with
  | ⟨0, _⟩ => exact (Nat.zero_add _).symm
  | ⟨1, _⟩ => exact (Nat.zero_add _).symm
  | ⟨2, _⟩ => exact (Nat.zero_add _).symm
  | ⟨3, _⟩ => exact Nat.add_comm _ _

end Cert.KernelIdeal.Head

end
-- ==== Proof.SpecLanes.lean ====
/-
  The lane ranges of one time step, one lemma each: which group's head a lane of the 51 holds, and at which row.
-/
import proofs.«135711_j69887707841118_2_alg».proof.Proof.Spec

noncomputable section

namespace Cert.Decoder

open Idealize.ShloMosaic Idealize.ShloMosaic.ValueIdx

variable {B : Nat} (tok : FVec Ideal ⟨4, ![B, 27, 5, 512]⟩ .f32)
  (W0 : FVec Ideal ⟨2, ![81, 512]⟩ .f32) (c0 : Fin 81 → EReal)
  (W1 : FVec Ideal ⟨2, ![81, 512]⟩ .f32) (c1 : Fin 81 → EReal)
  (W2 : FVec Ideal ⟨2, ![135, 512]⟩ .f32) (c2 : Fin 135 → EReal)
  (W3 : FVec Ideal ⟨2, ![81, 512]⟩ .f32) (c3 : Fin 81 → EReal)
  (W4 : FVec Ideal ⟨2, ![81, 512]⟩ .f32) (c4 : Fin 81 → EReal)
  (b : Fin B) (t : Fin 27) (p : Fin 9) (L : Fin 51)

/-- Lanes 0–2: joint 0, the first joint of the group of five. -/
theorem blk_joint0 (h : L.val < 3) (o : Fin 135) (ho : o.val = p.val * 15 + L.val) :
    blk tok W0 c0 W1 c1 W2 c2 W3 c3 W4 c4 b t p L = lin tok W2 c2 2 b t o := by
  unfold blk; rw [dif_pos h]; exact lin_congr _ _ _ _ _ _ ho.symm

/-- Lanes 3–11: joints 1–3. -/
theorem blk_group0 (h0 : 3 ≤ L.val) (h1 : L.val < 12) (o : Fin 81) (ho : o.val = p.val * 9 + (L.val - 3)) :
    blk tok W0 c0 W1 c1 W2 c2 W3 c3 W4 c4 b t p L = lin tok W0 c0 0 b t o := by
  unfold blk; rw [dif_neg (by omega), dif_pos h1]; exact lin_congr _ _ _ _ _ _ ho.symm

/-- Lanes 12–20: joints 4–6. -/
theorem blk_group1 (h0 : 12 ≤ L.val) (h1 : L.val < 21) (o : Fin 81) (ho : o.val = p.val * 9 + (L.val - 12)) :
    blk tok W0 c0 W1 c1 W2 c2 W3 c3 W4 c4 b t p L = lin tok W1 c1 1 b t o := by
  unfold blk; rw [dif_neg (by omega), dif_neg (by omega), dif_pos h1]; exact lin_congr _ _ _ _ _ _ ho.symm

/-- Lanes 21–32: joints 7–10, the other four joints of the group of five. -/
theorem blk_joints7 (h0 : 21 ≤ L.val) (h1 : L.val < 33) (o : Fin 135) (ho : o.val = p.val * 15 + (L.val - 18)) :
    blk tok W0 c0 W1 c1 W2 c2 W3 c3 W4 c4 b t p L = lin tok W2 c2 2 b t o := by
  unfold blk; rw [dif_neg (by omega), dif_neg (by omega), dif_neg (by omega), dif_pos h1]
  exact lin_congr _ _ _ _ _ _ ho.symm

/-- Lanes 33–41: joints 11–13. -/
theorem blk_group3 (h0 : 33 ≤ L.val) (h1 : L.val < 42) (o : Fin 81) (ho : o.val = p.val * 9 + (L.val - 33)) :
    blk tok W0 c0 W1 c1 W2 c2 W3 c3 W4 c4 b t p L = lin tok W3 c3 3 b t o := by
  unfold blk; rw [dif_neg (by omega), dif_neg (by omega), dif_neg (by omega), dif_neg (by omega), dif_pos h1]
  exact lin_congr _ _ _ _ _ _ ho.symm

/-- Lanes 42–50: joints 14–16. -/
theorem blk_group4 (h0 : 42 ≤ L.val) (o : Fin 81) (ho : o.val = p.val * 9 + (L.val - 42)) :
    blk tok W0 c0 W1 c1 W2 c2 W3 c3 W4 c4 b t p L = lin tok W4 c4 4 b t o := by
  unfold blk
  rw [dif_neg (by omega), dif_neg (by omega), dif_neg (by omega), dif_neg (by omega), dif_neg (by omega)]
  exact lin_congr _ _ _ _ _ _ ho.symm

end Cert.Decoder

end
-- ==== Proof.KOut.lean ====
/-
  What the kernel body leaves in the output block of one grid point.

  The body fills the [32, 27, 9, 51] output block by six stores, each a lane range of every time step: lanes 42–50, 33–41,
  21–32, 0–2, 12–20 and 3–11. Each stored value is a group's linear head computed from the point's block of tokens (its
  [32, 27, 1, 512] slice for the group), the group's weight matrix and its bias row, so each store is the restriction of ONE
  function of the block index — the specification on a block of 32 batch rows, `blockFun` — to its lane range; the ranges
  cover the 51 lanes, hence the block read back after the stores is that function.
-/
import proofs.«135711_j69887707841118_2_alg».proof.Proof.Gen.KernelIdeal.Frame
import proofs.«135711_j69887707841118_2_alg».proof.Proof.KPay
import proofs.«135711_j69887707841118_2_alg».proof.Proof.SpecLanes

set_option maxRecDepth 16384

noncomputable section

open scoped BigOperators

namespace Cert.KernelIdeal.Out

open Cert.KernelIdeal Cert.KernelIdeal.Gen Idealize.ShloMosaic Idealize.ShloMosaic.Tactic Idealize.ShloMosaic.ValueIdx

/-- A bias stored as a one-row matrix, read by row number. -/
abbrev brow {n : Nat} (v : FVec Ideal ⟨2, ![1, n]⟩ .f32) : Fin n → EReal := fun o => v (ix2 (0 : Fin 1) o)

/-- The specification on one block of 32 batch rows. -/
def blockFun (x0 : Vec Ideal S32x27x5x512 .f32) (x1 : Vec Ideal S81x512 .f32) (x2 : Vec Ideal S1x81 .f32)
    (x3 : Vec Ideal S81x512 .f32) (x4 : Vec Ideal S1x81 .f32) (x5 : Vec Ideal S135x512 .f32) (x6 : Vec Ideal S1x135 .f32)
    (x7 : Vec Ideal S81x512 .f32) (x8 : Vec Ideal S1x81 .f32) (x9 : Vec Ideal S81x512 .f32) (x10 : Vec Ideal S1x81 .f32) :
    S32x27x9x51.Idx → EReal :=
  fun y => Cert.Decoder.blk (B := 32) x0 x1 (brow x2) x3 (brow x4) x5 (brow x6) x7 (brow x8) x9 (brow x10) (y 0) (y 1) (y 2) (y 3)

theorem zero2 : (![0, 0] : Fin 2 → Nat) = fun _ => 0 := by
  funext a; match a with | ⟨0, _⟩ => rfl | ⟨1, _⟩ => rfl

/-- A group of three joints on a block: the stored value is the group's head. -/
theorem val81 (X : Vec Ideal S32x27x1x512 .f32) (x0 : Vec Ideal S32x27x5x512 .f32) (g : Fin 5)
    (hX : ∀ (b : Fin 32) (t : Fin 27) (h : Fin 512), X (ix4 b t (0 : Fin 1) h) = x0 (ix4 b t g h))
    (w : Vec Ideal S81x512 .f32) (bias : Vec Ideal S1x81 .f32) (b : Fin 32) (t : Fin 27) (p q : Fin 9) (o : Fin 81)
    (ho : o.val = p.val * 9 + q.val) :
    k0_pay2 (F := Ideal) X w bias (ix4 b t p q) = Cert.Decoder.lin (B := 32) x0 w (brow bias) g b t o := by
  have hb : p.val * 9 + q.val < 81 := by have := p.isLt; have := q.isLt; omega
  rw [show o = ⟨p.val * 9 + q.val, hb⟩ from Fin.ext ho, Head.head81_apply]
  unfold Cert.Decoder.lin
  refine congrArg₂ (· + ·) (Finset.sum_congr rfl fun h _ => ?_) rfl
  rw [hX]

/-- The group of five joints on a block. -/
theorem val135 (X : Vec Ideal S32x27x1x512 .f32) (x0 : Vec Ideal S32x27x5x512 .f32) (g : Fin 5)
    (hX : ∀ (b : Fin 32) (t : Fin 27) (h : Fin 512), X (ix4 b t (0 : Fin 1) h) = x0 (ix4 b t g h))
    (w : Vec Ideal S135x512 .f32) (bias : Vec Ideal S1x135 .f32) (b : Fin 32) (t : Fin 27) (p : Fin 9) (q : Fin 15)
    (o : Fin 135) (ho : o.val = p.val * 15 + q.val) :
    k0_pay4 (F := Ideal) X w bias (ix4 b t p q) = Cert.Decoder.lin (B := 32) x0 w (brow bias) g b t o := by
  have hb : p.val * 15 + q.val < 135 := by have := p.isLt; have := q.isLt; omega
  rw [show o = ⟨p.val * 15 + q.val, hb⟩ from Fin.ext ho, Head.head135_apply]
  unfold Cert.Decoder.lin
  refine congrArg₂ (· + ·) (Finset.sum_congr rfl fun h _ => ?_) rfl
  rw [hX]

/-- The group's slice of a block of tokens, read at an index. -/
theorem ld_tok (g : Nat) (hg : g < 5)
    (inb : ∀ a, (![0, 0, g, 0] : Fin 4 → Nat) a + (![32, 27, 1, 512] : Fin 4 → Nat) a ≤ S32x27x5x512.size a)
    (x0 : Vec Ideal S32x27x5x512 .f32) (b : Fin 32) (t : Fin 27) (h : Fin 512) :
    View.ld x0 (Rect.unit (s := S32x27x5x512) ![0, 0, g, 0] ![32, 27, 1, 512] inb) (ix4 b t (0 : Fin 1) h)
      = x0 (ix4 b t (⟨g, hg⟩ : Fin 5) h) := by
  show x0 _ = x0 _
  refine congrArg x0 (funext fun a => Fin.ext ?_)
  match a with
  | ⟨0, _⟩ => show 0 + 1 * b.val = b.val; omega
  | ⟨1, _⟩ => show 0 + 1 * t.val = t.val; omega
  | ⟨2, _⟩ => show g + 1 * 0 = g; omega
  | ⟨3, _⟩ => show 0 + 1 * h.val = h.val; omega

/-- A stored lane range of the output block: where its place `q` sits among the 51 lanes. -/
theorem emb_lane (o3 n3 : Nat)
    (inb : ∀ a, (![0, 0, 0, o3] : Fin 4 → Nat) a + (![32, 27, 9, n3] : Fin 4 → Nat) a ≤ S32x27x9x51.size a)
    (b : Fin 32) (t : Fin 27) (p : Fin 9) (q : Fin n3) (hq : o3 + q.val < 51) :
    (Rect.unit (s := S32x27x9x51) ![0, 0, 0, o3] ![32, 27, 9, n3] inb).emb (ix4 b t p q)
      = ix4 b t p (⟨o3 + q.val, hq⟩ : Fin 51) := by
  funext a
  apply Fin.ext
  match a with
  | ⟨0, _⟩ => show 0 + 1 * b.val = b.val; omega
  | ⟨1, _⟩ => show 0 + 1 * t.val = t.val; omega
  | ⟨2, _⟩ => show 0 + 1 * p.val = p.val; omega
  | ⟨3, _⟩ => show o3 + 1 * q.val = o3 + q.val; omega

/-- A store of a group of three joints. The value stored at lanes `lane … lane + 8` — the head of group `g` computed from the
    loaded slice of tokens, weight matrix and bias row — is the restriction to those lanes of any function `Fb` of the block
    index that holds that head there. -/
theorem piece81 (g : Nat) (hg : g < 5) (lane : Nat) (hl : lane + 9 ≤ 51)
    (inbT : ∀ a, (![0, 0, g, 0] : Fin 4 → Nat) a + (![32, 27, 1, 512] : Fin 4 → Nat) a ≤ S32x27x5x512.size a)
    (inbL : ∀ a, (![0, 0, 0, lane] : Fin 4 → Nat) a + (![32, 27, 9, 9] : Fin 4 → Nat) a ≤ S32x27x9x51.size a)
    (arg1 : Memref sig .tc .vmem S32x27x5x512 .f32) (harg1 : arg1.IsWhole)
    (argW : Memref sig .tc .vmem S81x512 .f32) (hW : argW.IsWhole) (argB : Memref sig .tc .vmem S1x81 .f32) (hB : argB.IsWhole)
    (x0 : Vec Ideal S32x27x5x512 .f32) (w : Vec Ideal S81x512 .f32) (bias : Vec Ideal S1x81 .f32)
    (Fb : S32x27x9x51.Idx → EReal)
    (hFb : ∀ (b : Fin 32) (t : Fin 27) (p q : Fin 9) (L : Fin 51) (o : Fin 81), L.val = lane + q.val →
      o.val = p.val * 9 + q.val → Fb (ix4 b t p L) = Cert.Decoder.lin (B := 32) x0 w (brow bias) (⟨g, hg⟩ : Fin 5) b t o)
    (x : S32x27x9x9.Idx) :
    k0_pay2 (F := Ideal)
      (View.readAt (Elt Ideal) arg1.view (Rect.unit (s := S32x27x5x512) ![0, 0, g, 0] ![32, 27, 1, 512] inbT).toLoadRect (harg1.unread x0))
      (View.readAt (Elt Ideal) argW.view (Rect.unit (s := S81x512) ![0, 0] ![81, 512] inb_S81x512_S81x512_0_0).toLoadRect (hW.unread w))
      (View.readAt (Elt Ideal) argB.view (Rect.unit (s := S1x81) ![0, 0] ![1, 81] inb_S1x81_S1x81_0_0).toLoadRect (hB.unread bias)) x
    = Fb ((Rect.unit (s := S32x27x9x51) ![0, 0, 0, lane] ![32, 27, 9, 9] inbL).emb x) := by
  simp only [View.readAt_eq_ld, harg1.read_unread, hW.read_unread, hB.read_unread]
  have ew : View.ld w (Rect.unit (s := S81x512) ![0, 0] ![81, 512] inb_S81x512_S81x512_0_0) = w :=
    View.ld_unit_zero (S := S81x512) zero2 _ w
  have eb : View.ld bias (Rect.unit (s := S1x81) ![0, 0] ![1, 81] inb_S1x81_S1x81_0_0) = bias :=
    View.ld_unit_zero (S := S1x81) zero2 _ bias
  rw [ew, eb]
  obtain ⟨b, t, p, q, rfl⟩ : ∃ (b : Fin 32) (t : Fin 27) (p : Fin 9) (q : Fin 9), x = ix4 b t p q :=
    ⟨x 0, x 1, x 2, x 3, eq_ix4 x⟩
  have hq : lane + q.val < 51 := by have := q.isLt; omega
  rw [emb_lane lane 9 inbL b t p q hq,
    val81 _ x0 (⟨g, hg⟩ : Fin 5) (fun b t h => ld_tok g hg inbT x0 b t h) w bias b t p q ⟨p.val * 9 + q.val, by omega⟩ rfl]
  exact (hFb b t p q ⟨lane + q.val, hq⟩ ⟨p.val * 9 + q.val, by omega⟩ rfl rfl).symm

/-- The store of the first joint of the group of five: places 0–2 of its head, at lanes 0–2. -/
theorem piece135_lo
    (arg1 : Memref sig .tc .vmem S32x27x5x512 .f32) (harg1 : arg1.IsWhole)
    (argW : Memref sig .tc .vmem S135x512 .f32) (hW : argW.IsWhole) (argB : Memref sig .tc .vmem S1x135 .f32) (hB : argB.IsWhole)
    (x0 : Vec Ideal S32x27x5x512 .f32) (w : Vec Ideal S135x512 .f32) (bias : Vec Ideal S1x135 .f32)
    (Fb : S32x27x9x51.Idx → EReal)
    (hFb : ∀ (b : Fin 32) (t : Fin 27) (p : Fin 9) (q : Fin 3) (L : Fin 51) (o : Fin 135), L.val = q.val →
      o.val = p.val * 15 + q.val → Fb (ix4 b t p L) = Cert.Decoder.lin (B := 32) x0 w (brow bias) 2 b t o)
    (x : S32x27x9x3.Idx) :
    k0_pay5 (F := Ideal)
      (View.readAt (Elt Ideal) arg1.view (Rect.unit (s := S32x27x5x512) ![0, 0, 2, 0] ![32, 27, 1, 512] inb_S32x27x5x512_S32x27x1x512_0_0_2_0).toLoadRect (harg1.unread x0))
      (View.readAt (Elt Ideal) argW.view (Rect.unit (s := S135x512) ![0, 0] ![135, 512] inb_S135x512_S135x512_0_0).toLoadRect (hW.unread w))
      (View.readAt (Elt Ideal) argB.view (Rect.unit (s := S1x135) ![0, 0] ![1, 135] inb_S1x135_S1x135_0_0).toLoadRect (hB.unread bias)) x
    = Fb ((Rect.unit (s := S32x27x9x51) ![0, 0, 0, 0] ![32, 27, 9, 3] inb_S32x27x9x51_S32x27x9x3_0_0_0_0).emb x) := by
  simp only [View.readAt_eq_ld, harg1.read_unread, hW.read_unread, hB.read_unread]
  have ew : View.ld w (Rect.unit (s := S135x512) ![0, 0] ![135, 512] inb_S135x512_S135x512_0_0) = w :=
    View.ld_unit_zero (S := S135x512) zero2 _ w
  have eb : View.ld bias (Rect.unit (s := S1x135) ![0, 0] ![1, 135] inb_S1x135_S1x135_0_0) = bias :=
    View.ld_unit_zero (S := S1x135) zero2 _ bias
  rw [ew, eb]
  obtain ⟨b, t, p, q, rfl⟩ : ∃ (b : Fin 32) (t : Fin 27) (p : Fin 9) (q : Fin 3), x = ix4 b t p q :=
    ⟨x 0, x 1, x 2, x 3, eq_ix4 x⟩
  have hq : 0 + q.val < 51 := by have := q.isLt; omega
  rw [emb_lane 0 3 inb_S32x27x9x51_S32x27x9x3_0_0_0_0 b t p q hq, Head.slice_lo_apply]
  exact (val135 _ x0 2 (fun b t h => ld_tok 2 (by omega) inb_S32x27x5x512_S32x27x1x512_0_0_2_0 x0 b t h) w bias b t p _
      ⟨p.val * 15 + q.val, by omega⟩ rfl).trans
    (hFb b t p q ⟨0 + q.val, hq⟩ ⟨p.val * 15 + q.val, by omega⟩ (Nat.zero_add _) rfl).symm

/-- The store of the other four joints of the group of five: places 3–14 of its head, at lanes 21–32. -/
theorem piece135_hi
    (arg1 : Memref sig .tc .vmem S32x27x5x512 .f32) (harg1 : arg1.IsWhole)
    (argW : Memref sig .tc .vmem S135x512 .f32) (hW : argW.IsWhole) (argB : Memref sig .tc .vmem S1x135 .f32) (hB : argB.IsWhole)
    (x0 : Vec Ideal S32x27x5x512 .f32) (w : Vec Ideal S135x512 .f32) (bias : Vec Ideal S1x135 .f32)
    (Fb : S32x27x9x51.Idx → EReal)
    (hFb : ∀ (b : Fin 32) (t : Fin 27) (p : Fin 9) (q : Fin 12) (L : Fin 51) (o : Fin 135), L.val = 21 + q.val →
      o.val = p.val * 15 + (q.val + 3) → Fb (ix4 b t p L) = Cert.Decoder.lin (B := 32) x0 w (brow bias) 2 b t o)
    (x : S32x27x9x12.Idx) :
    k0_pay6 (F := Ideal)
      (View.readAt (Elt Ideal) arg1.view (Rect.unit (s := S32x27x5x512) ![0, 0, 2, 0] ![32, 27, 1, 512] inb_S32x27x5x512_S32x27x1x512_0_0_2_0).toLoadRect (harg1.unread x0))
      (View.readAt (Elt Ideal) argW.view (Rect.unit (s := S135x512) ![0, 0] ![135, 512] inb_S135x512_S135x512_0_0).toLoadRect (hW.unread w))
      (View.readAt (Elt Ideal) argB.view (Rect.unit (s := S1x135) ![0, 0] ![1, 135] inb_S1x135_S1x135_0_0).toLoadRect (hB.unread bias)) x
    = Fb ((Rect.unit (s := S32x27x9x51) ![0, 0, 0, 21] ![32, 27, 9, 12] inb_S32x27x9x51_S32x27x9x12_0_0_0_21).emb x) := by
  simp only [View.readAt_eq_ld, harg1.read_unread, hW.read_unread, hB.read_unread]
  have ew : View.ld w (Rect.unit (s := S135x512) ![0, 0] ![135, 512] inb_S135x512_S135x512_0_0) = w :=
    View.ld_unit_zero (S := S135x512) zero2 _ w
  have eb : View.ld bias (Rect.unit (s := S1x135) ![0, 0] ![1, 135] inb_S1x135_S1x135_0_0) = bias :=
    View.ld_unit_zero (S := S1x135) zero2 _ bias
  rw [ew, eb]
  obtain ⟨b, t, p, q, rfl⟩ : ∃ (b : Fin 32) (t : Fin 27) (p : Fin 9) (q : Fin 12), x = ix4 b t p q :=
    ⟨x 0, x 1, x 2, x 3, eq_ix4 x⟩
  have hq : 21 + q.val < 51 := by have := q.isLt; omega
  rw [emb_lane 21 12 inb_S32x27x9x51_S32x27x9x12_0_0_0_21 b t p q hq, Head.slice_hi_apply]
  exact (val135 _ x0 2 (fun b t h => ld_tok 2 (by omega) inb_S32x27x5x512_S32x27x1x512_0_0_2_0 x0 b t h) w bias b t p _
      ⟨p.val * 15 + (q.val + 3), by omega⟩ rfl).trans
    (hFb b t p q ⟨21 + q.val, hq⟩ ⟨p.val * 15 + (q.val + 3), by omega⟩ rfl rfl).symm

/-- The output block after the body, as a function of the point's input blocks: the specification on the block. The six
    stores in the order the body's run lists them (last first): lanes 42–50 (joints 14–16), 33–41 (joints 11–13), 21–32
    (joints 7–10), 0–2 (joint 0), 12–20 (joints 4–6), 3–11 (joints 1–3). -/
theorem out_eq (c : Dev nD) (i : grid0.Coords)
    (arg1 : Memref sig .tc .vmem S32x27x5x512 .f32) (harg1 : arg1.IsWhole) (arg2 : Memref sig .tc .vmem S81x512 .f32) (harg2 : arg2.IsWhole)
    (arg3 : Memref sig .tc .vmem S1x81 .f32) (harg3 : arg3.IsWhole) (arg4 : Memref sig .tc .vmem S81x512 .f32) (harg4 : arg4.IsWhole)
    (arg5 : Memref sig .tc .vmem S1x81 .f32) (harg5 : arg5.IsWhole) (arg6 : Memref sig .tc .vmem S135x512 .f32) (harg6 : arg6.IsWhole)
    (arg7 : Memref sig .tc .vmem S1x135 .f32) (harg7 : arg7.IsWhole) (arg8 : Memref sig .tc .vmem S81x512 .f32) (harg8 : arg8.IsWhole)
    (arg9 : Memref sig .tc .vmem S1x81 .f32) (harg9 : arg9.IsWhole) (arg10 : Memref sig .tc .vmem S81x512 .f32) (harg10 : arg10.IsWhole)
    (arg11 : Memref sig .tc .vmem S1x81 .f32) (harg11 : arg11.IsWhole) (arg12 : Memref sig .tc .vmem S32x27x9x51 .f32) (harg12 : arg12.IsWhole)
    (x0 : Vec Ideal S32x27x5x512 .f32) (x1 : Vec Ideal S81x512 .f32) (x2 : Vec Ideal S1x81 .f32) (x3 : Vec Ideal S81x512 .f32)
    (x4 : Vec Ideal S1x81 .f32) (x5 : Vec Ideal S135x512 .f32) (x6 : Vec Ideal S1x135 .f32) (x7 : Vec Ideal S81x512 .f32)
    (x8 : Vec Ideal S1x81 .f32) (x9 : Vec Ideal S81x512 .f32) (x10 : Vec Ideal S1x81 .f32) :
    out0_A_11 (F := Ideal) c i arg1 harg1 arg2 harg2 arg3 harg3 arg4 harg4 arg5 harg5 arg6 harg6 arg7 harg7 arg8 harg8 arg9 harg9
        arg10 harg10 arg11 harg11 arg12 harg12 x0 x1 x2 x3 x4 x5 x6 x7 x8 x9 x10
      = blockFun x0 x1 x2 x3 x4 x5 x6 x7 x8 x9 x10 := by
  unfold out0_A_11
  rw [View.read_writes_eq_canon _ _ _ (cover0_A_11 c i arg1 harg1 arg2 harg2 arg3 harg3 arg4 harg4 arg5 harg5 arg6 harg6
    arg7 harg7 arg8 harg8 arg9 harg9 arg10 harg10 arg11 harg11 arg12 harg12 x0 x1 x2 x3 x4 x5 x6 x7 x8 x9 x10)]
  funext y
  refine View.canon_apply_of_pieces (blockFun x0 x1 x2 x3 x4 x5 x6 x7 x8 x9 x10) _ ?_ y
    (cover0_A_11 c i arg1 harg1 arg2 harg2 arg3 harg3 arg4 harg4 arg5 harg5 arg6 harg6 arg7 harg7 arg8 harg8 arg9 harg9
      arg10 harg10 arg11 harg11 arg12 harg12 x0 x1 x2 x3 x4 x5 x6 x7 x8 x9 x10 y)
  unfold kernelRun0_A
  dsimp only
  sl_unfold_words
  intro pc hpc
  simp only [List.mem_cons, List.not_mem_nil, or_false] at hpc
  rcases hpc with rfl | rfl | rfl | rfl | rfl | rfl
  · intro x
    refine (congrFun (Head.pay1_eq _ _ _) x).trans ?_
    exact piece81 4 (by omega) 42 (by omega) inb_S32x27x5x512_S32x27x1x512_0_0_4_0 inb_S32x27x9x51_S32x27x9x9_0_0_0_42 arg1 harg1 arg10 harg10 arg11 harg11 x0 x9 x10 _
      (fun b t p q L o hL ho => Cert.Decoder.blk_group4 (B := 32) x0 x1 (brow x2) x3 (brow x4) x5 (brow x6) x7 (brow x8)
        x9 (brow x10) b t p L (by omega) o (by omega)) x
  · intro x
    refine (congrFun (Head.pay7_eq _ _ _) x).trans ?_
    exact piece81 3 (by omega) 33 (by omega) inb_S32x27x5x512_S32x27x1x512_0_0_3_0 inb_S32x27x9x51_S32x27x9x9_0_0_0_33 arg1 harg1 arg8 harg8 arg9 harg9 x0 x7 x8 _
      (fun b t p q L o hL ho => Cert.Decoder.blk_group3 (B := 32) x0 x1 (brow x2) x3 (brow x4) x5 (brow x6) x7 (brow x8)
        x9 (brow x10) b t p L (by omega) (by have := q.isLt; omega) o (by omega)) x
  · intro x
    exact piece135_hi arg1 harg1 arg6 harg6 arg7 harg7 x0 x5 x6 _
      (fun b t p q L o hL ho => Cert.Decoder.blk_joints7 (B := 32) x0 x1 (brow x2) x3 (brow x4) x5 (brow x6) x7 (brow x8)
        x9 (brow x10) b t p L (by omega) (by have := q.isLt; omega) o (by omega)) x
  · intro x
    exact piece135_lo arg1 harg1 arg6 harg6 arg7 harg7 x0 x5 x6 _
      (fun b t p q L o hL ho => Cert.Decoder.blk_joint0 (B := 32) x0 x1 (brow x2) x3 (brow x4) x5 (brow x6) x7 (brow x8)
        x9 (brow x10) b t p L (by have := q.isLt; omega) o (by omega)) x
  · intro x
    refine (congrFun (Head.pay3_eq _ _ _) x).trans ?_
    exact piece81 1 (by omega) 12 (by omega) inb_S32x27x5x512_S32x27x1x512_0_0_1_0 inb_S32x27x9x51_S32x27x9x9_0_0_0_12 arg1 harg1 arg4 harg4 arg5 harg5 x0 x3 x4 _
      (fun b t p q L o hL ho => Cert.Decoder.blk_group1 (B := 32) x0 x1 (brow x2) x3 (brow x4) x5 (brow x6) x7 (brow x8)
        x9 (brow x10) b t p L (by omega) (by have := q.isLt; omega) o (by omega)) x
  · intro x
    exact piece81 0 (by omega) 3 (by omega) inb_S32x27x5x512_S32x27x1x512_0_0_0_0 inb_S32x27x9x51_S32x27x9x9_0_0_0_3 arg1 harg1 arg2 harg2 arg3 harg3 x0 x1 x2 _
      (fun b t p q L o hL ho => Cert.Decoder.blk_group0 (B := 32) x0 x1 (brow x2) x3 (brow x4) x5 (brow x6) x7 (brow x8)
        x9 (brow x10) b t p L (by omega) (by have := q.isLt; omega) o (by omega)) x

/-- At grid point `t` the output's staging buffer holds the specification on the point's input blocks. -/
theorem outsAt_eq (m : (ℓ : Loc nD τ sig) → Buf (Elt Ideal) ℓ) (c : Dev nD) (t : Fin cfg0.N) :
    outsAt0 m c t = blockFun (iblk m c 0 t) (iblk m c 1 t) (iblk m c 2 t) (iblk m c 3 t) (iblk m c 4 t) (iblk m c 5 t)
      (iblk m c 6 t) (iblk m c 7 t) (iblk m c 8 t) (iblk m c 9 t) (iblk m c 10 t) := by
  unfold outsAt0
  exact out_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) _ _ _ _ _ _ _ _ _ _ _

end Cert.KernelIdeal.Out

end
-- ==== Proof.KFinal.lean ====
/-
  The output array after the kernel's run.

  At grid point t the body leaves in the output block the specification evaluated on the point's blocks: the token block is batch
  rows 32·t … 32·t + 31 of the tokens and the weight and bias blocks are the whole arrays, and the specification at a batch row
  reads the tokens on that row only, so the block is the restriction to those batch rows of ONE function of the whole arrays. Point
  t writes it back to batch rows 32·t … 32·t + 31 of the output array; the 32 blocks cover the array, so the array ends holding
  that function. The bias rows the region finds are the bias vectors of the launch, reshaped to one-row matrices.
-/
import proofs.«135711_j69887707841118_2_alg».proof.Proof.KBlocks
import proofs.«135711_j69887707841118_2_alg».proof.Proof.KOut
import proofs.«135711_j69887707841118_2_alg».proof.Proof.KHost

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Out (brow blockFun)

variable (m : (ℓ : Loc nD τ sig) → Buf (Elt Ideal) ℓ)

/-- The specification on whole arrays: tokens, and per group a weight matrix and a bias stored as a one-row matrix. -/
def spec (a0 : FVec Ideal ⟨4, ![1024, 27, 5, 512]⟩ .f32)
    (a1 : FVec Ideal ⟨2, ![81, 512]⟩ .f32) (r0 : FVec Ideal ⟨2, ![1, 81]⟩ .f32)
    (a3 : FVec Ideal ⟨2, ![81, 512]⟩ .f32) (r1 : FVec Ideal ⟨2, ![1, 81]⟩ .f32)
    (a5 : FVec Ideal ⟨2, ![135, 512]⟩ .f32) (r2 : FVec Ideal ⟨2, ![1, 135]⟩ .f32)
    (a7 : FVec Ideal ⟨2, ![81, 512]⟩ .f32) (r3 : FVec Ideal ⟨2, ![1, 81]⟩ .f32)
    (a9 : FVec Ideal ⟨2, ![81, 512]⟩ .f32) (r4 : FVec Ideal ⟨2, ![1, 81]⟩ .f32) :
    (⟨4, ![1024, 27, 9, 51]⟩ : Shape).Idx → EReal :=
  fun i => Cert.Decoder.blk (B := 1024) a0 a1 (brow r0) a3 (brow r1) a5 (brow r2) a7 (brow r3) a9 (brow r4) (i 0) (i 1) (i 2) (i 3)

/-- The output array as a function of the arrays the region finds. -/
def GV (c : Dev nD) : S1024x27x9x51.Idx → EReal :=
  spec (V m c main_arg0) (V m c main_arg1) (V m c main_v0) (V m c main_arg3) (V m c main_v1) (V m c main_arg5) (V m c main_v2)
    (V m c main_arg7) (V m c main_v3) (V m c main_arg9) (V m c main_v4)

/-- The specification on a block of 32 batch rows whose tokens are batch rows of a whole array, the other arrays equal, is
    the specification on the whole arrays at those batch rows. -/
theorem blockFun_eq_spec (x0 : Vec Ideal S32x27x5x512 .f32) (a0 : FVec Ideal ⟨4, ![1024, 27, 5, 512]⟩ .f32)
    (x1 a1 : FVec Ideal ⟨2, ![81, 512]⟩ .f32) (x2 r0 : FVec Ideal ⟨2, ![1, 81]⟩ .f32)
    (x3 a3 : FVec Ideal ⟨2, ![81, 512]⟩ .f32) (x4 r1 : FVec Ideal ⟨2, ![1, 81]⟩ .f32)
    (x5 a5 : FVec Ideal ⟨2, ![135, 512]⟩ .f32) (x6 r2 : FVec Ideal ⟨2, ![1, 135]⟩ .f32)
    (x7 a7 : FVec Ideal ⟨2, ![81, 512]⟩ .f32) (x8 r3 : FVec Ideal ⟨2, ![1, 81]⟩ .f32)
    (x9 a9 : FVec Ideal ⟨2, ![81, 512]⟩ .f32) (x10 r4 : FVec Ideal ⟨2, ![1, 81]⟩ .f32)
    (e1 : x1 = a1) (e2 : x2 = r0) (e3 : x3 = a3) (e4 : x4 = r1) (e5 : x5 = a5) (e6 : x6 = r2) (e7 : x7 = a7) (e8 : x8 = r3)
    (e9 : x9 = a9) (e10 : x10 = r4)
    (s : Nat) (j : S32x27x9x51.Idx) (i : S1024x27x9x51.Idx)
    (e0 : ∀ (b : Fin 32) (tt : Fin 27) (g : Fin 5) (f : Fin 512) (hb : s + b.val < 1024),
      x0 (ix4 b tt g f) = a0 (ix4 (⟨s + b.val, hb⟩ : Fin 1024) tt g f))
    (h0 : (i 0).val = s + (j 0).val) (h1 : (i 1).val = (j 1).val) (h2 : (i 2).val = (j 2).val) (h3 : (i 3).val = (j 3).val) :
    blockFun x0 x1 x2 x3 x4 x5 x6 x7 x8 x9 x10 j = spec a0 a1 r0 a3 r1 a5 r2 a7 r3 a9 r4 i := by
  subst e1 e2 e3 e4 e5 e6 e7 e8 e9 e10
  obtain ⟨b, tt, p, L, rfl⟩ : ∃ (b : Fin 32) (tt : Fin 27) (p : Fin 9) (L : Fin 51), j = ix4 b tt p L :=
    ⟨j 0, j 1, j 2, j 3, eq_ix4 j⟩
  obtain ⟨b', tt', p', L', rfl⟩ : ∃ (b' : Fin 1024) (tt' : Fin 27) (p' : Fin 9) (L' : Fin 51), i = ix4 b' tt' p' L' :=
    ⟨i 0, i 1, i 2, i 3, eq_ix4 i⟩
  have hb : s + b.val < 1024 := by have := b'.isLt; exact h0 ▸ this
  obtain rfl : b' = ⟨s + b.val, hb⟩ := Fin.ext h0
  obtain rfl : tt = tt' := Fin.ext h1.symm
  obtain rfl : p = p' := Fin.ext h2.symm
  obtain rfl : L = L' := Fin.ext h3.symm
  exact blk_congr x0 a0 x1 (brow x2) x3 (brow x4) x5 (brow x6) x7 (brow x8) x9 (brow x10) b ⟨s + b.val, hb⟩
    (fun t' g f => e0 b t' g f hb) tt p L

/-- WHAT POINT t WRITES BACK is block t of `GV`. -/
theorem flushed_eq (c : Dev nD) (t : Fin cfg0.N) :
    (dats m 0 c).flushed 11 t = ((cfg0.win 11).blk t).view.read (Elt Ideal) (GV m c) := by
  obtain ⟨i0, i1, i2, i3⟩ := idx_w11 t
  show (cfg0.win 11).cut (grid0.coords t) ((dats m 0 c).after 11 t) = _
  rw [after0_11, Out.outsAt_eq]
  funext j
  show blockFun (iblk m c 0 t) (iblk m c 1 t) (iblk m c 2 t) (iblk m c 3 t) (iblk m c 4 t) (iblk m c 5 t) (iblk m c 6 t) (iblk m c 7 t) (iblk m c 8 t) (iblk m c 9 t) (iblk m c 10 t) j
    = GV m c (((cfg0.win 11).blk t).view.emb j)
  refine blockFun_eq_spec _ _ _ _ _ _ _ _ _ _ _ _ _ _ _ _ _ _ _ _ _ _
    (iblk1_eq m c t) (iblk2_eq m c t) (iblk3_eq m c t) (iblk4_eq m c t) (iblk5_eq m c t) (iblk6_eq m c t) (iblk7_eq m c t)
    (iblk8_eq m c t) (iblk9_eq m c t) (iblk10_eq m c t) (t.val * 32) j _
    (fun b tt g f hb => iblk0_apply m c t b tt g f hb) ?_ ?_ ?_ ?_
  · show win0_11.index t (0 : Fin 4) * 32 + 1 * (j 0).val = t.val * 32 + (j 0).val
    rw [i0]; omega
  · show win0_11.index t (1 : Fin 4) * 27 + 1 * (j 1).val = (j 1).val
    rw [i1]; omega
  · show win0_11.index t (2 : Fin 4) * 9 + 1 * (j 2).val = (j 2).val
    rw [i2]; omega
  · show win0_11.index t (3 : Fin 4) * 51 + 1 * (j 3).val = (j 3).val
    rw [i3]; omega

/-- The output array after the run is `GV`: the 32 blocks cover it. -/
theorem final_GV (c : Dev nD) : (dats m 0 c).arrAt 11 cfg0.N = GV m c :=
  (dats m 0 c).arrAt_eq_of_cover 11 (GV m c) (fun t _ => flushed_eq m c t) cover

/-- On the launch's arrays `GV` is the specification laid out by patches, time steps and lanes. -/
theorem GV_eq (c : Dev nD) :
    GV m c = Cert.Decoder.Gblk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have r0 : brow (V m c main_v0 : S1x81.Idx → EReal) = fun o => ((m ((c.tc : Thread nD τ).loc main_arg2)) : S81.Idx → EReal) (ix1 o) :=
    funext fun o => HostOps.V_v0_apply m c o
  have r1 : brow (V m c main_v1 : S1x81.Idx → EReal) = fun o => ((m ((c.tc : Thread nD τ).loc main_arg4)) : S81.Idx → EReal) (ix1 o) :=
    funext fun o => HostOps.V_v1_apply m c o
  have r2 : brow (V m c main_v2 : S1x135.Idx → EReal) = fun o => ((m ((c.tc : Thread nD τ).loc main_arg6)) : S135.Idx → EReal) (ix1 o) :=
    funext fun o => HostOps.V_v2_apply m c o
  have r3 : brow (V m c main_v3 : S1x81.Idx → EReal) = fun o => ((m ((c.tc : Thread nD τ).loc main_arg8)) : S81.Idx → EReal) (ix1 o) :=
    funext fun o => HostOps.V_v3_apply m c o
  have r4 : brow (V m c main_v4 : S1x81.Idx → EReal) = fun o => ((m ((c.tc : Thread nD τ).loc main_arg10)) : S81.Idx → EReal) (ix1 o) :=
    funext fun o => HostOps.V_v4_apply m c o
  funext i
  unfold GV spec Cert.Decoder.Gblk Cert.Decoder.blkA
  rw [r0, r1, r2, r3, r4, V_main_arg0 m c, V_main_arg1 m c, V_main_arg3 m c, V_main_arg5 m c, V_main_arg7 m c, V_main_arg9 m c]

/-- THE OUTPUT ARRAY AFTER THE RUN is the specification of the launch's eleven argument arrays. -/
theorem final (c : Dev nD) :
    (dats m 0 c).arrAt 11 cfg0.N = Cert.Decoder.Gblk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (final_GV m c).trans (GV_eq m c)

end Cert.KernelIdeal.Final

end
-- ==== Proof.KRun.lean ====
/-
  The idealized kernel's run, with its result named.

  The kernel program reshapes the five biases to one-row matrices, runs the grid of 32 points — point `t` computes the block
  of batch rows `32·t … 32·t + 31` of the f32[1024, 27, 9, 51] output array from the same rows of tokens and the whole weight
  and bias arrays —, and reshapes that array to f32[1024, 243, 17, 3]. After the grid the output array is the specification
  laid out as [1024, 27, 9, 51] (`Final.final`), and reshaping it row-major gives the specification at `(b, 9·t + p, j, c)`
  (`HostOps.reshape_G`); the argument arrays are the ones the run started from.
-/
import proofs.«135711_j69887707841118_2_alg».proof.Proof.Gen.KernelIdeal.Frame
import proofs.«135711_j69887707841118_2_alg».proof.Proof.KHost
import proofs.«135711_j69887707841118_2_alg».proof.Proof.KFinal
import proofs.«135711_j69887707841118_2_alg».proof.Proof.Spec

noncomputable section

namespace Cert.KernelIdeal.Result

open Cert.KernelIdeal Cert.KernelIdeal.Gen Idealize.ShloMosaic Idealize.ShloMosaic.TcCoe Idealize.SL.Sem

/-- The result buffer after the run is the specification of the argument arrays. -/
theorem result_eq (m : (ℓ : Loc nD τ sig) → Buf (Elt Ideal) ℓ) (c : Dev nD) :
    Pipeline.afterTail₀ cfgs (dats m) 0 (V0 m) [hostOps1] c main_v6
      = Cert.Decoder.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (HostOps.tail_eq m c _ (Final.final m c)).trans (HostOps.reshape_G _ _ _ _ _ _ _ _ _ _ _)

/-- Every weakly fair execution of the idealized kernel program terminates with the result buffer at the specification of the
    argument arrays and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = Cert.Decoder.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c))⟩)
    (run_main m ρ)

end Cert.KernelIdeal.Result

end
-- ==== Proof.RefTerm.lean ====
/- The reference's value as a pure term of its eleven argument arrays, at the ideal instance (floats are
   extended reals, operations exact): one definition per stage of the program, each spelt as the program's own
   operations compose. For group i (i = 0 … 4): `predI` is the linear layer of that group's token slice
   (slice, reshape, dot_general with the weight, the bias broadcast twice, add) reshaped to the update array
   f32[1024,243,gs,3]; `tabI` the group's joint table and `idxI` the index array [gs,1] computed from it (negative
   entries wrapped by 17, then broadcast to a column). `outAcc` scatter-adds the five updates into the zero array
   f32[1024,243,17,3] along the joint axis, `cntAcc` scatter-adds ones into the zero count array
   f32[1024,243,17,1] the same way, and `refTerm` divides the first by the count clipped below at one,
   broadcast along the last axis. -/
import proofs.«135711_j69887707841118_2_alg».proof.ReferenceIdeal
import Idealize.ShloMosaic.PureOps.Ideal

noncomputable section

namespace Cert.ReferenceIdeal.RefTerm

open Cert.ReferenceIdeal Idealize.ShloMosaic
open Cert.ReferenceIdeal.Facts₀ Cert.ReferenceIdeal.Facts

variable [Facts]

/-- Group 0's update array: tokens[:, :, 0, :] · Wᵀ + bias, as f32[1024,243,3,3]. -/
def pred0 (tok : (⟨S1024x27x5x512, .f32⟩ : BufTy).Contents (Elt Ideal)) (W : (⟨S81x512, .f32⟩ : BufTy).Contents (Elt Ideal)) (bias : (⟨S81, .f32⟩ : BufTy).Contents (Elt Ideal)) :
    (⟨S1024x243x3x3, .f32⟩ : BufTy).Contents (Elt Ideal) :=
  shapeCast S1024x243x3x3
    (addf (F := Ideal) (φ := .f32)
      (Host.dotGeneral (F := Ideal) (φ₁ := .f32) (φ₂ := .f32) dot_S1024x27x512_S81x512_S1024x27x81_2_1_01_0_n_n none
        (shapeCast S1024x27x512
          (extractStridedSlice S1024x27x1x512 ![0, 0, 0, 0] tok slices_S1024x27x5x512_S1024x27x1x512_0_0_0_0)
          shapeCasts_S1024x27x1x512_S1024x27x512)
        W)
      (broadcastInDim S1024x27x81 ![0, 1, 2] bcast_S1x1x81_S1024x27x81_0_1_2
        (broadcastInDim S1x1x81 ![2] bcast_S81_S1x1x81_2 bias)))
    shapeCasts_S1024x27x81_S1024x243x3x3

/-- Group 1's update array: tokens[:, :, 1, :] · Wᵀ + bias, as f32[1024,243,3,3]. -/
def pred1 (tok : (⟨S1024x27x5x512, .f32⟩ : BufTy).Contents (Elt Ideal)) (W : (⟨S81x512, .f32⟩ : BufTy).Contents (Elt Ideal)) (bias : (⟨S81, .f32⟩ : BufTy).Contents (Elt Ideal)) :
    (⟨S1024x243x3x3, .f32⟩ : BufTy).Contents (Elt Ideal) :=
  shapeCast S1024x243x3x3
    (addf (F := Ideal) (φ := .f32)
      (Host.dotGeneral (F := Ideal) (φ₁ := .f32) (φ₂ := .f32) dot_S1024x27x512_S81x512_S1024x27x81_2_1_01_0_n_n none
        (shapeCast S1024x27x512
          (extractStridedSlice S1024x27x1x512 ![0, 0, 1, 0] tok slices_S1024x27x5x512_S1024x27x1x512_0_0_1_0)
          shapeCasts_S1024x27x1x512_S1024x27x512)
        W)
      (broadcastInDim S1024x27x81 ![0, 1, 2] bcast_S1x1x81_S1024x27x81_0_1_2
        (broadcastInDim S1x1x81 ![2] bcast_S81_S1x1x81_2 bias)))
    shapeCasts_S1024x27x81_S1024x243x3x3

/-- Group 2's update array: tokens[:, :, 2, :] · Wᵀ + bias, as f32[1024,243,5,3]. -/
def pred2 (tok : (⟨S1024x27x5x512, .f32⟩ : BufTy).Contents (Elt Ideal)) (W : (⟨S135x512, .f32⟩ : BufTy).Contents (Elt Ideal)) (bias : (⟨S135, .f32⟩ : BufTy).Contents (Elt Ideal)) :
    (⟨S1024x243x5x3, .f32⟩ : BufTy).Contents (Elt Ideal) :=
  shapeCast S1024x243x5x3
    (addf (F := Ideal) (φ := .f32)
      (Host.dotGeneral (F := Ideal) (φ₁ := .f32) (φ₂ := .f32) dot_S1024x27x512_S135x512_S1024x27x135_2_1_01_0_n_n none
        (shapeCast S1024x27x512
          (extractStridedSlice S1024x27x1x512 ![0, 0, 2, 0] tok slices_S1024x27x5x512_S1024x27x1x512_0_0_2_0)
          shapeCasts_S1024x27x1x512_S1024x27x512)
        W)
      (broadcastInDim S1024x27x135 ![0, 1, 2] bcast_S1x1x135_S1024x27x135_0_1_2
        (broadcastInDim S1x1x135 ![2] bcast_S135_S1x1x135_2 bias)))
    shapeCasts_S1024x27x135_S1024x243x5x3

/-- Group 3's update array: tokens[:, :, 3, :] · Wᵀ + bias, as f32[1024,243,3,3]. -/
def pred3 (tok : (⟨S1024x27x5x512, .f32⟩ : BufTy).Contents (Elt Ideal)) (W : (⟨S81x512, .f32⟩ : BufTy).Contents (Elt Ideal)) (bias : (⟨S81, .f32⟩ : BufTy).Contents (Elt Ideal)) :
    (⟨S1024x243x3x3, .f32⟩ : BufTy).Contents (Elt Ideal) :=
  shapeCast S1024x243x3x3
    (addf (F := Ideal) (φ := .f32)
      (Host.dotGeneral (F := Ideal) (φ₁ := .f32) (φ₂ := .f32) dot_S1024x27x512_S81x512_S1024x27x81_2_1_01_0_n_n none
        (shapeCast S1024x27x512
          (extractStridedSlice S1024x27x1x512 ![0, 0, 3, 0] tok slices_S1024x27x5x512_S1024x27x1x512_0_0_3_0)
          shapeCasts_S1024x27x1x512_S1024x27x512)
        W)
      (broadcastInDim S1024x27x81 ![0, 1, 2] bcast_S1x1x81_S1024x27x81_0_1_2
        (broadcastInDim S1x1x81 ![2] bcast_S81_S1x1x81_2 bias)))
    shapeCasts_S1024x27x81_S1024x243x3x3

/-- Group 4's update array: tokens[:, :, 4, :] · Wᵀ + bias, as f32[1024,243,3,3]. -/
def pred4 (tok : (⟨S1024x27x5x512, .f32⟩ : BufTy).Contents (Elt Ideal)) (W : (⟨S81x512, .f32⟩ : BufTy).Contents (Elt Ideal)) (bias : (⟨S81, .f32⟩ : BufTy).Contents (Elt Ideal)) :
    (⟨S1024x243x3x3, .f32⟩ : BufTy).Contents (Elt Ideal) :=
  shapeCast S1024x243x3x3
    (addf (F := Ideal) (φ := .f32)
      (Host.dotGeneral (F := Ideal) (φ₁ := .f32) (φ₂ := .f32) dot_S1024x27x512_S81x512_S1024x27x81_2_1_01_0_n_n none
        (shapeCast S1024x27x512
          (extractStridedSlice S1024x27x1x512 ![0, 0, 4, 0] tok slices_S1024x27x5x512_S1024x27x1x512_0_0_4_0)
          shapeCasts_S1024x27x1x512_S1024x27x512)
        W)
      (broadcastInDim S1024x27x81 ![0, 1, 2] bcast_S1x1x81_S1024x27x81_0_1_2
        (broadcastInDim S1x1x81 ![2] bcast_S81_S1x1x81_2 bias)))
    shapeCasts_S1024x27x81_S1024x243x3x3

/-- Group 0's joint table, as the program's literal constant. -/
def tab0 : (⟨S3, .i32⟩ : BufTy).Contents (Elt Ideal) := fun i => lit0 (S3.rowMajor i)

/-- Group 0's scatter index array [3,1]: the table, an entry below zero wrapped by 17, as a column. -/
def idx0 : (⟨S3x1, .i32⟩ : BufTy).Contents (Elt Ideal) :=
  broadcastInDim S3x1 ![0] bcast_S3_S3x1_0
    (select (cmpi .slt tab0 (broadcastInDim S3 ![] bcast_S_S3 (constantI S_ 32 0#32)))
      (addi tab0 (broadcastInDim S3 ![] bcast_S_S3 (constantI S_ 32 17#32)))
      tab0)

/-- Group 1's joint table, as the program's literal constant. -/
def tab1 : (⟨S3, .i32⟩ : BufTy).Contents (Elt Ideal) := fun i => lit1 (S3.rowMajor i)

/-- Group 1's scatter index array [3,1]: the table, an entry below zero wrapped by 17, as a column. -/
def idx1 : (⟨S3x1, .i32⟩ : BufTy).Contents (Elt Ideal) :=
  broadcastInDim S3x1 ![0] bcast_S3_S3x1_0
    (select (cmpi .slt tab1 (broadcastInDim S3 ![] bcast_S_S3 (constantI S_ 32 0#32)))
      (addi tab1 (broadcastInDim S3 ![] bcast_S_S3 (constantI S_ 32 17#32)))
      tab1)

/-- Group 2's joint table, as the program's literal constant. -/
def tab2 : (⟨S5, .i32⟩ : BufTy).Contents (Elt Ideal) := fun i => lit2 (S5.rowMajor i)

/-- Group 2's scatter index array [5,1]: the table, an entry below zero wrapped by 17, as a column. -/
def idx2 : (⟨S5x1, .i32⟩ : BufTy).Contents (Elt Ideal) :=
  broadcastInDim S5x1 ![0] bcast_S5_S5x1_0
    (select (cmpi .slt tab2 (broadcastInDim S5 ![] bcast_S_S5 (constantI S_ 32 0#32)))
      (addi tab2 (broadcastInDim S5 ![] bcast_S_S5 (constantI S_ 32 17#32)))
      tab2)

/-- Group 3's joint table, as the program's literal constant. -/
def tab3 : (⟨S3, .i32⟩ : BufTy).Contents (Elt Ideal) := fun i => lit3 (S3.rowMajor i)

/-- Group 3's scatter index array [3,1]: the table, an entry below zero wrapped by 17, as a column. -/
def idx3 : (⟨S3x1, .i32⟩ : BufTy).Contents (Elt Ideal) :=
  broadcastInDim S3x1 ![0] bcast_S3_S3x1_0
    (select (cmpi .slt tab3 (broadcastInDim S3 ![] bcast_S_S3 (constantI S_ 32 0#32)))
      (addi tab3 (broadcastInDim S3 ![] bcast_S_S3 (constantI S_ 32 17#32)))
      tab3)

/-- Group 4's joint table, as the program's literal constant. -/
def tab4 : (⟨S3, .i32⟩ : BufTy).Contents (Elt Ideal) := fun i => lit4 (S3.rowMajor i)

/-- Group 4's scatter index array [3,1]: the table, an entry below zero wrapped by 17, as a column. -/
def idx4 : (⟨S3x1, .i32⟩ : BufTy).Contents (Elt Ideal) :=
  broadcastInDim S3x1 ![0] bcast_S3_S3x1_0
    (select (cmpi .slt tab4 (broadcastInDim S3 ![] bcast_S_S3 (constantI S_ 32 0#32)))
      (addi tab4 (broadcastInDim S3 ![] bcast_S_S3 (constantI S_ 32 17#32)))
      tab4)

/-- The zero array the updates are added into. -/
def zeros3 : (⟨S1024x243x17x3, .f32⟩ : BufTy).Contents (Elt Ideal) :=
  broadcastInDim S1024x243x17x3 ![] bcast_S_S1024x243x17x3 (constant (F := Ideal) S_ .f32 0x00000000#32)

/-- The zero count array. -/
def zeros1 : (⟨S1024x243x17x1, .f32⟩ : BufTy).Contents (Elt Ideal) :=
  broadcastInDim S1024x243x17x1 ![] bcast_S_S1024x243x17x1 (constant (F := Ideal) S_ .f32 0x00000000#32)

/-- The all-ones update of a group of three joints. -/
def ones3 : (⟨S1024x243x3x1, .f32⟩ : BufTy).Contents (Elt Ideal) :=
  broadcastInDim S1024x243x3x1 ![] bcast_S_S1024x243x3x1 (constant (F := Ideal) S_ .f32 0x3F800000#32)

/-- The all-ones update of the group of five joints. -/
def ones5 : (⟨S1024x243x5x1, .f32⟩ : BufTy).Contents (Elt Ideal) :=
  broadcastInDim S1024x243x5x1 ![] bcast_S_S1024x243x5x1 (constant (F := Ideal) S_ .f32 0x3F800000#32)

/-- The five updates scatter-added into the zero array, in the program's order. -/
def outAcc (a0 : (⟨S1024x27x5x512, .f32⟩ : BufTy).Contents (Elt Ideal))
    (a1 : (⟨S81x512, .f32⟩ : BufTy).Contents (Elt Ideal)) (a2 : (⟨S81, .f32⟩ : BufTy).Contents (Elt Ideal))
    (a3 : (⟨S81x512, .f32⟩ : BufTy).Contents (Elt Ideal)) (a4 : (⟨S81, .f32⟩ : BufTy).Contents (Elt Ideal))
    (a5 : (⟨S135x512, .f32⟩ : BufTy).Contents (Elt Ideal)) (a6 : (⟨S135, .f32⟩ : BufTy).Contents (Elt Ideal))
    (a7 : (⟨S81x512, .f32⟩ : BufTy).Contents (Elt Ideal)) (a8 : (⟨S81, .f32⟩ : BufTy).Contents (Elt Ideal))
    (a9 : (⟨S81x512, .f32⟩ : BufTy).Contents (Elt Ideal)) (a10 : (⟨S81, .f32⟩ : BufTy).Contents (Elt Ideal)) :
    (⟨S1024x243x17x3, .f32⟩ : BufTy).Contents (Elt Ideal) :=
  Host.scatterAdd (F := Ideal) (φ := .f32) scatter_S1024x243x17x3_S3x1_S1024x243x3x3_013_2_2_1
    (Host.scatterAdd (F := Ideal) (φ := .f32) scatter_S1024x243x17x3_S3x1_S1024x243x3x3_013_2_2_1
      (Host.scatterAdd (F := Ideal) (φ := .f32) scatter_S1024x243x17x3_S5x1_S1024x243x5x3_013_2_2_1
        (Host.scatterAdd (F := Ideal) (φ := .f32) scatter_S1024x243x17x3_S3x1_S1024x243x3x3_013_2_2_1
          (Host.scatterAdd (F := Ideal) (φ := .f32) scatter_S1024x243x17x3_S3x1_S1024x243x3x3_013_2_2_1 zeros3 idx0 (pred0 a0 a1 a2))
          idx1 (pred1 a0 a3 a4))
        idx2 (pred2 a0 a5 a6))
      idx3 (pred3 a0 a7 a8))
    idx4 (pred4 a0 a9 a10)

/-- Ones scatter-added into the zero count array at the same joints, in the program's order. -/
def cntAcc : (⟨S1024x243x17x1, .f32⟩ : BufTy).Contents (Elt Ideal) :=
  Host.scatterAdd (F := Ideal) (φ := .f32) scatter_S1024x243x17x1_S3x1_S1024x243x3x1_013_2_2_1
    (Host.scatterAdd (F := Ideal) (φ := .f32) scatter_S1024x243x17x1_S3x1_S1024x243x3x1_013_2_2_1
      (Host.scatterAdd (F := Ideal) (φ := .f32) scatter_S1024x243x17x1_S5x1_S1024x243x5x1_013_2_2_1
        (Host.scatterAdd (F := Ideal) (φ := .f32) scatter_S1024x243x17x1_S3x1_S1024x243x3x1_013_2_2_1
          (Host.scatterAdd (F := Ideal) (φ := .f32) scatter_S1024x243x17x1_S3x1_S1024x243x3x1_013_2_2_1 zeros1 idx0 ones3)
          idx1 ones3)
        idx2 ones5)
      idx3 ones3)
    idx4 ones3

/-- The count clipped below at one: the maximum of the broadcast constant one and the count. -/
def cntClip : (⟨S1024x243x17x1, .f32⟩ : BufTy).Contents (Elt Ideal) :=
  maximumf (F := Ideal) (φ := .f32)
    (broadcastInDim S1024x243x17x1 ![] bcast_S_S1024x243x17x1
      (id (constant (F := Ideal) S_ .f32 0x3F800000#32 : (⟨S_, .f32⟩ : BufTy).Contents (Elt Ideal))))
    cntAcc

/-- The reference's result: the accumulated updates divided by the clipped count, broadcast along the last axis. -/
def refTerm (a0 : (⟨S1024x27x5x512, .f32⟩ : BufTy).Contents (Elt Ideal))
    (a1 : (⟨S81x512, .f32⟩ : BufTy).Contents (Elt Ideal)) (a2 : (⟨S81, .f32⟩ : BufTy).Contents (Elt Ideal))
    (a3 : (⟨S81x512, .f32⟩ : BufTy).Contents (Elt Ideal)) (a4 : (⟨S81, .f32⟩ : BufTy).Contents (Elt Ideal))
    (a5 : (⟨S135x512, .f32⟩ : BufTy).Contents (Elt Ideal)) (a6 : (⟨S135, .f32⟩ : BufTy).Contents (Elt Ideal))
    (a7 : (⟨S81x512, .f32⟩ : BufTy).Contents (Elt Ideal)) (a8 : (⟨S81, .f32⟩ : BufTy).Contents (Elt Ideal))
    (a9 : (⟨S81x512, .f32⟩ : BufTy).Contents (Elt Ideal)) (a10 : (⟨S81, .f32⟩ : BufTy).Contents (Elt Ideal)) :
    (⟨S1024x243x17x3, .f32⟩ : BufTy).Contents (Elt Ideal) :=
  Host.divf (F := Ideal) (φ := .f32) (outAcc a0 a1 a2 a3 a4 a5 a6 a7 a8 a9 a10)
    (broadcastInDim S1024x243x17x3 ![0, 1, 2, 3] bcast_S1024x243x17x1_S1024x243x17x3_0_1_2_3 cntClip)

end Cert.ReferenceIdeal.RefTerm

end
-- ==== Proof.RefRun0.lean ====
/- The reference's @main, statements of window 0: the five joint tables, the two zero arrays, groups 0 and 1 (their updates, index arrays and scatter-adds) as a list of host operations, the window equal to
   running that list in order, every operation touching TensorCore references only, and the list of the buffers the
   window writes (a buffer outside it keeps its contents through the window). -/
import proofs.«135711_j69887707841118_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 60 operations, in order. -/
abbrev ops0 : List (HloOp τ sig (Elt F)) :=
  [ nullary main_c (fun i => lit0 (S3.rowMajor i)),
    nullary main_c_0 (fun i => lit1 (S3.rowMajor i)),
    nullary main_c_1 (fun i => lit2 (S5.rowMajor i)),
    nullary main_c_2 (fun i => lit3 (S3.rowMajor i)),
    nullary main_c_3 (fun i => lit4 (S3.rowMajor i)),
    nullary main_cst (constant S_ .f32 0x00000000#32),
    unary main_cst main_v0 (broadcastInDim S1024x243x17x3 ![] bcast_S_S1024x243x17x3 : (⟨S_, .f32⟩ : BufTy).Contents (Elt F) → (⟨S1024x243x17x3, .f32⟩ : BufTy).Contents (Elt F)),
    nullary main_cst_4 (constant S_ .f32 0x00000000#32),
    unary main_cst_4 main_v1 (broadcastInDim S1024x243x17x1 ![] bcast_S_S1024x243x17x1 : (⟨S_, .f32⟩ : BufTy).Contents (Elt F) → (⟨S1024x243x17x1, .f32⟩ : BufTy).Contents (Elt F)),
    unary main_arg0 main_v2 ((extractStridedSlice S1024x27x1x512 ![0, 0, 0, 0] · slices_S1024x27x5x512_S1024x27x1x512_0_0_0_0) : (⟨S1024x27x5x512, .f32⟩ : BufTy).Contents (Elt F) → (⟨S1024x27x1x512, .f32⟩ : BufTy).Contents (Elt F)),
    reshape main_v2 main_v3 rfl shapeCasts_S1024x27x1x512_S1024x27x512,
    binary main_v3 main_arg1 main_v4 ((fun l r => Host.dotGeneral dot_S1024x27x512_S81x512_S1024x27x81_2_1_01_0_n_n none l r) : (⟨S1024x27x512, .f32⟩ : BufTy).Contents (Elt F) → (⟨S81x512, .f32⟩ : BufTy).Contents (Elt F) → (⟨S1024x27x81, .f32⟩ : BufTy).Contents (Elt F)),
    unary main_arg2 main_v5 (broadcastInDim S1x1x81 ![2] bcast_S81_S1x1x81_2 : (⟨S81, .f32⟩ : BufTy).Contents (Elt F) → (⟨S1x1x81, .f32⟩ : BufTy).Contents (Elt F)),
    unary main_v5 main_v6 (broadcastInDim S1024x27x81 ![0, 1, 2] bcast_S1x1x81_S1024x27x81_0_1_2 : (⟨S1x1x81, .f32⟩ : BufTy).Contents (Elt F) → (⟨S1024x27x81, .f32⟩ : BufTy).Contents (Elt F)),
    binary main_v4 main_v6 main_v7 (addf : (⟨S1024x27x81, .f32⟩ : BufTy).Contents (Elt F) → (⟨S1024x27x81, .f32⟩ : BufTy).Contents (Elt F) → (⟨S1024x27x81, .f32⟩ : BufTy).Contents (Elt F)),
    reshape main_v7 main_v8 rfl shapeCasts_S1024x27x81_S1024x243x3x3,
    nullary main_c_5 (constantI S_ 32 0#32),
    unary main_c_5 main_v9 (broadcastInDim S3 ![] bcast_S_S3 : (⟨S_, .i32⟩ : BufTy).Contents (Elt F) → (⟨S3, .i32⟩ : BufTy).Contents (Elt F)),
    binary main_c main_v9 main_v10 (cmpi .slt : (⟨S3, .i32⟩ : BufTy).Contents (Elt F) → (⟨S3, .i32⟩ : BufTy).Contents (Elt F) → (⟨S3, .i1⟩ : BufTy).Contents (Elt F)),
    nullary main_c_6 (constantI S_ 32 17#32),
    unary main_c_6 main_v11 (broadcastInDim S3 ![] bcast_S_S3 : (⟨S_, .i32⟩ : BufTy).Contents (Elt F) → (⟨S3, .i32⟩ : BufTy).Contents (Elt F)),
    binary main_c main_v11 main_v12 (addi : (⟨S3, .i32⟩ : BufTy).Contents (Elt F) → (⟨S3, .i32⟩ : BufTy).Contents (Elt F) → (⟨S3, .i32⟩ : BufTy).Contents (Elt F)),
    ternary main_v10 main_v12 main_c main_v13 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v13 main_v14 (broadcastInDim S3x1 ![0] bcast_S3_S3x1_0 : (⟨S3, .i32⟩ : BufTy).Contents (Elt F) → (⟨S3x1, .i32⟩ : BufTy).Contents (Elt F)),
    ternary main_v0 main_v14 main_v8 main_v15 ((fun x i u => Host.scatterAdd scatter_S1024x243x17x3_S3x1_S1024x243x3x3_013_2_2_1 x i u) : (⟨S1024x243x17x3, .f32⟩ : BufTy).Contents (Elt F) → (⟨S3x1, .i32⟩ : BufTy).Contents (Elt F) → (⟨S1024x243x3x3, .f32⟩ : BufTy).Contents (Elt F) → (⟨S1024x243x17x3, .f32⟩ : BufTy).Contents (Elt F)),
    nullary main_c_7 (constantI S_ 32 0#32),
    unary main_c_7 main_v16 (broadcastInDim S3 ![] bcast_S_S3 : (⟨S_, .i32⟩ : BufTy).Contents (Elt F) → (⟨S3, .i32⟩ : BufTy).Contents (Elt F)),
    binary main_c main_v16 main_v17 (cmpi .slt : (⟨S3, .i32⟩ : BufTy).Contents (Elt F) → (⟨S3, .i32⟩ : BufTy).Contents (Elt F) → (⟨S3, .i1⟩ : BufTy).Contents (Elt F)),
    nullary main_c_8 (constantI S_ 32 17#32),
    unary main_c_8 main_v18 (broadcastInDim S3 ![] bcast_S_S3 : (⟨S_, .i32⟩ : BufTy).Contents (Elt F) → (⟨S3, .i32⟩ : BufTy).Contents (Elt F)),
    binary main_c main_v18 main_v19 (addi : (⟨S3, .i32⟩ : BufTy).Contents (Elt F) → (⟨S3, .i32⟩ : BufTy).Contents (Elt F) → (⟨S3, .i32⟩ : BufTy).Contents (Elt F)),
    ternary main_v17 main_v19 main_c main_v20 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v20 main_v21 (broadcastInDim S3x1 ![0] bcast_S3_S3x1_0 : (⟨S3, .i32⟩ : BufTy).Contents (Elt F) → (⟨S3x1, .i32⟩ : BufTy).Contents (Elt F)),
    nullary main_cst_9 (constant S_ .f32 0x3F800000#32),
    unary main_cst_9 main_v22 (broadcastInDim S1024x243x3x1 ![] bcast_S_S1024x243x3x1 : (⟨S_, .f32⟩ : BufTy).Contents (Elt F) → (⟨S1024x243x3x1, .f32⟩ : BufTy).Contents (Elt F)),
    ternary main_v1 main_v21 main_v22 main_v23 ((fun x i u => Host.scatterAdd scatter_S1024x243x17x1_S3x1_S1024x243x3x1_013_2_2_1 x i u) : (⟨S1024x243x17x1, .f32⟩ : BufTy).Contents (Elt F) → (⟨S3x1, .i32⟩ : BufTy).Contents (Elt F) → (⟨S1024x243x3x1, .f32⟩ : BufTy).Contents (Elt F) → (⟨S1024x243x17x1, .f32⟩ : BufTy).Contents (Elt F)),
    unary main_arg0 main_v24 ((extractStridedSlice S1024x27x1x512 ![0, 0, 1, 0] · slices_S1024x27x5x512_S1024x27x1x512_0_0_1_0) : (⟨S1024x27x5x512, .f32⟩ : BufTy).Contents (Elt F) → (⟨S1024x27x1x512, .f32⟩ : BufTy).Contents (Elt F)),
    reshape main_v24 main_v25 rfl shapeCasts_S1024x27x1x512_S1024x27x512,
    binary main_v25 main_arg3 main_v26 ((fun l r => Host.dotGeneral dot_S1024x27x512_S81x512_S1024x27x81_2_1_01_0_n_n none l r) : (⟨S1024x27x512, .f32⟩ : BufTy).Contents (Elt F) → (⟨S81x512, .f32⟩ : BufTy).Contents (Elt F) → (⟨S1024x27x81, .f32⟩ : BufTy).Contents (Elt F)),
    unary main_arg4 main_v27 (broadcastInDim S1x1x81 ![2] bcast_S81_S1x1x81_2 : (⟨S81, .f32⟩ : BufTy).Contents (Elt F) → (⟨S1x1x81, .f32⟩ : BufTy).Contents (Elt F)),
    unary main_v27 main_v28 (broadcastInDim S1024x27x81 ![0, 1, 2] bcast_S1x1x81_S1024x27x81_0_1_2 : (⟨S1x1x81, .f32⟩ : BufTy).Contents (Elt F) → (⟨S1024x27x81, .f32⟩ : BufTy).Contents (Elt F)),
    binary main_v26 main_v28 main_v29 (addf : (⟨S1024x27x81, .f32⟩ : BufTy).Contents (Elt F) → (⟨S1024x27x81, .f32⟩ : BufTy).Contents (Elt F) → (⟨S1024x27x81, .f32⟩ : BufTy).Contents (Elt F)),
    reshape main_v29 main_v30 rfl shapeCasts_S1024x27x81_S1024x243x3x3,
    nullary main_c_10 (constantI S_ 32 0#32),
    unary main_c_10 main_v31 (broadcastInDim S3 ![] bcast_S_S3 : (⟨S_, .i32⟩ : BufTy).Contents (Elt F) → (⟨S3, .i32⟩ : BufTy).Contents (Elt F)),
    binary main_c_0 main_v31 main_v32 (cmpi .slt : (⟨S3, .i32⟩ : BufTy).Contents (Elt F) → (⟨S3, .i32⟩ : BufTy).Contents (Elt F) → (⟨S3, .i1⟩ : BufTy).Contents (Elt F)),
    nullary main_c_11 (constantI S_ 32 17#32),
    unary main_c_11 main_v33 (broadcastInDim S3 ![] bcast_S_S3 : (⟨S_, .i32⟩ : BufTy).Contents (Elt F) → (⟨S3, .i32⟩ : BufTy).Contents (Elt F)),
    binary main_c_0 main_v33 main_v34 (addi : (⟨S3, .i32⟩ : BufTy).Contents (Elt F) → (⟨S3, .i32⟩ : BufTy).Contents (Elt F) → (⟨S3, .i32⟩ : BufTy).Contents (Elt F)),
    ternary main_v32 main_v34 main_c_0 main_v35 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v35 main_v36 (broadcastInDim S3x1 ![0] bcast_S3_S3x1_0 : (⟨S3, .i32⟩ : BufTy).Contents (Elt F) → (⟨S3x1, .i32⟩ : BufTy).Contents (Elt F)),
    ternary main_v15 main_v36 main_v30 main_v37 ((fun x i u => Host.scatterAdd scatter_S1024x243x17x3_S3x1_S1024x243x3x3_013_2_2_1 x i u) : (⟨S1024x243x17x3, .f32⟩ : BufTy).Contents (Elt F) → (⟨S3x1, .i32⟩ : BufTy).Contents (Elt F) → (⟨S1024x243x3x3, .f32⟩ : BufTy).Contents (Elt F) → (⟨S1024x243x17x3, .f32⟩ : BufTy).Contents (Elt F)),
    nullary main_c_12 (constantI S_ 32 0#32),
    unary main_c_12 main_v38 (broadcastInDim S3 ![] bcast_S_S3 : (⟨S_, .i32⟩ : BufTy).Contents (Elt F) → (⟨S3, .i32⟩ : BufTy).Contents (Elt F)),
    binary main_c_0 main_v38 main_v39 (cmpi .slt : (⟨S3, .i32⟩ : BufTy).Contents (Elt F) → (⟨S3, .i32⟩ : BufTy).Contents (Elt F) → (⟨S3, .i1⟩ : BufTy).Contents (Elt F)),
    nullary main_c_13 (constantI S_ 32 17#32),
    unary main_c_13 main_v40 (broadcastInDim S3 ![] bcast_S_S3 : (⟨S_, .i32⟩ : BufTy).Contents (Elt F) → (⟨S3, .i32⟩ : BufTy).Contents (Elt F)),
    binary main_c_0 main_v40 main_v41 (addi : (⟨S3, .i32⟩ : BufTy).Contents (Elt F) → (⟨S3, .i32⟩ : BufTy).Contents (Elt F) → (⟨S3, .i32⟩ : BufTy).Contents (Elt F)),
    ternary main_v39 main_v41 main_c_0 main_v42 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v42 main_v43 (broadcastInDim S3x1 ![0] bcast_S3_S3x1_0 : (⟨S3, .i32⟩ : BufTy).Contents (Elt F) → (⟨S3x1, .i32⟩ : BufTy).Contents (Elt F)) ]

set_option maxRecDepth 8192 in
/-- The window is that straight line. -/
theorem main_part0_eq (c : Dev nD) : main_part0 (F := F) c = seq ops0 := rfl

set_option maxRecDepth 8192 in
theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., unary_bufs_sub .., nullary_bufs_sub .., unary_bufs_sub .., unary_bufs_sub .., reshape_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., reshape_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub ..⟩

/-- The buffers the window's operations write. -/
abbrev ops0_W : List (Ref sig .tc) := [main_c, main_c_0, main_c_1, main_c_2, main_c_3, main_cst, main_v0, main_cst_4, main_v1, main_v2, main_v3, main_v4, main_v5, main_v6, main_v7, main_v8, main_c_5, main_v9, main_v10, main_c_6, main_v11, main_v12, main_v13, main_v14, main_v15, main_c_7, main_v16, main_v17, main_c_8, main_v18, main_v19, main_v20, main_v21, main_cst_9, main_v22, main_v23, main_v24, main_v25, main_v26, main_v27, main_v28, main_v29, main_v30, main_c_10, main_v31, main_v32, main_c_11, main_v33, main_v34, main_v35, main_v36, main_v37, main_c_12, main_v38, main_v39, main_c_13, main_v40, main_v41, main_v42, main_v43]

set_option maxRecDepth 8192 in
theorem ops0_writes : (ops0 : List (HloOp τ sig (Elt F))).Forall fun op =>
    op.writes ⊆ (ops0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.ReferenceIdeal.RefRun

end
-- ==== Proof.RefRun1.lean ====
/- The reference's @main, statements of window 1: group 1's count, groups 2 and 3, and group 4's product as a list of host operations, the window equal to
   running that list in order, every operation touching TensorCore references only, and the list of the buffers the
   window writes (a buffer outside it keeps its contents through the window). -/
import proofs.«135711_j69887707841118_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 60 operations, in order. -/
abbrev ops1 : List (HloOp τ sig (Elt F)) :=
  [ nullary main_cst_14 (constant S_ .f32 0x3F800000#32),
    unary main_cst_14 main_v44 (broadcastInDim S1024x243x3x1 ![] bcast_S_S1024x243x3x1 : (⟨S_, .f32⟩ : BufTy).Contents (Elt F) → (⟨S1024x243x3x1, .f32⟩ : BufTy).Contents (Elt F)),
    ternary main_v23 main_v43 main_v44 main_v45 ((fun x i u => Host.scatterAdd scatter_S1024x243x17x1_S3x1_S1024x243x3x1_013_2_2_1 x i u) : (⟨S1024x243x17x1, .f32⟩ : BufTy).Contents (Elt F) → (⟨S3x1, .i32⟩ : BufTy).Contents (Elt F) → (⟨S1024x243x3x1, .f32⟩ : BufTy).Contents (Elt F) → (⟨S1024x243x17x1, .f32⟩ : BufTy).Contents (Elt F)),
    unary main_arg0 main_v46 ((extractStridedSlice S1024x27x1x512 ![0, 0, 2, 0] · slices_S1024x27x5x512_S1024x27x1x512_0_0_2_0) : (⟨S1024x27x5x512, .f32⟩ : BufTy).Contents (Elt F) → (⟨S1024x27x1x512, .f32⟩ : BufTy).Contents (Elt F)),
    reshape main_v46 main_v47 rfl shapeCasts_S1024x27x1x512_S1024x27x512,
    binary main_v47 main_arg5 main_v48 ((fun l r => Host.dotGeneral dot_S1024x27x512_S135x512_S1024x27x135_2_1_01_0_n_n none l r) : (⟨S1024x27x512, .f32⟩ : BufTy).Contents (Elt F) → (⟨S135x512, .f32⟩ : BufTy).Contents (Elt F) → (⟨S1024x27x135, .f32⟩ : BufTy).Contents (Elt F)),
    unary main_arg6 main_v49 (broadcastInDim S1x1x135 ![2] bcast_S135_S1x1x135_2 : (⟨S135, .f32⟩ : BufTy).Contents (Elt F) → (⟨S1x1x135, .f32⟩ : BufTy).Contents (Elt F)),
    unary main_v49 main_v50 (broadcastInDim S1024x27x135 ![0, 1, 2] bcast_S1x1x135_S1024x27x135_0_1_2 : (⟨S1x1x135, .f32⟩ : BufTy).Contents (Elt F) → (⟨S1024x27x135, .f32⟩ : BufTy).Contents (Elt F)),
    binary main_v48 main_v50 main_v51 (addf : (⟨S1024x27x135, .f32⟩ : BufTy).Contents (Elt F) → (⟨S1024x27x135, .f32⟩ : BufTy).Contents (Elt F) → (⟨S1024x27x135, .f32⟩ : BufTy).Contents (Elt F)),
    reshape main_v51 main_v52 rfl shapeCasts_S1024x27x135_S1024x243x5x3,
    nullary main_c_15 (constantI S_ 32 0#32),
    unary main_c_15 main_v53 (broadcastInDim S5 ![] bcast_S_S5 : (⟨S_, .i32⟩ : BufTy).Contents (Elt F) → (⟨S5, .i32⟩ : BufTy).Contents (Elt F)),
    binary main_c_1 main_v53 main_v54 (cmpi .slt : (⟨S5, .i32⟩ : BufTy).Contents (Elt F) → (⟨S5, .i32⟩ : BufTy).Contents (Elt F) → (⟨S5, .i1⟩ : BufTy).Contents (Elt F)),
    nullary main_c_16 (constantI S_ 32 17#32),
    unary main_c_16 main_v55 (broadcastInDim S5 ![] bcast_S_S5 : (⟨S_, .i32⟩ : BufTy).Contents (Elt F) → (⟨S5, .i32⟩ : BufTy).Contents (Elt F)),
    binary main_c_1 main_v55 main_v56 (addi : (⟨S5, .i32⟩ : BufTy).Contents (Elt F) → (⟨S5, .i32⟩ : BufTy).Contents (Elt F) → (⟨S5, .i32⟩ : BufTy).Contents (Elt F)),
    ternary main_v54 main_v56 main_c_1 main_v57 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    unary main_v57 main_v58 (broadcastInDim S5x1 ![0] bcast_S5_S5x1_0 : (⟨S5, .i32⟩ : BufTy).Contents (Elt F) → (⟨S5x1, .i32⟩ : BufTy).Contents (Elt F)),
    ternary main_v37 main_v58 main_v52 main_v59 ((fun x i u => Host.scatterAdd scatter_S1024x243x17x3_S5x1_S1024x243x5x3_013_2_2_1 x i u) : (⟨S1024x243x17x3, .f32⟩ : BufTy).Contents (Elt F) → (⟨S5x1, .i32⟩ : BufTy).Contents (Elt F) → (⟨S1024x243x5x3, .f32⟩ : BufTy).Contents (Elt F) → (⟨S1024x243x17x3, .f32⟩ : BufTy).Contents (Elt F)),
    nullary main_c_17 (constantI S_ 32 0#32),
    unary main_c_17 main_v60 (broadcastInDim S5 ![] bcast_S_S5 : (⟨S_, .i32⟩ : BufTy).Contents (Elt F) → (⟨S5, .i32⟩ : BufTy).Contents (Elt F)),
    binary main_c_1 main_v60 main_v61 (cmpi .slt : (⟨S5, .i32⟩ : BufTy).Contents (Elt F) → (⟨S5, .i32⟩ : BufTy).Contents (Elt F) → (⟨S5, .i1⟩ : BufTy).Contents (Elt F)),
    nullary main_c_18 (constantI S_ 32 17#32),
    unary main_c_18 main_v62 (broadcastInDim S5 ![] bcast_S_S5 : (⟨S_, .i32⟩ : BufTy).Contents (Elt F) → (⟨S5, .i32⟩ : BufTy).Contents (Elt F)),
    binary main_c_1 main_v62 main_v63 (addi : (⟨S5, .i32⟩ : BufTy).Contents (Elt F) → (⟨S5, .i32⟩ : BufTy).Contents (Elt F) → (⟨S5, .i32⟩ : BufTy).Contents (Elt F)),
    ternary main_v61 main_v63 main_c_1 main_v64 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    unary main_v64 main_v65 (broadcastInDim S5x1 ![0] bcast_S5_S5x1_0 : (⟨S5, .i32⟩ : BufTy).Contents (Elt F) → (⟨S5x1, .i32⟩ : BufTy).Contents (Elt F)),
    nullary main_cst_19 (constant S_ .f32 0x3F800000#32),
    unary main_cst_19 main_v66 (broadcastInDim S1024x243x5x1 ![] bcast_S_S1024x243x5x1 : (⟨S_, .f32⟩ : BufTy).Contents (Elt F) → (⟨S1024x243x5x1, .f32⟩ : BufTy).Contents (Elt F)),
    ternary main_v45 main_v65 main_v66 main_v67 ((fun x i u => Host.scatterAdd scatter_S1024x243x17x1_S5x1_S1024x243x5x1_013_2_2_1 x i u) : (⟨S1024x243x17x1, .f32⟩ : BufTy).Contents (Elt F) → (⟨S5x1, .i32⟩ : BufTy).Contents (Elt F) → (⟨S1024x243x5x1, .f32⟩ : BufTy).Contents (Elt F) → (⟨S1024x243x17x1, .f32⟩ : BufTy).Contents (Elt F)),
    unary main_arg0 main_v68 ((extractStridedSlice S1024x27x1x512 ![0, 0, 3, 0] · slices_S1024x27x5x512_S1024x27x1x512_0_0_3_0) : (⟨S1024x27x5x512, .f32⟩ : BufTy).Contents (Elt F) → (⟨S1024x27x1x512, .f32⟩ : BufTy).Contents (Elt F)),
    reshape main_v68 main_v69 rfl shapeCasts_S1024x27x1x512_S1024x27x512,
    binary main_v69 main_arg7 main_v70 ((fun l r => Host.dotGeneral dot_S1024x27x512_S81x512_S1024x27x81_2_1_01_0_n_n none l r) : (⟨S1024x27x512, .f32⟩ : BufTy).Contents (Elt F) → (⟨S81x512, .f32⟩ : BufTy).Contents (Elt F) → (⟨S1024x27x81, .f32⟩ : BufTy).Contents (Elt F)),
    unary main_arg8 main_v71 (broadcastInDim S1x1x81 ![2] bcast_S81_S1x1x81_2 : (⟨S81, .f32⟩ : BufTy).Contents (Elt F) → (⟨S1x1x81, .f32⟩ : BufTy).Contents (Elt F)),
    unary main_v71 main_v72 (broadcastInDim S1024x27x81 ![0, 1, 2] bcast_S1x1x81_S1024x27x81_0_1_2 : (⟨S1x1x81, .f32⟩ : BufTy).Contents (Elt F) → (⟨S1024x27x81, .f32⟩ : BufTy).Contents (Elt F)),
    binary main_v70 main_v72 main_v73 (addf : (⟨S1024x27x81, .f32⟩ : BufTy).Contents (Elt F) → (⟨S1024x27x81, .f32⟩ : BufTy).Contents (Elt F) → (⟨S1024x27x81, .f32⟩ : BufTy).Contents (Elt F)),
    reshape main_v73 main_v74 rfl shapeCasts_S1024x27x81_S1024x243x3x3,
    nullary main_c_20 (constantI S_ 32 0#32),
    unary main_c_20 main_v75 (broadcastInDim S3 ![] bcast_S_S3 : (⟨S_, .i32⟩ : BufTy).Contents (Elt F) → (⟨S3, .i32⟩ : BufTy).Contents (Elt F)),
    binary main_c_2 main_v75 main_v76 (cmpi .slt : (⟨S3, .i32⟩ : BufTy).Contents (Elt F) → (⟨S3, .i32⟩ : BufTy).Contents (Elt F) → (⟨S3, .i1⟩ : BufTy).Contents (Elt F)),
    nullary main_c_21 (constantI S_ 32 17#32),
    unary main_c_21 main_v77 (broadcastInDim S3 ![] bcast_S_S3 : (⟨S_, .i32⟩ : BufTy).Contents (Elt F) → (⟨S3, .i32⟩ : BufTy).Contents (Elt F)),
    binary main_c_2 main_v77 main_v78 (addi : (⟨S3, .i32⟩ : BufTy).Contents (Elt F) → (⟨S3, .i32⟩ : BufTy).Contents (Elt F) → (⟨S3, .i32⟩ : BufTy).Contents (Elt F)),
    ternary main_v76 main_v78 main_c_2 main_v79 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v79 main_v80 (broadcastInDim S3x1 ![0] bcast_S3_S3x1_0 : (⟨S3, .i32⟩ : BufTy).Contents (Elt F) → (⟨S3x1, .i32⟩ : BufTy).Contents (Elt F)),
    ternary main_v59 main_v80 main_v74 main_v81 ((fun x i u => Host.scatterAdd scatter_S1024x243x17x3_S3x1_S1024x243x3x3_013_2_2_1 x i u) : (⟨S1024x243x17x3, .f32⟩ : BufTy).Contents (Elt F) → (⟨S3x1, .i32⟩ : BufTy).Contents (Elt F) → (⟨S1024x243x3x3, .f32⟩ : BufTy).Contents (Elt F) → (⟨S1024x243x17x3, .f32⟩ : BufTy).Contents (Elt F)),
    nullary main_c_22 (constantI S_ 32 0#32),
    unary main_c_22 main_v82 (broadcastInDim S3 ![] bcast_S_S3 : (⟨S_, .i32⟩ : BufTy).Contents (Elt F) → (⟨S3, .i32⟩ : BufTy).Contents (Elt F)),
    binary main_c_2 main_v82 main_v83 (cmpi .slt : (⟨S3, .i32⟩ : BufTy).Contents (Elt F) → (⟨S3, .i32⟩ : BufTy).Contents (Elt F) → (⟨S3, .i1⟩ : BufTy).Contents (Elt F)),
    nullary main_c_23 (constantI S_ 32 17#32),
    unary main_c_23 main_v84 (broadcastInDim S3 ![] bcast_S_S3 : (⟨S_, .i32⟩ : BufTy).Contents (Elt F) → (⟨S3, .i32⟩ : BufTy).Contents (Elt F)),
    binary main_c_2 main_v84 main_v85 (addi : (⟨S3, .i32⟩ : BufTy).Contents (Elt F) → (⟨S3, .i32⟩ : BufTy).Contents (Elt F) → (⟨S3, .i32⟩ : BufTy).Contents (Elt F)),
    ternary main_v83 main_v85 main_c_2 main_v86 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v86 main_v87 (broadcastInDim S3x1 ![0] bcast_S3_S3x1_0 : (⟨S3, .i32⟩ : BufTy).Contents (Elt F) → (⟨S3x1, .i32⟩ : BufTy).Contents (Elt F)),
    nullary main_cst_24 (constant S_ .f32 0x3F800000#32),
    unary main_cst_24 main_v88 (broadcastInDim S1024x243x3x1 ![] bcast_S_S1024x243x3x1 : (⟨S_, .f32⟩ : BufTy).Contents (Elt F) → (⟨S1024x243x3x1, .f32⟩ : BufTy).Contents (Elt F)),
    ternary main_v67 main_v87 main_v88 main_v89 ((fun x i u => Host.scatterAdd scatter_S1024x243x17x1_S3x1_S1024x243x3x1_013_2_2_1 x i u) : (⟨S1024x243x17x1, .f32⟩ : BufTy).Contents (Elt F) → (⟨S3x1, .i32⟩ : BufTy).Contents (Elt F) → (⟨S1024x243x3x1, .f32⟩ : BufTy).Contents (Elt F) → (⟨S1024x243x17x1, .f32⟩ : BufTy).Contents (Elt F)),
    unary main_arg0 main_v90 ((extractStridedSlice S1024x27x1x512 ![0, 0, 4, 0] · slices_S1024x27x5x512_S1024x27x1x512_0_0_4_0) : (⟨S1024x27x5x512, .f32⟩ : BufTy).Contents (Elt F) → (⟨S1024x27x1x512, .f32⟩ : BufTy).Contents (Elt F)),
    reshape main_v90 main_v91 rfl shapeCasts_S1024x27x1x512_S1024x27x512,
    binary main_v91 main_arg9 main_v92 ((fun l r => Host.dotGeneral dot_S1024x27x512_S81x512_S1024x27x81_2_1_01_0_n_n none l r) : (⟨S1024x27x512, .f32⟩ : BufTy).Contents (Elt F) → (⟨S81x512, .f32⟩ : BufTy).Contents (Elt F) → (⟨S1024x27x81, .f32⟩ : BufTy).Contents (Elt F)) ]

set_option maxRecDepth 8192 in
/-- The window is that straight line. -/
theorem main_part1_eq (c : Dev nD) : main_part1 (F := F) c = seq ops1 := rfl

set_option maxRecDepth 8192 in
theorem ops1_sub : (ops1 : List (HloOp τ sig (Elt F))).Forall fun op => op.bufs ⊆ tcRefs τ sig :=
  ⟨nullary_bufs_sub .., unary_bufs_sub .., ternary_bufs_sub .., unary_bufs_sub .., reshape_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., reshape_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., reshape_bufs_sub .., binary_bufs_sub ..⟩

/-- The buffers the window's operations write. -/
abbrev ops1_W : List (Ref sig .tc) := [main_cst_14, main_v44, main_v45, main_v46, main_v47, main_v48, main_v49, main_v50, main_v51, main_v52, main_c_15, main_v53, main_v54, main_c_16, main_v55, main_v56, main_v57, main_v58, main_v59, main_c_17, main_v60, main_v61, main_c_18, main_v62, main_v63, main_v64, main_v65, main_cst_19, main_v66, main_v67, main_v68, main_v69, main_v70, main_v71, main_v72, main_v73, main_v74, main_c_20, main_v75, main_v76, main_c_21, main_v77, main_v78, main_v79, main_v80, main_v81, main_c_22, main_v82, main_v83, main_c_23, main_v84, main_v85, main_v86, main_v87, main_cst_24, main_v88, main_v89, main_v90, main_v91, main_v92]

set_option maxRecDepth 8192 in
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.ReferenceIdeal.RefRun

end
-- ==== Proof.RefRun2.lean ====
/- The reference's @main, statements of window 2: group 4's update, index arrays and scatter-adds, the clipped count and the quotient as a list of host operations, the window equal to
   running that list in order, every operation touching TensorCore references only, and the list of the buffers the
   window writes (a buffer outside it keeps its contents through the window). -/
import proofs.«135711_j69887707841118_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 30 operations, in order. -/
abbrev ops2 : List (HloOp τ sig (Elt F)) :=
  [ unary main_arg10 main_v93 (broadcastInDim S1x1x81 ![2] bcast_S81_S1x1x81_2 : (⟨S81, .f32⟩ : BufTy).Contents (Elt F) → (⟨S1x1x81, .f32⟩ : BufTy).Contents (Elt F)),
    unary main_v93 main_v94 (broadcastInDim S1024x27x81 ![0, 1, 2] bcast_S1x1x81_S1024x27x81_0_1_2 : (⟨S1x1x81, .f32⟩ : BufTy).Contents (Elt F) → (⟨S1024x27x81, .f32⟩ : BufTy).Contents (Elt F)),
    binary main_v92 main_v94 main_v95 (addf : (⟨S1024x27x81, .f32⟩ : BufTy).Contents (Elt F) → (⟨S1024x27x81, .f32⟩ : BufTy).Contents (Elt F) → (⟨S1024x27x81, .f32⟩ : BufTy).Contents (Elt F)),
    reshape main_v95 main_v96 rfl shapeCasts_S1024x27x81_S1024x243x3x3,
    nullary main_c_25 (constantI S_ 32 0#32),
    unary main_c_25 main_v97 (broadcastInDim S3 ![] bcast_S_S3 : (⟨S_, .i32⟩ : BufTy).Contents (Elt F) → (⟨S3, .i32⟩ : BufTy).Contents (Elt F)),
    binary main_c_3 main_v97 main_v98 (cmpi .slt : (⟨S3, .i32⟩ : BufTy).Contents (Elt F) → (⟨S3, .i32⟩ : BufTy).Contents (Elt F) → (⟨S3, .i1⟩ : BufTy).Contents (Elt F)),
    nullary main_c_26 (constantI S_ 32 17#32),
    unary main_c_26 main_v99 (broadcastInDim S3 ![] bcast_S_S3 : (⟨S_, .i32⟩ : BufTy).Contents (Elt F) → (⟨S3, .i32⟩ : BufTy).Contents (Elt F)),
    binary main_c_3 main_v99 main_v100 (addi : (⟨S3, .i32⟩ : BufTy).Contents (Elt F) → (⟨S3, .i32⟩ : BufTy).Contents (Elt F) → (⟨S3, .i32⟩ : BufTy).Contents (Elt F)),
    ternary main_v98 main_v100 main_c_3 main_v101 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v101 main_v102 (broadcastInDim S3x1 ![0] bcast_S3_S3x1_0 : (⟨S3, .i32⟩ : BufTy).Contents (Elt F) → (⟨S3x1, .i32⟩ : BufTy).Contents (Elt F)),
    ternary main_v81 main_v102 main_v96 main_v103 ((fun x i u => Host.scatterAdd scatter_S1024x243x17x3_S3x1_S1024x243x3x3_013_2_2_1 x i u) : (⟨S1024x243x17x3, .f32⟩ : BufTy).Contents (Elt F) → (⟨S3x1, .i32⟩ : BufTy).Contents (Elt F) → (⟨S1024x243x3x3, .f32⟩ : BufTy).Contents (Elt F) → (⟨S1024x243x17x3, .f32⟩ : BufTy).Contents (Elt F)),
    nullary main_c_27 (constantI S_ 32 0#32),
    unary main_c_27 main_v104 (broadcastInDim S3 ![] bcast_S_S3 : (⟨S_, .i32⟩ : BufTy).Contents (Elt F) → (⟨S3, .i32⟩ : BufTy).Contents (Elt F)),
    binary main_c_3 main_v104 main_v105 (cmpi .slt : (⟨S3, .i32⟩ : BufTy).Contents (Elt F) → (⟨S3, .i32⟩ : BufTy).Contents (Elt F) → (⟨S3, .i1⟩ : BufTy).Contents (Elt F)),
    nullary main_c_28 (constantI S_ 32 17#32),
    unary main_c_28 main_v106 (broadcastInDim S3 ![] bcast_S_S3 : (⟨S_, .i32⟩ : BufTy).Contents (Elt F) → (⟨S3, .i32⟩ : BufTy).Contents (Elt F)),
    binary main_c_3 main_v106 main_v107 (addi : (⟨S3, .i32⟩ : BufTy).Contents (Elt F) → (⟨S3, .i32⟩ : BufTy).Contents (Elt F) → (⟨S3, .i32⟩ : BufTy).Contents (Elt F)),
    ternary main_v105 main_v107 main_c_3 main_v108 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v108 main_v109 (broadcastInDim S3x1 ![0] bcast_S3_S3x1_0 : (⟨S3, .i32⟩ : BufTy).Contents (Elt F) → (⟨S3x1, .i32⟩ : BufTy).Contents (Elt F)),
    nullary main_cst_29 (constant S_ .f32 0x3F800000#32),
    unary main_cst_29 main_v110 (broadcastInDim S1024x243x3x1 ![] bcast_S_S1024x243x3x1 : (⟨S_, .f32⟩ : BufTy).Contents (Elt F) → (⟨S1024x243x3x1, .f32⟩ : BufTy).Contents (Elt F)),
    ternary main_v89 main_v109 main_v110 main_v111 ((fun x i u => Host.scatterAdd scatter_S1024x243x17x1_S3x1_S1024x243x3x1_013_2_2_1 x i u) : (⟨S1024x243x17x1, .f32⟩ : BufTy).Contents (Elt F) → (⟨S3x1, .i32⟩ : BufTy).Contents (Elt F) → (⟨S1024x243x3x1, .f32⟩ : BufTy).Contents (Elt F) → (⟨S1024x243x17x1, .f32⟩ : BufTy).Contents (Elt F)),
    nullary main_cst_30 (constant S_ .f32 0x3F800000#32),
    TRef.unary (.of main_cst_30) main_call0.v0 id,
    TRef.unary main_call0.v0 main_call0.v1 (broadcastInDim S1024x243x17x1 ![] bcast_S_S1024x243x17x1),
    TRef.binary main_call0.v1 (.of main_v111) main_call0.v2 maximumf,
    unary main_v112 main_v113 (broadcastInDim S1024x243x17x3 ![0, 1, 2, 3] bcast_S1024x243x17x1_S1024x243x17x3_0_1_2_3 : (⟨S1024x243x17x1, .f32⟩ : BufTy).Contents (Elt F) → (⟨S1024x243x17x3, .f32⟩ : BufTy).Contents (Elt F)),
    binary main_v103 main_v113 main_v114 (Host.divf : (⟨S1024x243x17x3, .f32⟩ : BufTy).Contents (Elt F) → (⟨S1024x243x17x3, .f32⟩ : BufTy).Contents (Elt F) → (⟨S1024x243x17x3, .f32⟩ : BufTy).Contents (Elt F)) ]

set_option maxRecDepth 8192 in
/-- The window is that straight line. -/
theorem main_part2_eq (c : Dev nD) : main_part2 (F := F) c = seq ops2 := by
  simp only [main_part2, fn_clip.body, seq, bind_assoc, pure_bind]

set_option maxRecDepth 8192 in
theorem ops2_sub : (ops2 : List (HloOp τ sig (Elt F))).Forall fun op => op.bufs ⊆ tcRefs τ sig :=
  ⟨unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., binary_bufs_sub .., unary_bufs_sub .., binary_bufs_sub ..⟩

/-- The buffers the window's operations write. -/
abbrev ops2_W : List (Ref sig .tc) := [main_v93, main_v94, main_v95, main_v96, main_c_25, main_v97, main_v98, main_c_26, main_v99, main_v100, main_v101, main_v102, main_v103, main_c_27, main_v104, main_v105, main_c_28, main_v106, main_v107, main_v108, main_v109, main_cst_29, main_v110, main_v111, main_cst_30, main_call0_v0, main_call0_v1, main_v112, main_v113, main_v114]

set_option maxRecDepth 8192 in
theorem ops2_writes : (ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.ReferenceIdeal.RefRun

end
-- ==== Proof.RefRun.lean ====
/- The reference's run: @main is its three windows' operations in order; from any memory with zero counters every
   weakly fair execution terminates with the result buffer at the reference's pure term of the eleven argument
   arrays (the five groups' updates scatter-added into the zero array, divided by the clipped count) and the
   arguments unchanged. The buffer contents are followed window by window: after each window, every buffer still
   read later is given its term of the arguments. -/
import proofs.«135711_j69887707841118_2_alg».proof.Proof.RefTerm
import proofs.«135711_j69887707841118_2_alg».proof.Proof.RefRun0
import proofs.«135711_j69887707841118_2_alg».proof.Proof.RefRun1
import proofs.«135711_j69887707841118_2_alg».proof.Proof.RefRun2

noncomputable section

namespace Cert.ReferenceIdeal.RefRun

open Cert.ReferenceIdeal Cert.ReferenceIdeal.Gen Idealize.ShloMosaic Idealize.ShloMosaic.TcCoe Idealize.SL.Sem Idealize.ShloMosaic.StableHlo

section AnyFloat

variable {F : FTy → Type} [FloatOps F]

/-- @main's operations: the three windows' lists in order. -/
abbrev ops : List (HloOp τ sig (Elt F)) := ops0 ++ (ops1 ++ ops2)

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-- The contents after two lists run one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

end AnyFloat

/-! ## The contents window by window, at the ideal instance -/

/-- The buffer contents after the first window. -/
def val1 (V0 : Valuation τ sig (Elt Ideal)) : Valuation τ sig (Elt Ideal) := after ops0 V0
/-- The buffer contents after the first two windows. -/
def val2 (V0 : Valuation τ sig (Elt Ideal)) : Valuation τ sig (Elt Ideal) := after ops1 (val1 V0)
/-- The buffer contents after all three windows. -/
def val3 (V0 : Valuation τ sig (Elt Ideal)) : Valuation τ sig (Elt Ideal) := after ops2 (val2 V0)

theorem after_ops (V0 : Valuation τ sig (Elt Ideal)) : after (ops (F := Ideal)) V0 = val3 V0 := by
  simp only [ops, after_app]
  rfl

/-- A buffer the first window does not write keeps its contents through it. -/
theorem val1_keep (V0 : Valuation τ sig (Elt Ideal)) (r : Ref sig .tc) (h : r ∉ ops0_W) :
    val1 V0 (Proc.devRef .tc r) = V0 (Proc.devRef .tc r) :=
  after_of_writes_sub ops0 _ ops0_writes h
/-- A buffer the second window does not write keeps its contents through it. -/
theorem val2_keep (V0 : Valuation τ sig (Elt Ideal)) (r : Ref sig .tc) (h : r ∉ ops1_W) :
    val2 V0 (Proc.devRef .tc r) = val1 V0 (Proc.devRef .tc r) :=
  after_of_writes_sub ops1 _ ops1_writes h
/-- A buffer the third window does not write keeps its contents through it. -/
theorem val3_keep (V0 : Valuation τ sig (Elt Ideal)) (r : Ref sig .tc) (h : r ∉ ops2_W) :
    val3 V0 (Proc.devRef .tc r) = val2 V0 (Proc.devRef .tc r) :=
  after_of_writes_sub ops2 _ ops2_writes h

/-! ### After the first window -/

theorem val1_main_arg0 (V0 : Valuation τ sig (Elt Ideal)) : val1 V0 (no_index (Proc.devRef .tc main_arg0)) = V0 (Proc.devRef .tc main_arg0) :=
  val1_keep V0 main_arg0 (by decide)
theorem val1_main_arg1 (V0 : Valuation τ sig (Elt Ideal)) : val1 V0 (no_index (Proc.devRef .tc main_arg1)) = V0 (Proc.devRef .tc main_arg1) :=
  val1_keep V0 main_arg1 (by decide)
theorem val1_main_arg2 (V0 : Valuation τ sig (Elt Ideal)) : val1 V0 (no_index (Proc.devRef .tc main_arg2)) = V0 (Proc.devRef .tc main_arg2) :=
  val1_keep V0 main_arg2 (by decide)
theorem val1_main_arg3 (V0 : Valuation τ sig (Elt Ideal)) : val1 V0 (no_index (Proc.devRef .tc main_arg3)) = V0 (Proc.devRef .tc main_arg3) :=
  val1_keep V0 main_arg3 (by decide)
theorem val1_main_arg4 (V0 : Valuation τ sig (Elt Ideal)) : val1 V0 (no_index (Proc.devRef .tc main_arg4)) = V0 (Proc.devRef .tc main_arg4) :=
  val1_keep V0 main_arg4 (by decide)
theorem val1_main_arg5 (V0 : Valuation τ sig (Elt Ideal)) : val1 V0 (no_index (Proc.devRef .tc main_arg5)) = V0 (Proc.devRef .tc main_arg5) :=
  val1_keep V0 main_arg5 (by decide)
theorem val1_main_arg6 (V0 : Valuation τ sig (Elt Ideal)) : val1 V0 (no_index (Proc.devRef .tc main_arg6)) = V0 (Proc.devRef .tc main_arg6) :=
  val1_keep V0 main_arg6 (by decide)
theorem val1_main_arg7 (V0 : Valuation τ sig (Elt Ideal)) : val1 V0 (no_index (Proc.devRef .tc main_arg7)) = V0 (Proc.devRef .tc main_arg7) :=
  val1_keep V0 main_arg7 (by decide)
theorem val1_main_arg8 (V0 : Valuation τ sig (Elt Ideal)) : val1 V0 (no_index (Proc.devRef .tc main_arg8)) = V0 (Proc.devRef .tc main_arg8) :=
  val1_keep V0 main_arg8 (by decide)
theorem val1_main_arg9 (V0 : Valuation τ sig (Elt Ideal)) : val1 V0 (no_index (Proc.devRef .tc main_arg9)) = V0 (Proc.devRef .tc main_arg9) :=
  val1_keep V0 main_arg9 (by decide)
theorem val1_main_arg10 (V0 : Valuation τ sig (Elt Ideal)) : val1 V0 (no_index (Proc.devRef .tc main_arg10)) = V0 (Proc.devRef .tc main_arg10) :=
  val1_keep V0 main_arg10 (by decide)
set_option maxRecDepth 8192 in
set_option maxHeartbeats 2000000 in
theorem val1_main_c_1 (V0 : Valuation τ sig (Elt Ideal)) : val1 V0 (no_index (Proc.devRef .tc main_c_1)) = RefTerm.tab2 := by
  unfold val1
  simp only [ops0]
  after_results_simp
  rfl
set_option maxRecDepth 8192 in
set_option maxHeartbeats 2000000 in
theorem val1_main_c_2 (V0 : Valuation τ sig (Elt Ideal)) : val1 V0 (no_index (Proc.devRef .tc main_c_2)) = RefTerm.tab3 := by
  unfold val1
  simp only [ops0]
  after_results_simp
  rfl
set_option maxRecDepth 8192 in
set_option maxHeartbeats 2000000 in
theorem val1_main_c_3 (V0 : Valuation τ sig (Elt Ideal)) : val1 V0 (no_index (Proc.devRef .tc main_c_3)) = RefTerm.tab4 := by
  unfold val1
  simp only [ops0]
  after_results_simp
  rfl
set_option maxRecDepth 8192 in
set_option maxHeartbeats 2000000 in
theorem val1_main_v43 (V0 : Valuation τ sig (Elt Ideal)) : val1 V0 (no_index (Proc.devRef .tc main_v43)) = RefTerm.idx1 := by
  unfold val1
  simp only [ops0]
  after_results_simp
  rfl
set_option maxRecDepth 8192 in
set_option maxHeartbeats 2000000 in
theorem val1_main_v23 (V0 : Valuation τ sig (Elt Ideal)) : val1 V0 (no_index (Proc.devRef .tc main_v23)) = Host.scatterAdd (F := Ideal) (φ := .f32) scatter_S1024x243x17x1_S3x1_S1024x243x3x1_013_2_2_1 RefTerm.zeros1 RefTerm.idx0 RefTerm.ones3 := by
  unfold val1
  simp only [ops0]
  after_results_simp
  rfl
set_option maxRecDepth 8192 in
set_option maxHeartbeats 2000000 in
theorem val1_main_v37 (V0 : Valuation τ sig (Elt Ideal)) : val1 V0 (no_index (Proc.devRef .tc main_v37)) = Host.scatterAdd (F := Ideal) (φ := .f32) scatter_S1024x243x17x3_S3x1_S1024x243x3x3_013_2_2_1 (Host.scatterAdd (F := Ideal) (φ := .f32) scatter_S1024x243x17x3_S3x1_S1024x243x3x3_013_2_2_1 RefTerm.zeros3 RefTerm.idx0 (RefTerm.pred0 (V0 (Proc.devRef .tc main_arg0)) (V0 (Proc.devRef .tc main_arg1)) (V0 (Proc.devRef .tc main_arg2)))) RefTerm.idx1 (RefTerm.pred1 (V0 (Proc.devRef .tc main_arg0)) (V0 (Proc.devRef .tc main_arg3)) (V0 (Proc.devRef .tc main_arg4))) := by
  unfold val1
  simp only [ops0]
  after_results_simp
  rfl

/-! ### After the second window -/

theorem val2_main_arg0 (V0 : Valuation τ sig (Elt Ideal)) : val2 V0 (no_index (Proc.devRef .tc main_arg0)) = V0 (Proc.devRef .tc main_arg0) :=
  (val2_keep V0 main_arg0 (by decide)).trans (val1_main_arg0 V0)
theorem val2_main_arg1 (V0 : Valuation τ sig (Elt Ideal)) : val2 V0 (no_index (Proc.devRef .tc main_arg1)) = V0 (Proc.devRef .tc main_arg1) :=
  (val2_keep V0 main_arg1 (by decide)).trans (val1_main_arg1 V0)
theorem val2_main_arg2 (V0 : Valuation τ sig (Elt Ideal)) : val2 V0 (no_index (Proc.devRef .tc main_arg2)) = V0 (Proc.devRef .tc main_arg2) :=
  (val2_keep V0 main_arg2 (by decide)).trans (val1_main_arg2 V0)
theorem val2_main_arg3 (V0 : Valuation τ sig (Elt Ideal)) : val2 V0 (no_index (Proc.devRef .tc main_arg3)) = V0 (Proc.devRef .tc main_arg3) :=
  (val2_keep V0 main_arg3 (by decide)).trans (val1_main_arg3 V0)
theorem val2_main_arg4 (V0 : Valuation τ sig (Elt Ideal)) : val2 V0 (no_index (Proc.devRef .tc main_arg4)) = V0 (Proc.devRef .tc main_arg4) :=
  (val2_keep V0 main_arg4 (by decide)).trans (val1_main_arg4 V0)
theorem val2_main_arg5 (V0 : Valuation τ sig (Elt Ideal)) : val2 V0 (no_index (Proc.devRef .tc main_arg5)) = V0 (Proc.devRef .tc main_arg5) :=
  (val2_keep V0 main_arg5 (by decide)).trans (val1_main_arg5 V0)
theorem val2_main_arg6 (V0 : Valuation τ sig (Elt Ideal)) : val2 V0 (no_index (Proc.devRef .tc main_arg6)) = V0 (Proc.devRef .tc main_arg6) :=
  (val2_keep V0 main_arg6 (by decide)).trans (val1_main_arg6 V0)
theorem val2_main_arg7 (V0 : Valuation τ sig (Elt Ideal)) : val2 V0 (no_index (Proc.devRef .tc main_arg7)) = V0 (Proc.devRef .tc main_arg7) :=
  (val2_keep V0 main_arg7 (by decide)).trans (val1_main_arg7 V0)
theorem val2_main_arg8 (V0 : Valuation τ sig (Elt Ideal)) : val2 V0 (no_index (Proc.devRef .tc main_arg8)) = V0 (Proc.devRef .tc main_arg8) :=
  (val2_keep V0 main_arg8 (by decide)).trans (val1_main_arg8 V0)
theorem val2_main_arg9 (V0 : Valuation τ sig (Elt Ideal)) : val2 V0 (no_index (Proc.devRef .tc main_arg9)) = V0 (Proc.devRef .tc main_arg9) :=
  (val2_keep V0 main_arg9 (by decide)).trans (val1_main_arg9 V0)
theorem val2_main_arg10 (V0 : Valuation τ sig (Elt Ideal)) : val2 V0 (no_index (Proc.devRef .tc main_arg10)) = V0 (Proc.devRef .tc main_arg10) :=
  (val2_keep V0 main_arg10 (by decide)).trans (val1_main_arg10 V0)
theorem val2_main_c_3 (V0 : Valuation τ sig (Elt Ideal)) : val2 V0 (no_index (Proc.devRef .tc main_c_3)) = RefTerm.tab4 :=
  (val2_keep V0 main_c_3 (by decide)).trans (val1_main_c_3 V0)
set_option maxRecDepth 8192 in
set_option maxHeartbeats 2000000 in
theorem val2_main_v92 (V0 : Valuation τ sig (Elt Ideal)) : val2 V0 (no_index (Proc.devRef .tc main_v92)) = Host.dotGeneral (F := Ideal) (φ₁ := .f32) (φ₂ := .f32) dot_S1024x27x512_S81x512_S1024x27x81_2_1_01_0_n_n none (shapeCast S1024x27x512 (extractStridedSlice S1024x27x1x512 ![0, 0, 4, 0] (V0 (Proc.devRef .tc main_arg0)) slices_S1024x27x5x512_S1024x27x1x512_0_0_4_0) shapeCasts_S1024x27x1x512_S1024x27x512) (V0 (Proc.devRef .tc main_arg9)) := by
  unfold val2
  simp only [ops1]
  after_results_simp
  simp only [val1_main_arg0, val1_main_arg1, val1_main_arg2, val1_main_arg3, val1_main_arg4, val1_main_arg5, val1_main_arg6, val1_main_arg7, val1_main_arg8, val1_main_arg9, val1_main_arg10, val1_main_c_1, val1_main_c_2, val1_main_c_3, val1_main_v43, val1_main_v23, val1_main_v37]
  rfl
set_option maxRecDepth 8192 in
set_option maxHeartbeats 2000000 in
theorem val2_main_v89 (V0 : Valuation τ sig (Elt Ideal)) : val2 V0 (no_index (Proc.devRef .tc main_v89)) = Host.scatterAdd (F := Ideal) (φ := .f32) scatter_S1024x243x17x1_S3x1_S1024x243x3x1_013_2_2_1 (Host.scatterAdd (F := Ideal) (φ := .f32) scatter_S1024x243x17x1_S5x1_S1024x243x5x1_013_2_2_1 (Host.scatterAdd (F := Ideal) (φ := .f32) scatter_S1024x243x17x1_S3x1_S1024x243x3x1_013_2_2_1 (Host.scatterAdd (F := Ideal) (φ := .f32) scatter_S1024x243x17x1_S3x1_S1024x243x3x1_013_2_2_1 RefTerm.zeros1 RefTerm.idx0 RefTerm.ones3) RefTerm.idx1 RefTerm.ones3) RefTerm.idx2 RefTerm.ones5) RefTerm.idx3 RefTerm.ones3 := by
  unfold val2
  simp only [ops1]
  after_results_simp
  simp only [val1_main_arg0, val1_main_arg1, val1_main_arg2, val1_main_arg3, val1_main_arg4, val1_main_arg5, val1_main_arg6, val1_main_arg7, val1_main_arg8, val1_main_arg9, val1_main_arg10, val1_main_c_1, val1_main_c_2, val1_main_c_3, val1_main_v43, val1_main_v23, val1_main_v37]
  rfl
set_option maxRecDepth 8192 in
set_option maxHeartbeats 2000000 in
theorem val2_main_v81 (V0 : Valuation τ sig (Elt Ideal)) : val2 V0 (no_index (Proc.devRef .tc main_v81)) = Host.scatterAdd (F := Ideal) (φ := .f32) scatter_S1024x243x17x3_S3x1_S1024x243x3x3_013_2_2_1 (Host.scatterAdd (F := Ideal) (φ := .f32) scatter_S1024x243x17x3_S5x1_S1024x243x5x3_013_2_2_1 (Host.scatterAdd (F := Ideal) (φ := .f32) scatter_S1024x243x17x3_S3x1_S1024x243x3x3_013_2_2_1 (Host.scatterAdd (F := Ideal) (φ := .f32) scatter_S1024x243x17x3_S3x1_S1024x243x3x3_013_2_2_1 RefTerm.zeros3 RefTerm.idx0 (RefTerm.pred0 (V0 (Proc.devRef .tc main_arg0)) (V0 (Proc.devRef .tc main_arg1)) (V0 (Proc.devRef .tc main_arg2)))) RefTerm.idx1 (RefTerm.pred1 (V0 (Proc.devRef .tc main_arg0)) (V0 (Proc.devRef .tc main_arg3)) (V0 (Proc.devRef .tc main_arg4)))) RefTerm.idx2 (RefTerm.pred2 (V0 (Proc.devRef .tc main_arg0)) (V0 (Proc.devRef .tc main_arg5)) (V0 (Proc.devRef .tc main_arg6)))) RefTerm.idx3 (RefTerm.pred3 (V0 (Proc.devRef .tc main_arg0)) (V0 (Proc.devRef .tc main_arg7)) (V0 (Proc.devRef .tc main_arg8))) := by
  unfold val2
  simp only [ops1]
  after_results_simp
  simp only [val1_main_arg0, val1_main_arg1, val1_main_arg2, val1_main_arg3, val1_main_arg4, val1_main_arg5, val1_main_arg6, val1_main_arg7, val1_main_arg8, val1_main_arg9, val1_main_arg10, val1_main_c_1, val1_main_c_2, val1_main_c_3, val1_main_v43, val1_main_v23, val1_main_v37]
  rfl

/-! ### After the third window -/

theorem val3_main_arg0 (V0 : Valuation τ sig (Elt Ideal)) : val3 V0 (no_index (Proc.devRef .tc main_arg0)) = V0 (Proc.devRef .tc main_arg0) :=
  (val3_keep V0 main_arg0 (by decide)).trans (val2_main_arg0 V0)
theorem val3_main_arg1 (V0 : Valuation τ sig (Elt Ideal)) : val3 V0 (no_index (Proc.devRef .tc main_arg1)) = V0 (Proc.devRef .tc main_arg1) :=
  (val3_keep V0 main_arg1 (by decide)).trans (val2_main_arg1 V0)
theorem val3_main_arg2 (V0 : Valuation τ sig (Elt Ideal)) : val3 V0 (no_index (Proc.devRef .tc main_arg2)) = V0 (Proc.devRef .tc main_arg2) :=
  (val3_keep V0 main_arg2 (by decide)).trans (val2_main_arg2 V0)
theorem val3_main_arg3 (V0 : Valuation τ sig (Elt Ideal)) : val3 V0 (no_index (Proc.devRef .tc main_arg3)) = V0 (Proc.devRef .tc main_arg3) :=
  (val3_keep V0 main_arg3 (by decide)).trans (val2_main_arg3 V0)
theorem val3_main_arg4 (V0 : Valuation τ sig (Elt Ideal)) : val3 V0 (no_index (Proc.devRef .tc main_arg4)) = V0 (Proc.devRef .tc main_arg4) :=
  (val3_keep V0 main_arg4 (by decide)).trans (val2_main_arg4 V0)
theorem val3_main_arg5 (V0 : Valuation τ sig (Elt Ideal)) : val3 V0 (no_index (Proc.devRef .tc main_arg5)) = V0 (Proc.devRef .tc main_arg5) :=
  (val3_keep V0 main_arg5 (by decide)).trans (val2_main_arg5 V0)
theorem val3_main_arg6 (V0 : Valuation τ sig (Elt Ideal)) : val3 V0 (no_index (Proc.devRef .tc main_arg6)) = V0 (Proc.devRef .tc main_arg6) :=
  (val3_keep V0 main_arg6 (by decide)).trans (val2_main_arg6 V0)
theorem val3_main_arg7 (V0 : Valuation τ sig (Elt Ideal)) : val3 V0 (no_index (Proc.devRef .tc main_arg7)) = V0 (Proc.devRef .tc main_arg7) :=
  (val3_keep V0 main_arg7 (by decide)).trans (val2_main_arg7 V0)
theorem val3_main_arg8 (V0 : Valuation τ sig (Elt Ideal)) : val3 V0 (no_index (Proc.devRef .tc main_arg8)) = V0 (Proc.devRef .tc main_arg8) :=
  (val3_keep V0 main_arg8 (by decide)).trans (val2_main_arg8 V0)
theorem val3_main_arg9 (V0 : Valuation τ sig (Elt Ideal)) : val3 V0 (no_index (Proc.devRef .tc main_arg9)) = V0 (Proc.devRef .tc main_arg9) :=
  (val3_keep V0 main_arg9 (by decide)).trans (val2_main_arg9 V0)
theorem val3_main_arg10 (V0 : Valuation τ sig (Elt Ideal)) : val3 V0 (no_index (Proc.devRef .tc main_arg10)) = V0 (Proc.devRef .tc main_arg10) :=
  (val3_keep V0 main_arg10 (by decide)).trans (val2_main_arg10 V0)
set_option maxRecDepth 8192 in
set_option maxHeartbeats 2000000 in
theorem val3_main_v114 (V0 : Valuation τ sig (Elt Ideal)) : val3 V0 (no_index (Proc.devRef .tc main_v114)) = RefTerm.refTerm (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val3
  simp only [ops2]
  after_results_simp
  simp only [val2_main_arg0, val2_main_arg1, val2_main_arg2, val2_main_arg3, val2_main_arg4, val2_main_arg5, val2_main_arg6, val2_main_arg7, val2_main_arg8, val2_main_arg9, val2_main_arg10, val2_main_c_3, val2_main_v92, val2_main_v89, val2_main_v81]
  rfl

/-! ## The run -/

set_option maxRecDepth 8192 in
/-- On every device, from any memory with zero counters: every weakly fair execution of @main terminates with the
    result at the reference's term of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v114) = RefTerm.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v114).trans (by simp only [after_ops]; exact val3_main_v114 (launchContents m c)),
      (h c main_arg0).trans (by simp only [after_ops]; exact val3_main_arg0 (launchContents m c)),
      (h c main_arg1).trans (by simp only [after_ops]; exact val3_main_arg1 (launchContents m c)),
      (h c main_arg2).trans (by simp only [after_ops]; exact val3_main_arg2 (launchContents m c)),
      (h c main_arg3).trans (by simp only [after_ops]; exact val3_main_arg3 (launchContents m c)),
      (h c main_arg4).trans (by simp only [after_ops]; exact val3_main_arg4 (launchContents m c)),
      (h c main_arg5).trans (by simp only [after_ops]; exact val3_main_arg5 (launchContents m c)),
      (h c main_arg6).trans (by simp only [after_ops]; exact val3_main_arg6 (launchContents m c)),
      (h c main_arg7).trans (by simp only [after_ops]; exact val3_main_arg7 (launchContents m c)),
      (h c main_arg8).trans (by simp only [after_ops]; exact val3_main_arg8 (launchContents m c)),
      (h c main_arg9).trans (by simp only [after_ops]; exact val3_main_arg9 (launchContents m c)),
      (h c main_arg10).trans (by simp only [after_ops]; exact val3_main_arg10 (launchContents m c))⟩)
    (run_seq scopedRefs_eq scopedSems_eq defs main (fun _ => ops) main_eq (fun _ => ops_sub) m ρ)

end Cert.ReferenceIdeal.RefRun

end
-- ==== Proof.RefFrame.lean ====
/- The reference's frame: from any memory with zero counters every weakly fair execution of @main terminates with the
   eleven argument arrays unchanged — the run's statement without its first conjunct. -/
import proofs.«135711_j69887707841118_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

/-- Every weakly fair execution of @main terminates, and the arguments end unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => (h c).2) (run m ρ)

end Cert.ReferenceIdeal.RefRun

end
-- ==== Proof.RefPred.lean ====
/-
  One group's linear head in the reference, read at an index on the extended reals.

  The reference takes group `g`'s tokens (a slice of the joint-group axis, reshaped to [1024, 27, 512]), multiplies by the
  transposed weight matrix (contracting the 512 features), adds the bias broadcast over batch rows and patches, and reshapes
  the [1024, 27, 9·gs·3] result to [1024, 243, gs, 3]. Both reshapes keep the row-major position, so element (b, T, k, c) of
  the result is row `(T mod 9)·(gs·3) + k·3 + c` of the head at batch row `b`, patch `T / 9`.
-/
import proofs.«135711_j69887707841118_2_alg».proof.ReferenceIdeal
import proofs.«135711_j69887707841118_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal
open Cert.ReferenceIdeal.Facts₀ Cert.ReferenceIdeal.Facts

variable [Facts]

/-! ### The token slice of one group, as [1024, 27, 512] -/

/-- The slice that keeps joint group `g` reads the tokens at that group. -/
theorem slice_apply (x : FVec Ideal S1024x27x5x512 .f32) (off : Fin 4 → Nat) (h : S1024x27x5x512.Slices off S1024x27x1x512)
    (g : Fin 5) (hoff : off = ![0, 0, g.val, 0]) (b : Fin 1024) (t : Fin 27) (f : Fin 512) :
    extractStridedSlice S1024x27x1x512 off x h (ix4 b t (0 : Fin 1) f) = x (ix4 b t g f) := by
  subst hoff
  refine extractStridedSlice_apply _ x h _ (ix4 b t g f) fun a => ?_
  match a with
  | ⟨0, _⟩ => show b.val = 0 + b.val; omega
  | ⟨1, _⟩ => show t.val = 0 + t.val; omega
  | ⟨2, _⟩ => show g.val = g.val + 0; omega
  | ⟨3, _⟩ => show f.val = 0 + f.val; omega

/-- Dropping the unit axis keeps the other coordinates. -/
theorem dropUnit_apply (y : FVec Ideal S1024x27x1x512 .f32) (h : S1024x27x1x512.ShapeCasts S1024x27x512)
    (b : Fin 1024) (t : Fin 27) (f : Fin 512) :
    shapeCast S1024x27x512 y h (ix3 b t f) = y (ix4 b t (0 : Fin 1) f) := by
  refine shapeCast_apply y h _ (ix4 b t (0 : Fin 1) f) ?_
  rw [Shape.rowMajor_val_four, Shape.rowMajor_val_three]
  show ((b.val * 27 + t.val) * 1 + 0) * 512 + f.val = (b.val * 27 + t.val) * 512 + f.val
  omega

/-! ### A head of 81 rows (a group of 3 joints) -/

section Dot81

theorem lhs81_0 (i : S1024x27x81.Idx) (q : dot_S1024x27x512_S81x512_S1024x27x81_2_1_01_0_n_n.contr.Idx) : (dot_S1024x27x512_S81x512_S1024x27x81_2_1_01_0_n_n.lhsIdx i q (0 : Fin 3)).val = (i 0).val := by
  unfold DotDims.lhsIdx
  rw [dif_neg (show ¬(0 : Fin S1024x27x512.rank) ∈ dot_S1024x27x512_S81x512_S1024x27x81_2_1_01_0_n_n.lhsBatch from (by decide : ¬(0 : Fin 3) ∈ ([] : List (Fin 3)))),
    dif_pos (show (0 : Fin S1024x27x512.rank) ∈ dot_S1024x27x512_S81x512_S1024x27x81_2_1_01_0_n_n.lhsNonContracting from (by decide : (0 : Fin 3) ∈ ([0, 1] : List (Fin 3))))]
  rfl
theorem lhs81_1 (i : S1024x27x81.Idx) (q : dot_S1024x27x512_S81x512_S1024x27x81_2_1_01_0_n_n.contr.Idx) : (dot_S1024x27x512_S81x512_S1024x27x81_2_1_01_0_n_n.lhsIdx i q (1 : Fin 3)).val = (i 1).val := by
  unfold DotDims.lhsIdx
  rw [dif_neg (show ¬(1 : Fin S1024x27x512.rank) ∈ dot_S1024x27x512_S81x512_S1024x27x81_2_1_01_0_n_n.lhsBatch from (by decide : ¬(1 : Fin 3) ∈ ([] : List (Fin 3)))),
    dif_pos (show (1 : Fin S1024x27x512.rank) ∈ dot_S1024x27x512_S81x512_S1024x27x81_2_1_01_0_n_n.lhsNonContracting from (by decide : (1 : Fin 3) ∈ ([0, 1] : List (Fin 3))))]
  rfl
theorem lhs81_2 (i : S1024x27x81.Idx) (q : dot_S1024x27x512_S81x512_S1024x27x81_2_1_01_0_n_n.contr.Idx) : (dot_S1024x27x512_S81x512_S1024x27x81_2_1_01_0_n_n.lhsIdx i q (2 : Fin 3)).val = (q ⟨0, (Nat.one_pos : 0 < 1)⟩).val :=
  dot_S1024x27x512_S81x512_S1024x27x81_2_1_01_0_n_n.lhsIdx_val_of_single rfl i q
theorem rhs81_0 (i : S1024x27x81.Idx) (q : dot_S1024x27x512_S81x512_S1024x27x81_2_1_01_0_n_n.contr.Idx) : (dot_S1024x27x512_S81x512_S1024x27x81_2_1_01_0_n_n.rhsIdx i q (0 : Fin 2)).val = (i 2).val := by
  unfold DotDims.rhsIdx
  rw [dif_neg (show ¬(0 : Fin S81x512.rank) ∈ dot_S1024x27x512_S81x512_S1024x27x81_2_1_01_0_n_n.rhsBatch from (by decide : ¬(0 : Fin 2) ∈ ([] : List (Fin 2)))),
    dif_pos (show (0 : Fin S81x512.rank) ∈ dot_S1024x27x512_S81x512_S1024x27x81_2_1_01_0_n_n.rhsNonContracting from (by decide : (0 : Fin 2) ∈ ([0] : List (Fin 2))))]
  rfl
theorem rhs81_1 (i : S1024x27x81.Idx) (q : dot_S1024x27x512_S81x512_S1024x27x81_2_1_01_0_n_n.contr.Idx) : (dot_S1024x27x512_S81x512_S1024x27x81_2_1_01_0_n_n.rhsIdx i q (1 : Fin 2)).val = (q ⟨0, (Nat.one_pos : 0 < 1)⟩).val :=
  dot_S1024x27x512_S81x512_S1024x27x81_2_1_01_0_n_n.rhsIdx_val_of_single rfl i q

/-- The product with the transposed weights at (b, t, o): the sum over the 512 features. -/
theorem dot81_apply (l : FVec Ideal S1024x27x512 .f32) (r : FVec Ideal S81x512 .f32) (b : Fin 1024) (t : Fin 27) (o : Fin 81) :
    Host.dotGeneral (F := Ideal) (φ₁ := .f32) (φ₂ := .f32) dot_S1024x27x512_S81x512_S1024x27x81_2_1_01_0_n_n none l r (ix3 b t o)
      = ∑ f : Fin 512, l (ix3 b t f) * r (ix2 o f) := by
  simp only [Host.dotGeneral]
  rw [Ideal.dotGeneral_apply, ← Equiv.sum_comp (contrEquiv1 dot_S1024x27x512_S81x512_S1024x27x81_2_1_01_0_n_n 512 rfl rfl).symm]
  refine Finset.sum_congr rfl fun f _ => ?_
  have hf := contrEquiv1_symm_val dot_S1024x27x512_S81x512_S1024x27x81_2_1_01_0_n_n 512 rfl rfl f
  have el : dot_S1024x27x512_S81x512_S1024x27x81_2_1_01_0_n_n.lhsIdx (ix3 b t o) ((contrEquiv1 dot_S1024x27x512_S81x512_S1024x27x81_2_1_01_0_n_n 512 rfl rfl).symm f) = ix3 b t f := funext fun a => Fin.ext (by
    match a with
    | ⟨0, _⟩ => exact lhs81_0 _ _
    | ⟨1, _⟩ => exact lhs81_1 _ _
    | ⟨2, _⟩ => exact (lhs81_2 _ _).trans hf)
  have er : dot_S1024x27x512_S81x512_S1024x27x81_2_1_01_0_n_n.rhsIdx (ix3 b t o) ((contrEquiv1 dot_S1024x27x512_S81x512_S1024x27x81_2_1_01_0_n_n 512 rfl rfl).symm f) = ix2 o f := funext fun a => Fin.ext (by
    match a with
    | ⟨0, _⟩ => exact rhs81_0 _ _
    | ⟨1, _⟩ => exact (rhs81_1 _ _).trans hf)
  rw [el, er]

/-- The bias broadcast over batch rows and patches reads the bias at the row. -/
theorem bias81_apply (bias : FVec Ideal S81 .f32) (h1 : S81.BroadcastsInDim S1x1x81 (![2] : Fin 1 → Fin S1x1x81.rank))
    (h2 : S1x1x81.BroadcastsInDim S1024x27x81 (![0, 1, 2] : Fin 3 → Fin S1024x27x81.rank)) (b : Fin 1024) (t : Fin 27) (o : Fin 81) :
    broadcastInDim S1024x27x81 ![0, 1, 2] h2 (broadcastInDim S1x1x81 ![2] h1 bias) (ix3 b t o) = bias (ix1 o) := by
  refine (broadcastInDim_apply _ h2 _ (ix3 b t o) (ix3 (0 : Fin 1) (0 : Fin 1) o) fun a => ?_).trans ?_
  · match a with
    | ⟨0, _⟩ => rfl
    | ⟨1, _⟩ => rfl
    | ⟨2, _⟩ => rfl
  · refine broadcastInDim_apply _ h1 bias (ix3 (0 : Fin 1) (0 : Fin 1) o) (ix1 o) fun a => ?_
    match a with
    | ⟨0, _⟩ => rfl

/-- Splitting patch and row into time, place and channel keeps the row-major position. -/
theorem split81_apply (z : FVec Ideal S1024x27x81 .f32) (h : S1024x27x81.ShapeCasts S1024x243x3x3) (b : Fin 1024) (T : Fin 243) (k : Fin 3) (c : Fin 3) :
    shapeCast S1024x243x3x3 z h (ix4 b T k c)
      = z (ix3 b (⟨T.val / 9, by omega⟩ : Fin 27) (⟨T.val % 9 * 9 + k.val * 3 + c.val, by omega⟩ : Fin 81)) := by
  refine shapeCast_apply z h _ _ ?_
  rw [Shape.rowMajor_val_three, Shape.rowMajor_val_four]
  show (b.val * 27 + T.val / 9) * 81 + (T.val % 9 * 9 + k.val * 3 + c.val) = ((b.val * 243 + T.val) * 3 + k.val) * 3 + c.val
  omega

/-- THE HEAD AT AN INDEX: the reference's update array of group `g` at (b, T, k, c) is row `(T mod 9)·9 + k·3 + c` of the
    group's linear head at batch row `b`, patch `T / 9`. -/
theorem pred81_apply (tok : FVec Ideal S1024x27x5x512 .f32) (W : FVec Ideal S81x512 .f32) (bias : FVec Ideal S81 .f32)
    (off : Fin 4 → Nat) (hsl : S1024x27x5x512.Slices off S1024x27x1x512) (g : Fin 5) (hoff : off = ![0, 0, g.val, 0])
    (b : Fin 1024) (T : Fin 243) (k : Fin 3) (c : Fin 3) :
    shapeCast S1024x243x3x3
      (addf (F := Ideal) (φ := .f32)
        (Host.dotGeneral (F := Ideal) (φ₁ := .f32) (φ₂ := .f32) dot_S1024x27x512_S81x512_S1024x27x81_2_1_01_0_n_n none
          (shapeCast S1024x27x512 (extractStridedSlice S1024x27x1x512 off tok hsl) shapeCasts_S1024x27x1x512_S1024x27x512) W)
        (broadcastInDim S1024x27x81 ![0, 1, 2] bcast_S1x1x81_S1024x27x81_0_1_2 (broadcastInDim S1x1x81 ![2] bcast_S81_S1x1x81_2 bias)))
      shapeCasts_S1024x27x81_S1024x243x3x3 (ix4 b T k c)
    = Cert.Decoder.lin tok W (fun o => bias (ix1 o)) g b (⟨T.val / 9, by omega⟩ : Fin 27)
        (⟨T.val % 9 * 9 + k.val * 3 + c.val, by omega⟩ : Fin 81) := by
  rw [split81_apply, addf_apply, dot81_apply, bias81_apply]
  unfold Cert.Decoder.lin
  refine congrArg (· + bias (ix1 _)) (Finset.sum_congr rfl fun f _ => ?_)
  rw [dropUnit_apply, slice_apply _ off hsl g hoff]

end Dot81

/-! ### A head of 135 rows (a group of 5 joints) -/

section Dot135

theorem lhs135_0 (i : S1024x27x135.Idx) (q : dot_S1024x27x512_S135x512_S1024x27x135_2_1_01_0_n_n.contr.Idx) : (dot_S1024x27x512_S135x512_S1024x27x135_2_1_01_0_n_n.lhsIdx i q (0 : Fin 3)).val = (i 0).val := by
  unfold DotDims.lhsIdx
  rw [dif_neg (show ¬(0 : Fin S1024x27x512.rank) ∈ dot_S1024x27x512_S135x512_S1024x27x135_2_1_01_0_n_n.lhsBatch from (by decide : ¬(0 : Fin 3) ∈ ([] : List (Fin 3)))),
    dif_pos (show (0 : Fin S1024x27x512.rank) ∈ dot_S1024x27x512_S135x512_S1024x27x135_2_1_01_0_n_n.lhsNonContracting from (by decide : (0 : Fin 3) ∈ ([0, 1] : List (Fin 3))))]
  rfl
theorem lhs135_1 (i : S1024x27x135.Idx) (q : dot_S1024x27x512_S135x512_S1024x27x135_2_1_01_0_n_n.contr.Idx) : (dot_S1024x27x512_S135x512_S1024x27x135_2_1_01_0_n_n.lhsIdx i q (1 : Fin 3)).val = (i 1).val := by
  unfold DotDims.lhsIdx
  rw [dif_neg (show ¬(1 : Fin S1024x27x512.rank) ∈ dot_S1024x27x512_S135x512_S1024x27x135_2_1_01_0_n_n.lhsBatch from (by decide : ¬(1 : Fin 3) ∈ ([] : List (Fin 3)))),
    dif_pos (show (1 : Fin S1024x27x512.rank) ∈ dot_S1024x27x512_S135x512_S1024x27x135_2_1_01_0_n_n.lhsNonContracting from (by decide : (1 : Fin 3) ∈ ([0, 1] : List (Fin 3))))]
  rfl
theorem lhs135_2 (i : S1024x27x135.Idx) (q : dot_S1024x27x512_S135x512_S1024x27x135_2_1_01_0_n_n.contr.Idx) : (dot_S1024x27x512_S135x512_S1024x27x135_2_1_01_0_n_n.lhsIdx i q (2 : Fin 3)).val = (q ⟨0, (Nat.one_pos : 0 < 1)⟩).val :=
  dot_S1024x27x512_S135x512_S1024x27x135_2_1_01_0_n_n.lhsIdx_val_of_single rfl i q
theorem rhs135_0 (i : S1024x27x135.Idx) (q : dot_S1024x27x512_S135x512_S1024x27x135_2_1_01_0_n_n.contr.Idx) : (dot_S1024x27x512_S135x512_S1024x27x135_2_1_01_0_n_n.rhsIdx i q (0 : Fin 2)).val = (i 2).val := by
  unfold DotDims.rhsIdx
  rw [dif_neg (show ¬(0 : Fin S135x512.rank) ∈ dot_S1024x27x512_S135x512_S1024x27x135_2_1_01_0_n_n.rhsBatch from (by decide : ¬(0 : Fin 2) ∈ ([] : List (Fin 2)))),
    dif_pos (show (0 : Fin S135x512.rank) ∈ dot_S1024x27x512_S135x512_S1024x27x135_2_1_01_0_n_n.rhsNonContracting from (by decide : (0 : Fin 2) ∈ ([0] : List (Fin 2))))]
  rfl
theorem rhs135_1 (i : S1024x27x135.Idx) (q : dot_S1024x27x512_S135x512_S1024x27x135_2_1_01_0_n_n.contr.Idx) : (dot_S1024x27x512_S135x512_S1024x27x135_2_1_01_0_n_n.rhsIdx i q (1 : Fin 2)).val = (q ⟨0, (Nat.one_pos : 0 < 1)⟩).val :=
  dot_S1024x27x512_S135x512_S1024x27x135_2_1_01_0_n_n.rhsIdx_val_of_single rfl i q

/-- The product with the transposed weights at (b, t, o): the sum over the 512 features. -/
theorem dot135_apply (l : FVec Ideal S1024x27x512 .f32) (r : FVec Ideal S135x512 .f32) (b : Fin 1024) (t : Fin 27) (o : Fin 135) :
    Host.dotGeneral (F := Ideal) (φ₁ := .f32) (φ₂ := .f32) dot_S1024x27x512_S135x512_S1024x27x135_2_1_01_0_n_n none l r (ix3 b t o)
      = ∑ f : Fin 512, l (ix3 b t f) * r (ix2 o f) := by
  simp only [Host.dotGeneral]
  rw [Ideal.dotGeneral_apply, ← Equiv.sum_comp (contrEquiv1 dot_S1024x27x512_S135x512_S1024x27x135_2_1_01_0_n_n 512 rfl rfl).symm]
  refine Finset.sum_congr rfl fun f _ => ?_
  have hf := contrEquiv1_symm_val dot_S1024x27x512_S135x512_S1024x27x135_2_1_01_0_n_n 512 rfl rfl f
  have el : dot_S1024x27x512_S135x512_S1024x27x135_2_1_01_0_n_n.lhsIdx (ix3 b t o) ((contrEquiv1 dot_S1024x27x512_S135x512_S1024x27x135_2_1_01_0_n_n 512 rfl rfl).symm f) = ix3 b t f := funext fun a => Fin.ext (by
    match a with
    | ⟨0, _⟩ => exact lhs135_0 _ _
    | ⟨1, _⟩ => exact lhs135_1 _ _
    | ⟨2, _⟩ => exact (lhs135_2 _ _).trans hf)
  have er : dot_S1024x27x512_S135x512_S1024x27x135_2_1_01_0_n_n.rhsIdx (ix3 b t o) ((contrEquiv1 dot_S1024x27x512_S135x512_S1024x27x135_2_1_01_0_n_n 512 rfl rfl).symm f) = ix2 o f := funext fun a => Fin.ext (by
    match a with
    | ⟨0, _⟩ => exact rhs135_0 _ _
    | ⟨1, _⟩ => exact (rhs135_1 _ _).trans hf)
  rw [el, er]

/-- The bias broadcast over batch rows and patches reads the bias at the row. -/
theorem bias135_apply (bias : FVec Ideal S135 .f32) (h1 : S135.BroadcastsInDim S1x1x135 (![2] : Fin 1 → Fin S1x1x135.rank))
    (h2 : S1x1x135.BroadcastsInDim S1024x27x135 (![0, 1, 2] : Fin 3 → Fin S1024x27x135.rank)) (b : Fin 1024) (t : Fin 27) (o : Fin 135) :
    broadcastInDim S1024x27x135 ![0, 1, 2] h2 (broadcastInDim S1x1x135 ![2] h1 bias) (ix3 b t o) = bias (ix1 o) := by
  refine (broadcastInDim_apply _ h2 _ (ix3 b t o) (ix3 (0 : Fin 1) (0 : Fin 1) o) fun a => ?_).trans ?_
  · match a with
    | ⟨0, _⟩ => rfl
    | ⟨1, _⟩ => rfl
    | ⟨2, _⟩ => rfl
  · refine broadcastInDim_apply _ h1 bias (ix3 (0 : Fin 1) (0 : Fin 1) o) (ix1 o) fun a => ?_
    match a with
    | ⟨0, _⟩ => rfl

/-- Splitting patch and row into time, place and channel keeps the row-major position. -/
theorem split135_apply (z : FVec Ideal S1024x27x135 .f32) (h : S1024x27x135.ShapeCasts S1024x243x5x3) (b : Fin 1024) (T : Fin 243) (k : Fin 5) (c : Fin 3) :
    shapeCast S1024x243x5x3 z h (ix4 b T k c)
      = z (ix3 b (⟨T.val / 9, by omega⟩ : Fin 27) (⟨T.val % 9 * 15 + k.val * 3 + c.val, by omega⟩ : Fin 135)) := by
  refine shapeCast_apply z h _ _ ?_
  rw [Shape.rowMajor_val_three, Shape.rowMajor_val_four]
  show (b.val * 27 + T.val / 9) * 135 + (T.val % 9 * 15 + k.val * 3 + c.val) = ((b.val * 243 + T.val) * 5 + k.val) * 3 + c.val
  omega

/-- THE HEAD AT AN INDEX: the reference's update array of group `g` at (b, T, k, c) is row `(T mod 9)·15 + k·3 + c` of the
    group's linear head at batch row `b`, patch `T / 9`. -/
theorem pred135_apply (tok : FVec Ideal S1024x27x5x512 .f32) (W : FVec Ideal S135x512 .f32) (bias : FVec Ideal S135 .f32)
    (off : Fin 4 → Nat) (hsl : S1024x27x5x512.Slices off S1024x27x1x512) (g : Fin 5) (hoff : off = ![0, 0, g.val, 0])
    (b : Fin 1024) (T : Fin 243) (k : Fin 5) (c : Fin 3) :
    shapeCast S1024x243x5x3
      (addf (F := Ideal) (φ := .f32)
        (Host.dotGeneral (F := Ideal) (φ₁ := .f32) (φ₂ := .f32) dot_S1024x27x512_S135x512_S1024x27x135_2_1_01_0_n_n none
          (shapeCast S1024x27x512 (extractStridedSlice S1024x27x1x512 off tok hsl) shapeCasts_S1024x27x1x512_S1024x27x512) W)
        (broadcastInDim S1024x27x135 ![0, 1, 2] bcast_S1x1x135_S1024x27x135_0_1_2 (broadcastInDim S1x1x135 ![2] bcast_S135_S1x1x135_2 bias)))
      shapeCasts_S1024x27x135_S1024x243x5x3 (ix4 b T k c)
    = Cert.Decoder.lin tok W (fun o => bias (ix1 o)) g b (⟨T.val / 9, by omega⟩ : Fin 27)
        (⟨T.val % 9 * 15 + k.val * 3 + c.val, by omega⟩ : Fin 135) := by
  rw [split135_apply, addf_apply, dot135_apply, bias135_apply]
  unfold Cert.Decoder.lin
  refine congrArg (· + bias (ix1 _)) (Finset.sum_congr rfl fun f _ => ?_)
  rw [dropUnit_apply, slice_apply _ off hsl g hoff]

end Dot135

end Cert.ReferenceIdeal.RefValue

end
-- ==== Proof.RefScatter.lean ====
/-
  The accumulating scatter of the reference, read at an index on the extended reals.

  The operand is an array over (batch row, time, joint, channel); the updates are an array over (batch row, time, place in the
  group, channel); the index array has one row per place in the group, holding the joint that place is written to. Update element
  (b, T, k, c) lands on operand element (b, T, joint k, c): the window runs over the axes 0, 1 and 3, the scattered axis is 2.
  Hence the result at (b, T, j, c) is the operand there plus the sum of the updates (b, T, k, c) over the places k whose joint
  is j. When the joints of a group are pairwise different that sum has one term (j is the joint of place k) or none.
-/
import proofs.«135711_j69887707841118_2_alg».proof.ReferenceIdeal
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal

variable [Facts]

/-- Two rank-4 indices built from coordinates are equal only if the coordinates are. -/
theorem ix4_inj {n0 n1 n2 n3 : Nat} {a a' : Fin n0} {b b' : Fin n1} {c c' : Fin n2} {d d' : Fin n3}
    (h : ix4 a b c d = ix4 a' b' c' d') : a = a' ∧ b = b' ∧ c = c' ∧ d = d' :=
  ⟨show ix4 a b c d (0 : Fin 4) = ix4 a' b' c' d' (0 : Fin 4) from congrFun h _,
    show ix4 a b c d (1 : Fin 4) = ix4 a' b' c' d' (1 : Fin 4) from congrFun h _,
    show ix4 a b c d (2 : Fin 4) = ix4 a' b' c' d' (2 : Fin 4) from congrFun h _,
    show ix4 a b c d (3 : Fin 4) = ix4 a' b' c' d' (3 : Fin 4) from congrFun h _⟩

/-! ### Updates S1024x243x3x3 into S1024x243x17x3 (3 places, 3 channels) -/

section sc33
variable (idx : IVec S3x1 32) (b : Fin 1024) (T : Fin 243) (k : Fin 3) (c : Fin 3)

/-- The window starts at 0 on the axes the index array does not name … -/
theorem sc33_start0 : scatter_S1024x243x17x3_S3x1_S1024x243x3x3_013_2_2_1.start (ix4 b T k c) idx (0 : Fin 4) = 0 := by
  unfold ScatterDims.start
  rw [dif_neg (show ¬(0 : Fin S1024x243x17x3.rank) ∈ scatter_S1024x243x17x3_S3x1_S1024x243x3x3_013_2_2_1.scatterDimsToOperandDims from (by decide : ¬(0 : Fin 4) ∈ ([2] : List (Fin 4))))]
theorem sc33_start1 : scatter_S1024x243x17x3_S3x1_S1024x243x3x3_013_2_2_1.start (ix4 b T k c) idx (1 : Fin 4) = 0 := by
  unfold ScatterDims.start
  rw [dif_neg (show ¬(1 : Fin S1024x243x17x3.rank) ∈ scatter_S1024x243x17x3_S3x1_S1024x243x3x3_013_2_2_1.scatterDimsToOperandDims from (by decide : ¬(1 : Fin 4) ∈ ([2] : List (Fin 4))))]
theorem sc33_start3 : scatter_S1024x243x17x3_S3x1_S1024x243x3x3_013_2_2_1.start (ix4 b T k c) idx (3 : Fin 4) = 0 := by
  unfold ScatterDims.start
  rw [dif_neg (show ¬(3 : Fin S1024x243x17x3.rank) ∈ scatter_S1024x243x17x3_S3x1_S1024x243x3x3_013_2_2_1.scatterDimsToOperandDims from (by decide : ¬(3 : Fin 4) ∈ ([2] : List (Fin 4))))]
/-- … and on the joint axis at the index array's entry for place `k`, read signed. -/
theorem sc33_start2 : scatter_S1024x243x17x3_S3x1_S1024x243x3x3_013_2_2_1.start (ix4 b T k c) idx (2 : Fin 4) = (idx (ix2 k 0)).toInt := by
  unfold ScatterDims.start
  rw [dif_pos (show (2 : Fin S1024x243x17x3.rank) ∈ scatter_S1024x243x17x3_S3x1_S1024x243x3x3_013_2_2_1.scatterDimsToOperandDims from (by decide : (2 : Fin 4) ∈ ([2] : List (Fin 4))))]
  have hsi : scatter_S1024x243x17x3_S3x1_S1024x243x3x3_013_2_2_1.siIdx (ix4 b T k c)
      ⟨List.idxOf (2 : Fin S1024x243x17x3.rank) scatter_S1024x243x17x3_S3x1_S1024x243x3x3_013_2_2_1.scatterDimsToOperandDims, List.idxOf_lt_length_iff.2 (by decide : (2 : Fin 4) ∈ ([2] : List (Fin 4)))⟩ = ix2 k 0 := by
    funext a; refine Fin.ext ?_
    match a with
    | ⟨0, _⟩ => rfl
    | ⟨1, _⟩ => rfl
  rw [hsi]
/-- The coordinate inside the window: the update's own coordinate on the window axes, 0 on the joint axis. -/
theorem sc33_window0 : scatter_S1024x243x17x3_S3x1_S1024x243x3x3_013_2_2_1.window (ix4 b T k c) (0 : Fin 4) = b.val := rfl
theorem sc33_window1 : scatter_S1024x243x17x3_S3x1_S1024x243x3x3_013_2_2_1.window (ix4 b T k c) (1 : Fin 4) = T.val := rfl
theorem sc33_window2 : scatter_S1024x243x17x3_S3x1_S1024x243x3x3_013_2_2_1.window (ix4 b T k c) (2 : Fin 4) = 0 := rfl
theorem sc33_window3 : scatter_S1024x243x17x3_S3x1_S1024x243x3x3_013_2_2_1.window (ix4 b T k c) (3 : Fin 4) = c.val := rfl

/-- Update element (b, T, k, c) lands on operand element (b, T, J, c), `J` the joint the index array holds for place `k`. -/
theorem sc33_resultIdx (J : Fin 17) (hJ : (idx (ix2 k 0)).toInt = (J.val : Int)) :
    scatter_S1024x243x17x3_S3x1_S1024x243x3x3_013_2_2_1.resultIdx? (ix4 b T k c) idx = some (ix4 b T J c) := by
  have hall : ∀ a, 0 ≤ scatter_S1024x243x17x3_S3x1_S1024x243x3x3_013_2_2_1.start (ix4 b T k c) idx a + (scatter_S1024x243x17x3_S3x1_S1024x243x3x3_013_2_2_1.window (ix4 b T k c) a : Int) ∧
      scatter_S1024x243x17x3_S3x1_S1024x243x3x3_013_2_2_1.start (ix4 b T k c) idx a + (scatter_S1024x243x17x3_S3x1_S1024x243x3x3_013_2_2_1.window (ix4 b T k c) a : Int) < (S1024x243x17x3.size a : Int) := by
    intro a
    match a with
    | ⟨0, _⟩ =>
      show 0 ≤ scatter_S1024x243x17x3_S3x1_S1024x243x3x3_013_2_2_1.start (ix4 b T k c) idx (0 : Fin 4) + (scatter_S1024x243x17x3_S3x1_S1024x243x3x3_013_2_2_1.window (ix4 b T k c) (0 : Fin 4) : Int) ∧
        scatter_S1024x243x17x3_S3x1_S1024x243x3x3_013_2_2_1.start (ix4 b T k c) idx (0 : Fin 4) + (scatter_S1024x243x17x3_S3x1_S1024x243x3x3_013_2_2_1.window (ix4 b T k c) (0 : Fin 4) : Int) < ((1024 : Nat) : Int)
      rw [sc33_start0, sc33_window0]; have := b.isLt; omega
    | ⟨1, _⟩ =>
      show 0 ≤ scatter_S1024x243x17x3_S3x1_S1024x243x3x3_013_2_2_1.start (ix4 b T k c) idx (1 : Fin 4) + (scatter_S1024x243x17x3_S3x1_S1024x243x3x3_013_2_2_1.window (ix4 b T k c) (1 : Fin 4) : Int) ∧
        scatter_S1024x243x17x3_S3x1_S1024x243x3x3_013_2_2_1.start (ix4 b T k c) idx (1 : Fin 4) + (scatter_S1024x243x17x3_S3x1_S1024x243x3x3_013_2_2_1.window (ix4 b T k c) (1 : Fin 4) : Int) < ((243 : Nat) : Int)
      rw [sc33_start1, sc33_window1]; have := T.isLt; omega
    | ⟨2, _⟩ =>
      show 0 ≤ scatter_S1024x243x17x3_S3x1_S1024x243x3x3_013_2_2_1.start (ix4 b T k c) idx (2 : Fin 4) + (scatter_S1024x243x17x3_S3x1_S1024x243x3x3_013_2_2_1.window (ix4 b T k c) (2 : Fin 4) : Int) ∧
        scatter_S1024x243x17x3_S3x1_S1024x243x3x3_013_2_2_1.start (ix4 b T k c) idx (2 : Fin 4) + (scatter_S1024x243x17x3_S3x1_S1024x243x3x3_013_2_2_1.window (ix4 b T k c) (2 : Fin 4) : Int) < ((17 : Nat) : Int)
      rw [sc33_start2, sc33_window2, hJ]; have := J.isLt; omega
    | ⟨3, _⟩ =>
      show 0 ≤ scatter_S1024x243x17x3_S3x1_S1024x243x3x3_013_2_2_1.start (ix4 b T k c) idx (3 : Fin 4) + (scatter_S1024x243x17x3_S3x1_S1024x243x3x3_013_2_2_1.window (ix4 b T k c) (3 : Fin 4) : Int) ∧
        scatter_S1024x243x17x3_S3x1_S1024x243x3x3_013_2_2_1.start (ix4 b T k c) idx (3 : Fin 4) + (scatter_S1024x243x17x3_S3x1_S1024x243x3x3_013_2_2_1.window (ix4 b T k c) (3 : Fin 4) : Int) < ((3 : Nat) : Int)
      rw [sc33_start3, sc33_window3]; have := c.isLt; omega
  unfold ScatterDims.resultIdx?
  rw [dif_pos hall]
  refine congrArg some (funext fun a => Fin.ext ?_)
  match a with
  | ⟨0, _⟩ =>
    show (scatter_S1024x243x17x3_S3x1_S1024x243x3x3_013_2_2_1.start (ix4 b T k c) idx (0 : Fin 4) + (scatter_S1024x243x17x3_S3x1_S1024x243x3x3_013_2_2_1.window (ix4 b T k c) (0 : Fin 4) : Int)).toNat = b.val
    rw [sc33_start0, sc33_window0]; omega
  | ⟨1, _⟩ =>
    show (scatter_S1024x243x17x3_S3x1_S1024x243x3x3_013_2_2_1.start (ix4 b T k c) idx (1 : Fin 4) + (scatter_S1024x243x17x3_S3x1_S1024x243x3x3_013_2_2_1.window (ix4 b T k c) (1 : Fin 4) : Int)).toNat = T.val
    rw [sc33_start1, sc33_window1]; omega
  | ⟨2, _⟩ =>
    show (scatter_S1024x243x17x3_S3x1_S1024x243x3x3_013_2_2_1.start (ix4 b T k c) idx (2 : Fin 4) + (scatter_S1024x243x17x3_S3x1_S1024x243x3x3_013_2_2_1.window (ix4 b T k c) (2 : Fin 4) : Int)).toNat = J.val
    rw [sc33_start2, sc33_window2, hJ]; omega
  | ⟨3, _⟩ =>
    show (scatter_S1024x243x17x3_S3x1_S1024x243x3x3_013_2_2_1.start (ix4 b T k c) idx (3 : Fin 4) + (scatter_S1024x243x17x3_S3x1_S1024x243x3x3_013_2_2_1.window (ix4 b T k c) (3 : Fin 4) : Int)).toNat = c.val
    rw [sc33_start3, sc33_window3]; omega

end sc33

section sc33Sum
variable (x : FVec Ideal S1024x243x17x3 .f32) (idx : IVec S3x1 32) (u : FVec Ideal S1024x243x3x3 .f32)
  (J : Fin 3 → Fin 17) (hJ : ∀ k, (idx (ix2 k 0)).toInt = ((J k).val : Int)) (hinj : Function.Injective J)
include hJ hinj

/-- The scatter at the joint of place `k`: the operand plus the update of that place. -/
theorem sc33_hit (b : Fin 1024) (T : Fin 243) (k : Fin 3) (c : Fin 3) :
    Host.scatterAdd (F := Ideal) scatter_S1024x243x17x3_S3x1_S1024x243x3x3_013_2_2_1 x idx u (ix4 b T (J k) c) = x (ix4 b T (J k) c) + u (ix4 b T k c) := by
  show x _ + ∑ j' ∈ Finset.univ.filter (fun j' => scatter_S1024x243x17x3_S3x1_S1024x243x3x3_013_2_2_1.resultIdx? j' idx = some (ix4 b T (J k) c)), u j' = _
  refine congrArg (x (ix4 b T (J k) c) + ·) ?_
  refine Finset.sum_eq_single_of_mem (ix4 b T k c) ?_ ?_
  · exact Finset.mem_filter.2 ⟨Finset.mem_univ _, sc33_resultIdx idx b T k c (J k) (hJ k)⟩
  · intro j' hj' hne
    exfalso
    obtain ⟨b', T', k', c', rfl⟩ : ∃ (b' : Fin 1024) (T' : Fin 243) (k' : Fin 3) (c' : Fin 3), j' = ix4 b' T' k' c' :=
      ⟨j' 0, j' 1, j' 2, j' 3, eq_ix4 j'⟩
    have h := (Finset.mem_filter.1 hj').2
    rw [sc33_resultIdx idx b' T' k' c' (J k') (hJ k')] at h
    obtain ⟨h0, h1, h2, h3⟩ := ix4_inj (Option.some.inj h)
    exact hne (by rw [h0, h1, hinj h2, h3])

/-- The scatter at a joint that is no place's: the operand. -/
theorem sc33_miss (b : Fin 1024) (T : Fin 243) (j : Fin 17) (c : Fin 3) (hj : ∀ k, J k ≠ j) :
    Host.scatterAdd (F := Ideal) scatter_S1024x243x17x3_S3x1_S1024x243x3x3_013_2_2_1 x idx u (ix4 b T j c) = x (ix4 b T j c) := by
  show x _ + ∑ j' ∈ Finset.univ.filter (fun j' => scatter_S1024x243x17x3_S3x1_S1024x243x3x3_013_2_2_1.resultIdx? j' idx = some (ix4 b T j c)), u j' = _
  rw [Finset.sum_eq_zero, add_zero]
  intro j' hj'
  exfalso
  obtain ⟨b', T', k', c', rfl⟩ : ∃ (b' : Fin 1024) (T' : Fin 243) (k' : Fin 3) (c' : Fin 3), j' = ix4 b' T' k' c' :=
    ⟨j' 0, j' 1, j' 2, j' 3, eq_ix4 j'⟩
  have h := (Finset.mem_filter.1 hj').2
  rw [sc33_resultIdx idx b' T' k' c' (J k') (hJ k')] at h
  exact hj k' (ix4_inj (Option.some.inj h)).2.2.1

end sc33Sum

/-! ### Updates S1024x243x3x1 into S1024x243x17x1 (3 places, 1 channel) -/

section sc31
variable (idx : IVec S3x1 32) (b : Fin 1024) (T : Fin 243) (k : Fin 3) (c : Fin 1)

/-- The window starts at 0 on the axes the index array does not name … -/
theorem sc31_start0 : scatter_S1024x243x17x1_S3x1_S1024x243x3x1_013_2_2_1.start (ix4 b T k c) idx (0 : Fin 4) = 0 := by
  unfold ScatterDims.start
  rw [dif_neg (show ¬(0 : Fin S1024x243x17x1.rank) ∈ scatter_S1024x243x17x1_S3x1_S1024x243x3x1_013_2_2_1.scatterDimsToOperandDims from (by decide : ¬(0 : Fin 4) ∈ ([2] : List (Fin 4))))]
theorem sc31_start1 : scatter_S1024x243x17x1_S3x1_S1024x243x3x1_013_2_2_1.start (ix4 b T k c) idx (1 : Fin 4) = 0 := by
  unfold ScatterDims.start
  rw [dif_neg (show ¬(1 : Fin S1024x243x17x1.rank) ∈ scatter_S1024x243x17x1_S3x1_S1024x243x3x1_013_2_2_1.scatterDimsToOperandDims from (by decide : ¬(1 : Fin 4) ∈ ([2] : List (Fin 4))))]
theorem sc31_start3 : scatter_S1024x243x17x1_S3x1_S1024x243x3x1_013_2_2_1.start (ix4 b T k c) idx (3 : Fin 4) = 0 := by
  unfold ScatterDims.start
  rw [dif_neg (show ¬(3 : Fin S1024x243x17x1.rank) ∈ scatter_S1024x243x17x1_S3x1_S1024x243x3x1_013_2_2_1.scatterDimsToOperandDims from (by decide : ¬(3 : Fin 4) ∈ ([2] : List (Fin 4))))]
/-- … and on the joint axis at the index array's entry for place `k`, read signed. -/
theorem sc31_start2 : scatter_S1024x243x17x1_S3x1_S1024x243x3x1_013_2_2_1.start (ix4 b T k c) idx (2 : Fin 4) = (idx (ix2 k 0)).toInt := by
  unfold ScatterDims.start
  rw [dif_pos (show (2 : Fin S1024x243x17x1.rank) ∈ scatter_S1024x243x17x1_S3x1_S1024x243x3x1_013_2_2_1.scatterDimsToOperandDims from (by decide : (2 : Fin 4) ∈ ([2] : List (Fin 4))))]
  have hsi : scatter_S1024x243x17x1_S3x1_S1024x243x3x1_013_2_2_1.siIdx (ix4 b T k c)
      ⟨List.idxOf (2 : Fin S1024x243x17x1.rank) scatter_S1024x243x17x1_S3x1_S1024x243x3x1_013_2_2_1.scatterDimsToOperandDims, List.idxOf_lt_length_iff.2 (by decide : (2 : Fin 4) ∈ ([2] : List (Fin 4)))⟩ = ix2 k 0 := by
    funext a; refine Fin.ext ?_
    match a with
    | ⟨0, _⟩ => rfl
    | ⟨1, _⟩ => rfl
  rw [hsi]
/-- The coordinate inside the window: the update's own coordinate on the window axes, 0 on the joint axis. -/
theorem sc31_window0 : scatter_S1024x243x17x1_S3x1_S1024x243x3x1_013_2_2_1.window (ix4 b T k c) (0 : Fin 4) = b.val := rfl
theorem sc31_window1 : scatter_S1024x243x17x1_S3x1_S1024x243x3x1_013_2_2_1.window (ix4 b T k c) (1 : Fin 4) = T.val := rfl
theorem sc31_window2 : scatter_S1024x243x17x1_S3x1_S1024x243x3x1_013_2_2_1.window (ix4 b T k c) (2 : Fin 4) = 0 := rfl
theorem sc31_window3 : scatter_S1024x243x17x1_S3x1_S1024x243x3x1_013_2_2_1.window (ix4 b T k c) (3 : Fin 4) = c.val := rfl

/-- Update element (b, T, k, c) lands on operand element (b, T, J, c), `J` the joint the index array holds for place `k`. -/
theorem sc31_resultIdx (J : Fin 17) (hJ : (idx (ix2 k 0)).toInt = (J.val : Int)) :
    scatter_S1024x243x17x1_S3x1_S1024x243x3x1_013_2_2_1.resultIdx? (ix4 b T k c) idx = some (ix4 b T J c) := by
  have hall : ∀ a, 0 ≤ scatter_S1024x243x17x1_S3x1_S1024x243x3x1_013_2_2_1.start (ix4 b T k c) idx a + (scatter_S1024x243x17x1_S3x1_S1024x243x3x1_013_2_2_1.window (ix4 b T k c) a : Int) ∧
      scatter_S1024x243x17x1_S3x1_S1024x243x3x1_013_2_2_1.start (ix4 b T k c) idx a + (scatter_S1024x243x17x1_S3x1_S1024x243x3x1_013_2_2_1.window (ix4 b T k c) a : Int) < (S1024x243x17x1.size a : Int) := by
    intro a
    match a with
    | ⟨0, _⟩ =>
      show 0 ≤ scatter_S1024x243x17x1_S3x1_S1024x243x3x1_013_2_2_1.start (ix4 b T k c) idx (0 : Fin 4) + (scatter_S1024x243x17x1_S3x1_S1024x243x3x1_013_2_2_1.window (ix4 b T k c) (0 : Fin 4) : Int) ∧
        scatter_S1024x243x17x1_S3x1_S1024x243x3x1_013_2_2_1.start (ix4 b T k c) idx (0 : Fin 4) + (scatter_S1024x243x17x1_S3x1_S1024x243x3x1_013_2_2_1.window (ix4 b T k c) (0 : Fin 4) : Int) < ((1024 : Nat) : Int)
      rw [sc31_start0, sc31_window0]; have := b.isLt; omega
    | ⟨1, _⟩ =>
      show 0 ≤ scatter_S1024x243x17x1_S3x1_S1024x243x3x1_013_2_2_1.start (ix4 b T k c) idx (1 : Fin 4) + (scatter_S1024x243x17x1_S3x1_S1024x243x3x1_013_2_2_1.window (ix4 b T k c) (1 : Fin 4) : Int) ∧
        scatter_S1024x243x17x1_S3x1_S1024x243x3x1_013_2_2_1.start (ix4 b T k c) idx (1 : Fin 4) + (scatter_S1024x243x17x1_S3x1_S1024x243x3x1_013_2_2_1.window (ix4 b T k c) (1 : Fin 4) : Int) < ((243 : Nat) : Int)
      rw [sc31_start1, sc31_window1]; have := T.isLt; omega
    | ⟨2, _⟩ =>
      show 0 ≤ scatter_S1024x243x17x1_S3x1_S1024x243x3x1_013_2_2_1.start (ix4 b T k c) idx (2 : Fin 4) + (scatter_S1024x243x17x1_S3x1_S1024x243x3x1_013_2_2_1.window (ix4 b T k c) (2 : Fin 4) : Int) ∧
        scatter_S1024x243x17x1_S3x1_S1024x243x3x1_013_2_2_1.start (ix4 b T k c) idx (2 : Fin 4) + (scatter_S1024x243x17x1_S3x1_S1024x243x3x1_013_2_2_1.window (ix4 b T k c) (2 : Fin 4) : Int) < ((17 : Nat) : Int)
      rw [sc31_start2, sc31_window2, hJ]; have := J.isLt; omega
    | ⟨3, _⟩ =>
      show 0 ≤ scatter_S1024x243x17x1_S3x1_S1024x243x3x1_013_2_2_1.start (ix4 b T k c) idx (3 : Fin 4) + (scatter_S1024x243x17x1_S3x1_S1024x243x3x1_013_2_2_1.window (ix4 b T k c) (3 : Fin 4) : Int) ∧
        scatter_S1024x243x17x1_S3x1_S1024x243x3x1_013_2_2_1.start (ix4 b T k c) idx (3 : Fin 4) + (scatter_S1024x243x17x1_S3x1_S1024x243x3x1_013_2_2_1.window (ix4 b T k c) (3 : Fin 4) : Int) < ((1 : Nat) : Int)
      rw [sc31_start3, sc31_window3]; have := c.isLt; omega
  unfold ScatterDims.resultIdx?
  rw [dif_pos hall]
  refine congrArg some (funext fun a => Fin.ext ?_)
  match a with
  | ⟨0, _⟩ =>
    show (scatter_S1024x243x17x1_S3x1_S1024x243x3x1_013_2_2_1.start (ix4 b T k c) idx (0 : Fin 4) + (scatter_S1024x243x17x1_S3x1_S1024x243x3x1_013_2_2_1.window (ix4 b T k c) (0 : Fin 4) : Int)).toNat = b.val
    rw [sc31_start0, sc31_window0]; omega
  | ⟨1, _⟩ =>
    show (scatter_S1024x243x17x1_S3x1_S1024x243x3x1_013_2_2_1.start (ix4 b T k c) idx (1 : Fin 4) + (scatter_S1024x243x17x1_S3x1_S1024x243x3x1_013_2_2_1.window (ix4 b T k c) (1 : Fin 4) : Int)).toNat = T.val
    rw [sc31_start1, sc31_window1]; omega
  | ⟨2, _⟩ =>
    show (scatter_S1024x243x17x1_S3x1_S1024x243x3x1_013_2_2_1.start (ix4 b T k c) idx (2 : Fin 4) + (scatter_S1024x243x17x1_S3x1_S1024x243x3x1_013_2_2_1.window (ix4 b T k c) (2 : Fin 4) : Int)).toNat = J.val
    rw [sc31_start2, sc31_window2, hJ]; omega
  | ⟨3, _⟩ =>
    show (scatter_S1024x243x17x1_S3x1_S1024x243x3x1_013_2_2_1.start (ix4 b T k c) idx (3 : Fin 4) + (scatter_S1024x243x17x1_S3x1_S1024x243x3x1_013_2_2_1.window (ix4 b T k c) (3 : Fin 4) : Int)).toNat = c.val
    rw [sc31_start3, sc31_window3]; omega

end sc31

section sc31Sum
variable (x : FVec Ideal S1024x243x17x1 .f32) (idx : IVec S3x1 32) (u : FVec Ideal S1024x243x3x1 .f32)
  (J : Fin 3 → Fin 17) (hJ : ∀ k, (idx (ix2 k 0)).toInt = ((J k).val : Int)) (hinj : Function.Injective J)
include hJ hinj

/-- The scatter at the joint of place `k`: the operand plus the update of that place. -/
theorem sc31_hit (b : Fin 1024) (T : Fin 243) (k : Fin 3) (c : Fin 1) :
    Host.scatterAdd (F := Ideal) scatter_S1024x243x17x1_S3x1_S1024x243x3x1_013_2_2_1 x idx u (ix4 b T (J k) c) = x (ix4 b T (J k) c) + u (ix4 b T k c) := by
  show x _ + ∑ j' ∈ Finset.univ.filter (fun j' => scatter_S1024x243x17x1_S3x1_S1024x243x3x1_013_2_2_1.resultIdx? j' idx = some (ix4 b T (J k) c)), u j' = _
  refine congrArg (x (ix4 b T (J k) c) + ·) ?_
  refine Finset.sum_eq_single_of_mem (ix4 b T k c) ?_ ?_
  · exact Finset.mem_filter.2 ⟨Finset.mem_univ _, sc31_resultIdx idx b T k c (J k) (hJ k)⟩
  · intro j' hj' hne
    exfalso
    obtain ⟨b', T', k', c', rfl⟩ : ∃ (b' : Fin 1024) (T' : Fin 243) (k' : Fin 3) (c' : Fin 1), j' = ix4 b' T' k' c' :=
      ⟨j' 0, j' 1, j' 2, j' 3, eq_ix4 j'⟩
    have h := (Finset.mem_filter.1 hj').2
    rw [sc31_resultIdx idx b' T' k' c' (J k') (hJ k')] at h
    obtain ⟨h0, h1, h2, h3⟩ := ix4_inj (Option.some.inj h)
    exact hne (by rw [h0, h1, hinj h2, h3])

/-- The scatter at a joint that is no place's: the operand. -/
theorem sc31_miss (b : Fin 1024) (T : Fin 243) (j : Fin 17) (c : Fin 1) (hj : ∀ k, J k ≠ j) :
    Host.scatterAdd (F := Ideal) scatter_S1024x243x17x1_S3x1_S1024x243x3x1_013_2_2_1 x idx u (ix4 b T j c) = x (ix4 b T j c) := by
  show x _ + ∑ j' ∈ Finset.univ.filter (fun j' => scatter_S1024x243x17x1_S3x1_S1024x243x3x1_013_2_2_1.resultIdx? j' idx = some (ix4 b T j c)), u j' = _
  rw [Finset.sum_eq_zero, add_zero]
  intro j' hj'
  exfalso
  obtain ⟨b', T', k', c', rfl⟩ : ∃ (b' : Fin 1024) (T' : Fin 243) (k' : Fin 3) (c' : Fin 1), j' = ix4 b' T' k' c' :=
    ⟨j' 0, j' 1, j' 2, j' 3, eq_ix4 j'⟩
  have h := (Finset.mem_filter.1 hj').2
  rw [sc31_resultIdx idx b' T' k' c' (J k') (hJ k')] at h
  exact hj k' (ix4_inj (Option.some.inj h)).2.2.1

end sc31Sum

/-! ### Updates S1024x243x5x3 into S1024x243x17x3 (5 places, 3 channels) -/

section sc53
variable (idx : IVec S5x1 32) (b : Fin 1024) (T : Fin 243) (k : Fin 5) (c : Fin 3)

/-- The window starts at 0 on the axes the index array does not name … -/
theorem sc53_start0 : scatter_S1024x243x17x3_S5x1_S1024x243x5x3_013_2_2_1.start (ix4 b T k c) idx (0 : Fin 4) = 0 := by
  unfold ScatterDims.start
  rw [dif_neg (show ¬(0 : Fin S1024x243x17x3.rank) ∈ scatter_S1024x243x17x3_S5x1_S1024x243x5x3_013_2_2_1.scatterDimsToOperandDims from (by decide : ¬(0 : Fin 4) ∈ ([2] : List (Fin 4))))]
theorem sc53_start1 : scatter_S1024x243x17x3_S5x1_S1024x243x5x3_013_2_2_1.start (ix4 b T k c) idx (1 : Fin 4) = 0 := by
  unfold ScatterDims.start
  rw [dif_neg (show ¬(1 : Fin S1024x243x17x3.rank) ∈ scatter_S1024x243x17x3_S5x1_S1024x243x5x3_013_2_2_1.scatterDimsToOperandDims from (by decide : ¬(1 : Fin 4) ∈ ([2] : List (Fin 4))))]
theorem sc53_start3 : scatter_S1024x243x17x3_S5x1_S1024x243x5x3_013_2_2_1.start (ix4 b T k c) idx (3 : Fin 4) = 0 := by
  unfold ScatterDims.start
  rw [dif_neg (show ¬(3 : Fin S1024x243x17x3.rank) ∈ scatter_S1024x243x17x3_S5x1_S1024x243x5x3_013_2_2_1.scatterDimsToOperandDims from (by decide : ¬(3 : Fin 4) ∈ ([2] : List (Fin 4))))]
/-- … and on the joint axis at the index array's entry for place `k`, read signed. -/
theorem sc53_start2 : scatter_S1024x243x17x3_S5x1_S1024x243x5x3_013_2_2_1.start (ix4 b T k c) idx (2 : Fin 4) = (idx (ix2 k 0)).toInt := by
  unfold ScatterDims.start
  rw [dif_pos (show (2 : Fin S1024x243x17x3.rank) ∈ scatter_S1024x243x17x3_S5x1_S1024x243x5x3_013_2_2_1.scatterDimsToOperandDims from (by decide : (2 : Fin 4) ∈ ([2] : List (Fin 4))))]
  have hsi : scatter_S1024x243x17x3_S5x1_S1024x243x5x3_013_2_2_1.siIdx (ix4 b T k c)
      ⟨List.idxOf (2 : Fin S1024x243x17x3.rank) scatter_S1024x243x17x3_S5x1_S1024x243x5x3_013_2_2_1.scatterDimsToOperandDims, List.idxOf_lt_length_iff.2 (by decide : (2 : Fin 4) ∈ ([2] : List (Fin 4)))⟩ = ix2 k 0 := by
    funext a; refine Fin.ext ?_
    match a with
    | ⟨0, _⟩ => rfl
    | ⟨1, _⟩ => rfl
  rw [hsi]
/-- The coordinate inside the window: the update's own coordinate on the window axes, 0 on the joint axis. -/
theorem sc53_window0 : scatter_S1024x243x17x3_S5x1_S1024x243x5x3_013_2_2_1.window (ix4 b T k c) (0 : Fin 4) = b.val := rfl
theorem sc53_window1 : scatter_S1024x243x17x3_S5x1_S1024x243x5x3_013_2_2_1.window (ix4 b T k c) (1 : Fin 4) = T.val := rfl
theorem sc53_window2 : scatter_S1024x243x17x3_S5x1_S1024x243x5x3_013_2_2_1.window (ix4 b T k c) (2 : Fin 4) = 0 := rfl
theorem sc53_window3 : scatter_S1024x243x17x3_S5x1_S1024x243x5x3_013_2_2_1.window (ix4 b T k c) (3 : Fin 4) = c.val := rfl

/-- Update element (b, T, k, c) lands on operand element (b, T, J, c), `J` the joint the index array holds for place `k`. -/
theorem sc53_resultIdx (J : Fin 17) (hJ : (idx (ix2 k 0)).toInt = (J.val : Int)) :
    scatter_S1024x243x17x3_S5x1_S1024x243x5x3_013_2_2_1.resultIdx? (ix4 b T k c) idx = some (ix4 b T J c) := by
  have hall : ∀ a, 0 ≤ scatter_S1024x243x17x3_S5x1_S1024x243x5x3_013_2_2_1.start (ix4 b T k c) idx a + (scatter_S1024x243x17x3_S5x1_S1024x243x5x3_013_2_2_1.window (ix4 b T k c) a : Int) ∧
      scatter_S1024x243x17x3_S5x1_S1024x243x5x3_013_2_2_1.start (ix4 b T k c) idx a + (scatter_S1024x243x17x3_S5x1_S1024x243x5x3_013_2_2_1.window (ix4 b T k c) a : Int) < (S1024x243x17x3.size a : Int) := by
    intro a
    match a with
    | ⟨0, _⟩ =>
      show 0 ≤ scatter_S1024x243x17x3_S5x1_S1024x243x5x3_013_2_2_1.start (ix4 b T k c) idx (0 : Fin 4) + (scatter_S1024x243x17x3_S5x1_S1024x243x5x3_013_2_2_1.window (ix4 b T k c) (0 : Fin 4) : Int) ∧
        scatter_S1024x243x17x3_S5x1_S1024x243x5x3_013_2_2_1.start (ix4 b T k c) idx (0 : Fin 4) + (scatter_S1024x243x17x3_S5x1_S1024x243x5x3_013_2_2_1.window (ix4 b T k c) (0 : Fin 4) : Int) < ((1024 : Nat) : Int)
      rw [sc53_start0, sc53_window0]; have := b.isLt; omega
    | ⟨1, _⟩ =>
      show 0 ≤ scatter_S1024x243x17x3_S5x1_S1024x243x5x3_013_2_2_1.start (ix4 b T k c) idx (1 : Fin 4) + (scatter_S1024x243x17x3_S5x1_S1024x243x5x3_013_2_2_1.window (ix4 b T k c) (1 : Fin 4) : Int) ∧
        scatter_S1024x243x17x3_S5x1_S1024x243x5x3_013_2_2_1.start (ix4 b T k c) idx (1 : Fin 4) + (scatter_S1024x243x17x3_S5x1_S1024x243x5x3_013_2_2_1.window (ix4 b T k c) (1 : Fin 4) : Int) < ((243 : Nat) : Int)
      rw [sc53_start1, sc53_window1]; have := T.isLt; omega
    | ⟨2, _⟩ =>
      show 0 ≤ scatter_S1024x243x17x3_S5x1_S1024x243x5x3_013_2_2_1.start (ix4 b T k c) idx (2 : Fin 4) + (scatter_S1024x243x17x3_S5x1_S1024x243x5x3_013_2_2_1.window (ix4 b T k c) (2 : Fin 4) : Int) ∧
        scatter_S1024x243x17x3_S5x1_S1024x243x5x3_013_2_2_1.start (ix4 b T k c) idx (2 : Fin 4) + (scatter_S1024x243x17x3_S5x1_S1024x243x5x3_013_2_2_1.window (ix4 b T k c) (2 : Fin 4) : Int) < ((17 : Nat) : Int)
      rw [sc53_start2, sc53_window2, hJ]; have := J.isLt; omega
    | ⟨3, _⟩ =>
      show 0 ≤ scatter_S1024x243x17x3_S5x1_S1024x243x5x3_013_2_2_1.start (ix4 b T k c) idx (3 : Fin 4) + (scatter_S1024x243x17x3_S5x1_S1024x243x5x3_013_2_2_1.window (ix4 b T k c) (3 : Fin 4) : Int) ∧
        scatter_S1024x243x17x3_S5x1_S1024x243x5x3_013_2_2_1.start (ix4 b T k c) idx (3 : Fin 4) + (scatter_S1024x243x17x3_S5x1_S1024x243x5x3_013_2_2_1.window (ix4 b T k c) (3 : Fin 4) : Int) < ((3 : Nat) : Int)
      rw [sc53_start3, sc53_window3]; have := c.isLt; omega
  unfold ScatterDims.resultIdx?
  rw [dif_pos hall]
  refine congrArg some (funext fun a => Fin.ext ?_)
  match a with
  | ⟨0, _⟩ =>
    show (scatter_S1024x243x17x3_S5x1_S1024x243x5x3_013_2_2_1.start (ix4 b T k c) idx (0 : Fin 4) + (scatter_S1024x243x17x3_S5x1_S1024x243x5x3_013_2_2_1.window (ix4 b T k c) (0 : Fin 4) : Int)).toNat = b.val
    rw [sc53_start0, sc53_window0]; omega
  | ⟨1, _⟩ =>
    show (scatter_S1024x243x17x3_S5x1_S1024x243x5x3_013_2_2_1.start (ix4 b T k c) idx (1 : Fin 4) + (scatter_S1024x243x17x3_S5x1_S1024x243x5x3_013_2_2_1.window (ix4 b T k c) (1 : Fin 4) : Int)).toNat = T.val
    rw [sc53_start1, sc53_window1]; omega
  | ⟨2, _⟩ =>
    show (scatter_S1024x243x17x3_S5x1_S1024x243x5x3_013_2_2_1.start (ix4 b T k c) idx (2 : Fin 4) + (scatter_S1024x243x17x3_S5x1_S1024x243x5x3_013_2_2_1.window (ix4 b T k c) (2 : Fin 4) : Int)).toNat = J.val
    rw [sc53_start2, sc53_window2, hJ]; omega
  | ⟨3, _⟩ =>
    show (scatter_S1024x243x17x3_S5x1_S1024x243x5x3_013_2_2_1.start (ix4 b T k c) idx (3 : Fin 4) + (scatter_S1024x243x17x3_S5x1_S1024x243x5x3_013_2_2_1.window (ix4 b T k c) (3 : Fin 4) : Int)).toNat = c.val
    rw [sc53_start3, sc53_window3]; omega

end sc53

section sc53Sum
variable (x : FVec Ideal S1024x243x17x3 .f32) (idx : IVec S5x1 32) (u : FVec Ideal S1024x243x5x3 .f32)
  (J : Fin 5 → Fin 17) (hJ : ∀ k, (idx (ix2 k 0)).toInt = ((J k).val : Int)) (hinj : Function.Injective J)
include hJ hinj

/-- The scatter at the joint of place `k`: the operand plus the update of that place. -/
theorem sc53_hit (b : Fin 1024) (T : Fin 243) (k : Fin 5) (c : Fin 3) :
    Host.scatterAdd (F := Ideal) scatter_S1024x243x17x3_S5x1_S1024x243x5x3_013_2_2_1 x idx u (ix4 b T (J k) c) = x (ix4 b T (J k) c) + u (ix4 b T k c) := by
  show x _ + ∑ j' ∈ Finset.univ.filter (fun j' => scatter_S1024x243x17x3_S5x1_S1024x243x5x3_013_2_2_1.resultIdx? j' idx = some (ix4 b T (J k) c)), u j' = _
  refine congrArg (x (ix4 b T (J k) c) + ·) ?_
  refine Finset.sum_eq_single_of_mem (ix4 b T k c) ?_ ?_
  · exact Finset.mem_filter.2 ⟨Finset.mem_univ _, sc53_resultIdx idx b T k c (J k) (hJ k)⟩
  · intro j' hj' hne
    exfalso
    obtain ⟨b', T', k', c', rfl⟩ : ∃ (b' : Fin 1024) (T' : Fin 243) (k' : Fin 5) (c' : Fin 3), j' = ix4 b' T' k' c' :=
      ⟨j' 0, j' 1, j' 2, j' 3, eq_ix4 j'⟩
    have h := (Finset.mem_filter.1 hj').2
    rw [sc53_resultIdx idx b' T' k' c' (J k') (hJ k')] at h
    obtain ⟨h0, h1, h2, h3⟩ := ix4_inj (Option.some.inj h)
    exact hne (by rw [h0, h1, hinj h2, h3])

/-- The scatter at a joint that is no place's: the operand. -/
theorem sc53_miss (b : Fin 1024) (T : Fin 243) (j : Fin 17) (c : Fin 3) (hj : ∀ k, J k ≠ j) :
    Host.scatterAdd (F := Ideal) scatter_S1024x243x17x3_S5x1_S1024x243x5x3_013_2_2_1 x idx u (ix4 b T j c) = x (ix4 b T j c) := by
  show x _ + ∑ j' ∈ Finset.univ.filter (fun j' => scatter_S1024x243x17x3_S5x1_S1024x243x5x3_013_2_2_1.resultIdx? j' idx = some (ix4 b T j c)), u j' = _
  rw [Finset.sum_eq_zero, add_zero]
  intro j' hj'
  exfalso
  obtain ⟨b', T', k', c', rfl⟩ : ∃ (b' : Fin 1024) (T' : Fin 243) (k' : Fin 5) (c' : Fin 3), j' = ix4 b' T' k' c' :=
    ⟨j' 0, j' 1, j' 2, j' 3, eq_ix4 j'⟩
  have h := (Finset.mem_filter.1 hj').2
  rw [sc53_resultIdx idx b' T' k' c' (J k') (hJ k')] at h
  exact hj k' (ix4_inj (Option.some.inj h)).2.2.1

end sc53Sum

/-! ### Updates S1024x243x5x1 into S1024x243x17x1 (5 places, 1 channel) -/

section sc51
variable (idx : IVec S5x1 32) (b : Fin 1024) (T : Fin 243) (k : Fin 5) (c : Fin 1)

/-- The window starts at 0 on the axes the index array does not name … -/
theorem sc51_start0 : scatter_S1024x243x17x1_S5x1_S1024x243x5x1_013_2_2_1.start (ix4 b T k c) idx (0 : Fin 4) = 0 := by
  unfold ScatterDims.start
  rw [dif_neg (show ¬(0 : Fin S1024x243x17x1.rank) ∈ scatter_S1024x243x17x1_S5x1_S1024x243x5x1_013_2_2_1.scatterDimsToOperandDims from (by decide : ¬(0 : Fin 4) ∈ ([2] : List (Fin 4))))]
theorem sc51_start1 : scatter_S1024x243x17x1_S5x1_S1024x243x5x1_013_2_2_1.start (ix4 b T k c) idx (1 : Fin 4) = 0 := by
  unfold ScatterDims.start
  rw [dif_neg (show ¬(1 : Fin S1024x243x17x1.rank) ∈ scatter_S1024x243x17x1_S5x1_S1024x243x5x1_013_2_2_1.scatterDimsToOperandDims from (by decide : ¬(1 : Fin 4) ∈ ([2] : List (Fin 4))))]
theorem sc51_start3 : scatter_S1024x243x17x1_S5x1_S1024x243x5x1_013_2_2_1.start (ix4 b T k c) idx (3 : Fin 4) = 0 := by
  unfold ScatterDims.start
  rw [dif_neg (show ¬(3 : Fin S1024x243x17x1.rank) ∈ scatter_S1024x243x17x1_S5x1_S1024x243x5x1_013_2_2_1.scatterDimsToOperandDims from (by decide : ¬(3 : Fin 4) ∈ ([2] : List (Fin 4))))]
/-- … and on the joint axis at the index array's entry for place `k`, read signed. -/
theorem sc51_start2 : scatter_S1024x243x17x1_S5x1_S1024x243x5x1_013_2_2_1.start (ix4 b T k c) idx (2 : Fin 4) = (idx (ix2 k 0)).toInt := by
  unfold ScatterDims.start
  rw [dif_pos (show (2 : Fin S1024x243x17x1.rank) ∈ scatter_S1024x243x17x1_S5x1_S1024x243x5x1_013_2_2_1.scatterDimsToOperandDims from (by decide : (2 : Fin 4) ∈ ([2] : List (Fin 4))))]
  have hsi : scatter_S1024x243x17x1_S5x1_S1024x243x5x1_013_2_2_1.siIdx (ix4 b T k c)
      ⟨List.idxOf (2 : Fin S1024x243x17x1.rank) scatter_S1024x243x17x1_S5x1_S1024x243x5x1_013_2_2_1.scatterDimsToOperandDims, List.idxOf_lt_length_iff.2 (by decide : (2 : Fin 4) ∈ ([2] : List (Fin 4)))⟩ = ix2 k 0 := by
    funext a; refine Fin.ext ?_
    match a with
    | ⟨0, _⟩ => rfl
    | ⟨1, _⟩ => rfl
  rw [hsi]
/-- The coordinate inside the window: the update's own coordinate on the window axes, 0 on the joint axis. -/
theorem sc51_window0 : scatter_S1024x243x17x1_S5x1_S1024x243x5x1_013_2_2_1.window (ix4 b T k c) (0 : Fin 4) = b.val := rfl
theorem sc51_window1 : scatter_S1024x243x17x1_S5x1_S1024x243x5x1_013_2_2_1.window (ix4 b T k c) (1 : Fin 4) = T.val := rfl
theorem sc51_window2 : scatter_S1024x243x17x1_S5x1_S1024x243x5x1_013_2_2_1.window (ix4 b T k c) (2 : Fin 4) = 0 := rfl
theorem sc51_window3 : scatter_S1024x243x17x1_S5x1_S1024x243x5x1_013_2_2_1.window (ix4 b T k c) (3 : Fin 4) = c.val := rfl

/-- Update element (b, T, k, c) lands on operand element (b, T, J, c), `J` the joint the index array holds for place `k`. -/
theorem sc51_resultIdx (J : Fin 17) (hJ : (idx (ix2 k 0)).toInt = (J.val : Int)) :
    scatter_S1024x243x17x1_S5x1_S1024x243x5x1_013_2_2_1.resultIdx? (ix4 b T k c) idx = some (ix4 b T J c) := by
  have hall : ∀ a, 0 ≤ scatter_S1024x243x17x1_S5x1_S1024x243x5x1_013_2_2_1.start (ix4 b T k c) idx a + (scatter_S1024x243x17x1_S5x1_S1024x243x5x1_013_2_2_1.window (ix4 b T k c) a : Int) ∧
      scatter_S1024x243x17x1_S5x1_S1024x243x5x1_013_2_2_1.start (ix4 b T k c) idx a + (scatter_S1024x243x17x1_S5x1_S1024x243x5x1_013_2_2_1.window (ix4 b T k c) a : Int) < (S1024x243x17x1.size a : Int) := by
    intro a
    match a with
    | ⟨0, _⟩ =>
      show 0 ≤ scatter_S1024x243x17x1_S5x1_S1024x243x5x1_013_2_2_1.start (ix4 b T k c) idx (0 : Fin 4) + (scatter_S1024x243x17x1_S5x1_S1024x243x5x1_013_2_2_1.window (ix4 b T k c) (0 : Fin 4) : Int) ∧
        scatter_S1024x243x17x1_S5x1_S1024x243x5x1_013_2_2_1.start (ix4 b T k c) idx (0 : Fin 4) + (scatter_S1024x243x17x1_S5x1_S1024x243x5x1_013_2_2_1.window (ix4 b T k c) (0 : Fin 4) : Int) < ((1024 : Nat) : Int)
      rw [sc51_start0, sc51_window0]; have := b.isLt; omega
    | ⟨1, _⟩ =>
      show 0 ≤ scatter_S1024x243x17x1_S5x1_S1024x243x5x1_013_2_2_1.start (ix4 b T k c) idx (1 : Fin 4) + (scatter_S1024x243x17x1_S5x1_S1024x243x5x1_013_2_2_1.window (ix4 b T k c) (1 : Fin 4) : Int) ∧
        scatter_S1024x243x17x1_S5x1_S1024x243x5x1_013_2_2_1.start (ix4 b T k c) idx (1 : Fin 4) + (scatter_S1024x243x17x1_S5x1_S1024x243x5x1_013_2_2_1.window (ix4 b T k c) (1 : Fin 4) : Int) < ((243 : Nat) : Int)
      rw [sc51_start1, sc51_window1]; have := T.isLt; omega
    | ⟨2, _⟩ =>
      show 0 ≤ scatter_S1024x243x17x1_S5x1_S1024x243x5x1_013_2_2_1.start (ix4 b T k c) idx (2 : Fin 4) + (scatter_S1024x243x17x1_S5x1_S1024x243x5x1_013_2_2_1.window (ix4 b T k c) (2 : Fin 4) : Int) ∧
        scatter_S1024x243x17x1_S5x1_S1024x243x5x1_013_2_2_1.start (ix4 b T k c) idx (2 : Fin 4) + (scatter_S1024x243x17x1_S5x1_S1024x243x5x1_013_2_2_1.window (ix4 b T k c) (2 : Fin 4) : Int) < ((17 : Nat) : Int)
      rw [sc51_start2, sc51_window2, hJ]; have := J.isLt; omega
    | ⟨3, _⟩ =>
      show 0 ≤ scatter_S1024x243x17x1_S5x1_S1024x243x5x1_013_2_2_1.start (ix4 b T k c) idx (3 : Fin 4) + (scatter_S1024x243x17x1_S5x1_S1024x243x5x1_013_2_2_1.window (ix4 b T k c) (3 : Fin 4) : Int) ∧
        scatter_S1024x243x17x1_S5x1_S1024x243x5x1_013_2_2_1.start (ix4 b T k c) idx (3 : Fin 4) + (scatter_S1024x243x17x1_S5x1_S1024x243x5x1_013_2_2_1.window (ix4 b T k c) (3 : Fin 4) : Int) < ((1 : Nat) : Int)
      rw [sc51_start3, sc51_window3]; have := c.isLt; omega
  unfold ScatterDims.resultIdx?
  rw [dif_pos hall]
  refine congrArg some (funext fun a => Fin.ext ?_)
  match a with
  | ⟨0, _⟩ =>
    show (scatter_S1024x243x17x1_S5x1_S1024x243x5x1_013_2_2_1.start (ix4 b T k c) idx (0 : Fin 4) + (scatter_S1024x243x17x1_S5x1_S1024x243x5x1_013_2_2_1.window (ix4 b T k c) (0 : Fin 4) : Int)).toNat = b.val
    rw [sc51_start0, sc51_window0]; omega
  | ⟨1, _⟩ =>
    show (scatter_S1024x243x17x1_S5x1_S1024x243x5x1_013_2_2_1.start (ix4 b T k c) idx (1 : Fin 4) + (scatter_S1024x243x17x1_S5x1_S1024x243x5x1_013_2_2_1.window (ix4 b T k c) (1 : Fin 4) : Int)).toNat = T.val
    rw [sc51_start1, sc51_window1]; omega
  | ⟨2, _⟩ =>
    show (scatter_S1024x243x17x1_S5x1_S1024x243x5x1_013_2_2_1.start (ix4 b T k c) idx (2 : Fin 4) + (scatter_S1024x243x17x1_S5x1_S1024x243x5x1_013_2_2_1.window (ix4 b T k c) (2 : Fin 4) : Int)).toNat = J.val
    rw [sc51_start2, sc51_window2, hJ]; omega
  | ⟨3, _⟩ =>
    show (scatter_S1024x243x17x1_S5x1_S1024x243x5x1_013_2_2_1.start (ix4 b T k c) idx (3 : Fin 4) + (scatter_S1024x243x17x1_S5x1_S1024x243x5x1_013_2_2_1.window (ix4 b T k c) (3 : Fin 4) : Int)).toNat = c.val
    rw [sc51_start3, sc51_window3]; omega

end sc51

section sc51Sum
variable (x : FVec Ideal S1024x243x17x1 .f32) (idx : IVec S5x1 32) (u : FVec Ideal S1024x243x5x1 .f32)
  (J : Fin 5 → Fin 17) (hJ : ∀ k, (idx (ix2 k 0)).toInt = ((J k).val : Int)) (hinj : Function.Injective J)
include hJ hinj

/-- The scatter at the joint of place `k`: the operand plus the update of that place. -/
theorem sc51_hit (b : Fin 1024) (T : Fin 243) (k : Fin 5) (c : Fin 1) :
    Host.scatterAdd (F := Ideal) scatter_S1024x243x17x1_S5x1_S1024x243x5x1_013_2_2_1 x idx u (ix4 b T (J k) c) = x (ix4 b T (J k) c) + u (ix4 b T k c) := by
  show x _ + ∑ j' ∈ Finset.univ.filter (fun j' => scatter_S1024x243x17x1_S5x1_S1024x243x5x1_013_2_2_1.resultIdx? j' idx = some (ix4 b T (J k) c)), u j' = _
  refine congrArg (x (ix4 b T (J k) c) + ·) ?_
  refine Finset.sum_eq_single_of_mem (ix4 b T k c) ?_ ?_
  · exact Finset.mem_filter.2 ⟨Finset.mem_univ _, sc51_resultIdx idx b T k c (J k) (hJ k)⟩
  · intro j' hj' hne
    exfalso
    obtain ⟨b', T', k', c', rfl⟩ : ∃ (b' : Fin 1024) (T' : Fin 243) (k' : Fin 5) (c' : Fin 1), j' = ix4 b' T' k' c' :=
      ⟨j' 0, j' 1, j' 2, j' 3, eq_ix4 j'⟩
    have h := (Finset.mem_filter.1 hj').2
    rw [sc51_resultIdx idx b' T' k' c' (J k') (hJ k')] at h
    obtain ⟨h0, h1, h2, h3⟩ := ix4_inj (Option.some.inj h)
    exact hne (by rw [h0, h1, hinj h2, h3])

/-- The scatter at a joint that is no place's: the operand. -/
theorem sc51_miss (b : Fin 1024) (T : Fin 243) (j : Fin 17) (c : Fin 1) (hj : ∀ k, J k ≠ j) :
    Host.scatterAdd (F := Ideal) scatter_S1024x243x17x1_S5x1_S1024x243x5x1_013_2_2_1 x idx u (ix4 b T j c) = x (ix4 b T j c) := by
  show x _ + ∑ j' ∈ Finset.univ.filter (fun j' => scatter_S1024x243x17x1_S5x1_S1024x243x5x1_013_2_2_1.resultIdx? j' idx = some (ix4 b T j c)), u j' = _
  rw [Finset.sum_eq_zero, add_zero]
  intro j' hj'
  exfalso
  obtain ⟨b', T', k', c', rfl⟩ : ∃ (b' : Fin 1024) (T' : Fin 243) (k' : Fin 5) (c' : Fin 1), j' = ix4 b' T' k' c' :=
    ⟨j' 0, j' 1, j' 2, j' 3, eq_ix4 j'⟩
  have h := (Finset.mem_filter.1 hj').2
  rw [sc51_resultIdx idx b' T' k' c' (J k') (hJ k')] at h
  exact hj k' (ix4_inj (Option.some.inj h)).2.2.1

end sc51Sum

end Cert.ReferenceIdeal.RefValue

end
-- ==== Proof.RefIndex.lean ====
/-
  The reference's scatter index arrays are the joints of the five groups.

  Each index array is a column [gs, 1] made from the group's literal joint table: an entry below zero would have 17 added
  (none is), and the table is broadcast to a column. Read as signed integers the entries are the joints
  {1, 2, 3}, {4, 5, 6}, {0, 7, 8, 9, 10}, {11, 12, 13}, {14, 15, 16}: inside a group the joints are pairwise different, two
  groups share no joint, and every joint 0 … 16 lies in one of them.
-/
import proofs.«135711_j69887707841118_2_alg».proof.Proof.RefTerm
import Idealize.ShloMosaic.Lib.ValueIdx

noncomputable section

namespace Cert.ReferenceIdeal.RefValue

open Idealize.ShloMosaic Idealize.ShloMosaic.ValueIdx Cert.ReferenceIdeal

/-- The joint at place `k` of group 0 … -/
def J0 (k : Fin 3) : Fin 17 := ⟨k.val + 1, by omega⟩
/-- … of group 1 … -/
def J1 (k : Fin 3) : Fin 17 := ⟨k.val + 4, by omega⟩
/-- … of group 2 (joint 0, then joints 7 … 10) … -/
def J2 (k : Fin 5) : Fin 17 := ⟨if k.val = 0 then 0 else k.val + 6, by split <;> omega⟩
/-- … of group 3 … -/
def J3 (k : Fin 3) : Fin 17 := ⟨k.val + 11, by omega⟩
/-- … and of group 4. -/
def J4 (k : Fin 3) : Fin 17 := ⟨k.val + 14, by omega⟩

theorem J0_inj : Function.Injective J0 := by decide
theorem J1_inj : Function.Injective J1 := by decide
theorem J2_inj : Function.Injective J2 := by decide
theorem J3_inj : Function.Injective J3 := by decide
theorem J4_inj : Function.Injective J4 := by decide

/-- Two groups share no joint. -/
theorem J_disjoint :
    (∀ k k', J0 k ≠ J1 k') ∧ (∀ k k', J0 k ≠ J2 k') ∧ (∀ k k', J0 k ≠ J3 k') ∧ (∀ k k', J0 k ≠ J4 k') ∧
    (∀ k k', J1 k ≠ J2 k') ∧ (∀ k k', J1 k ≠ J3 k') ∧ (∀ k k', J1 k ≠ J4 k') ∧
    (∀ k k', J2 k ≠ J3 k') ∧ (∀ k k', J2 k ≠ J4 k') ∧ (∀ k k', J3 k ≠ J4 k') := by decide

/-- Every joint lies in a group. -/
theorem J_cover (j : Fin 17) :
    (∃ k, J0 k = j) ∨ (∃ k, J1 k = j) ∨ (∃ k, J2 k = j) ∨ (∃ k, J3 k = j) ∨ (∃ k, J4 k = j) := by
  revert j; decide

variable [Facts]

/-- The index arrays' entries, read signed, are the joints. -/
theorem idx0_toInt (k : Fin 3) : (RefTerm.idx0 (ix2 k (0 : Fin 1))).toInt = ((J0 k).val : Int) := by
  match k with
  | ⟨0, _⟩ => rfl
  | ⟨1, _⟩ => rfl
  | ⟨2, _⟩ => rfl
theorem idx1_toInt (k : Fin 3) : (RefTerm.idx1 (ix2 k (0 : Fin 1))).toInt = ((J1 k).val : Int) := by
  match k with
  | ⟨0, _⟩ => rfl
  | ⟨1, _⟩ => rfl
  | ⟨2, _⟩ => rfl
theorem idx2_toInt (k : Fin 5) : (RefTerm.idx2 (ix2 k (0 : Fin 1))).toInt = ((J2 k).val : Int) := by
  match k with
  | ⟨0, _⟩ => rfl
  | ⟨1, _⟩ => rfl
  | ⟨2, _⟩ => rfl
  | ⟨3, _⟩ => rfl
  | ⟨4, _⟩ => rfl
theorem idx3_toInt (k : Fin 3) : (RefTerm.idx3 (ix2 k (0 : Fin 1))).toInt = ((J3 k).val : Int) := by
  match k with
  | ⟨0, _⟩ => rfl
  | ⟨1, _⟩ => rfl
  | ⟨2, _⟩ => rfl
theorem idx4_toInt (k : Fin 3) : (RefTerm.idx4 (ix2 k (0 : Fin 1))).toInt = ((J4 k).val : Int) := by
  match k with
  | ⟨0, _⟩ => rfl
  | ⟨1, _⟩ => rfl
  | ⟨2, _⟩ => rfl

end Cert.ReferenceIdeal.RefValue

end
-- ==== Proof.RefNest.lean ====
/-
  The five scatters one after another, read at an index on the extended reals.

  The reference adds the five groups' updates into one array, group after group. The groups share no joint, so at a joint of
  group `i` four of the five scatters leave the element as it is and group `i`'s adds its update at the joint's place: the
  result there is the starting array's element plus that one update.
-/
import proofs.«135711_j69887707841118_2_alg».proof.Proof.RefScatter
import proofs.«135711_j69887707841118_2_alg».proof.Proof.RefIndex

noncomputable section

namespace Cert.ReferenceIdeal.RefValue

open Idealize.ShloMosaic Idealize.ShloMosaic.ValueIdx Cert.ReferenceIdeal

theorem J_ne_01 : ∀ k k', J0 k ≠ J1 k' := J_disjoint.1
theorem J_ne_02 : ∀ k k', J0 k ≠ J2 k' := J_disjoint.2.1
theorem J_ne_03 : ∀ k k', J0 k ≠ J3 k' := J_disjoint.2.2.1
theorem J_ne_04 : ∀ k k', J0 k ≠ J4 k' := J_disjoint.2.2.2.1
theorem J_ne_12 : ∀ k k', J1 k ≠ J2 k' := J_disjoint.2.2.2.2.1
theorem J_ne_13 : ∀ k k', J1 k ≠ J3 k' := J_disjoint.2.2.2.2.2.1
theorem J_ne_14 : ∀ k k', J1 k ≠ J4 k' := J_disjoint.2.2.2.2.2.2.1
theorem J_ne_23 : ∀ k k', J2 k ≠ J3 k' := J_disjoint.2.2.2.2.2.2.2.1
theorem J_ne_24 : ∀ k k', J2 k ≠ J4 k' := J_disjoint.2.2.2.2.2.2.2.2.1
theorem J_ne_34 : ∀ k k', J3 k ≠ J4 k' := J_disjoint.2.2.2.2.2.2.2.2.2

variable [Facts]

/-! ### The three channels: the updates -/

section Nest3
variable (z : FVec Ideal S1024x243x17x3 .f32) (i0 i1 : IVec S3x1 32) (i2 : IVec S5x1 32) (i3 i4 : IVec S3x1 32)
  (u0 u1 : FVec Ideal S1024x243x3x3 .f32) (u2 : FVec Ideal S1024x243x5x3 .f32) (u3 u4 : FVec Ideal S1024x243x3x3 .f32)
  (h0 : ∀ k, (i0 (ix2 k (0 : Fin 1))).toInt = ((J0 k).val : Int)) (h1 : ∀ k, (i1 (ix2 k (0 : Fin 1))).toInt = ((J1 k).val : Int))
  (h2 : ∀ k, (i2 (ix2 k (0 : Fin 1))).toInt = ((J2 k).val : Int)) (h3 : ∀ k, (i3 (ix2 k (0 : Fin 1))).toInt = ((J3 k).val : Int))
  (h4 : ∀ k, (i4 (ix2 k (0 : Fin 1))).toInt = ((J4 k).val : Int))
include h0 h1 h2 h3 h4

/-- At a joint of group 0 only group 0's scatter adds something: its update at the joint's place. -/
theorem nest3_g0 (b : Fin 1024) (T : Fin 243) (k : Fin 3) (c : Fin 3) :
    Host.scatterAdd (F := Ideal) (φ := .f32) scatter_S1024x243x17x3_S3x1_S1024x243x3x3_013_2_2_1 (Host.scatterAdd (F := Ideal) (φ := .f32) scatter_S1024x243x17x3_S3x1_S1024x243x3x3_013_2_2_1 (Host.scatterAdd (F := Ideal) (φ := .f32) scatter_S1024x243x17x3_S5x1_S1024x243x5x3_013_2_2_1 (Host.scatterAdd (F := Ideal) (φ := .f32) scatter_S1024x243x17x3_S3x1_S1024x243x3x3_013_2_2_1 (Host.scatterAdd (F := Ideal) (φ := .f32) scatter_S1024x243x17x3_S3x1_S1024x243x3x3_013_2_2_1 (z) i0 u0) i1 u1) i2 u2) i3 u3) i4 u4 (ix4 b T (J0 k) c)
      = z (ix4 b T (J0 k) c) + u0 (ix4 b T k c) := by
  rw [sc33_miss _ i4 u4 J4 h4 J4_inj b T (J0 k) c (fun k' => (J_ne_04 k k').symm),
    sc33_miss _ i3 u3 J3 h3 J3_inj b T (J0 k) c (fun k' => (J_ne_03 k k').symm),
    sc53_miss _ i2 u2 J2 h2 J2_inj b T (J0 k) c (fun k' => (J_ne_02 k k').symm),
    sc33_miss _ i1 u1 J1 h1 J1_inj b T (J0 k) c (fun k' => (J_ne_01 k k').symm),
    sc33_hit _ i0 u0 J0 h0 J0_inj b T k c]

/-- At a joint of group 1 only group 1's scatter adds something: its update at the joint's place. -/
theorem nest3_g1 (b : Fin 1024) (T : Fin 243) (k : Fin 3) (c : Fin 3) :
    Host.scatterAdd (F := Ideal) (φ := .f32) scatter_S1024x243x17x3_S3x1_S1024x243x3x3_013_2_2_1 (Host.scatterAdd (F := Ideal) (φ := .f32) scatter_S1024x243x17x3_S3x1_S1024x243x3x3_013_2_2_1 (Host.scatterAdd (F := Ideal) (φ := .f32) scatter_S1024x243x17x3_S5x1_S1024x243x5x3_013_2_2_1 (Host.scatterAdd (F := Ideal) (φ := .f32) scatter_S1024x243x17x3_S3x1_S1024x243x3x3_013_2_2_1 (Host.scatterAdd (F := Ideal) (φ := .f32) scatter_S1024x243x17x3_S3x1_S1024x243x3x3_013_2_2_1 (z) i0 u0) i1 u1) i2 u2) i3 u3) i4 u4 (ix4 b T (J1 k) c)
      = z (ix4 b T (J1 k) c) + u1 (ix4 b T k c) := by
  rw [sc33_miss _ i4 u4 J4 h4 J4_inj b T (J1 k) c (fun k' => (J_ne_14 k k').symm),
    sc33_miss _ i3 u3 J3 h3 J3_inj b T (J1 k) c (fun k' => (J_ne_13 k k').symm),
    sc53_miss _ i2 u2 J2 h2 J2_inj b T (J1 k) c (fun k' => (J_ne_12 k k').symm),
    sc33_hit _ i1 u1 J1 h1 J1_inj b T k c,
    sc33_miss _ i0 u0 J0 h0 J0_inj b T (J1 k) c (fun k' => J_ne_01 k' k)]

/-- At a joint of group 2 only group 2's scatter adds something: its update at the joint's place. -/
theorem nest3_g2 (b : Fin 1024) (T : Fin 243) (k : Fin 5) (c : Fin 3) :
    Host.scatterAdd (F := Ideal) (φ := .f32) scatter_S1024x243x17x3_S3x1_S1024x243x3x3_013_2_2_1 (Host.scatterAdd (F := Ideal) (φ := .f32) scatter_S1024x243x17x3_S3x1_S1024x243x3x3_013_2_2_1 (Host.scatterAdd (F := Ideal) (φ := .f32) scatter_S1024x243x17x3_S5x1_S1024x243x5x3_013_2_2_1 (Host.scatterAdd (F := Ideal) (φ := .f32) scatter_S1024x243x17x3_S3x1_S1024x243x3x3_013_2_2_1 (Host.scatterAdd (F := Ideal) (φ := .f32) scatter_S1024x243x17x3_S3x1_S1024x243x3x3_013_2_2_1 (z) i0 u0) i1 u1) i2 u2) i3 u3) i4 u4 (ix4 b T (J2 k) c)
      = z (ix4 b T (J2 k) c) + u2 (ix4 b T k c) := by
  rw [sc33_miss _ i4 u4 J4 h4 J4_inj b T (J2 k) c (fun k' => (J_ne_24 k k').symm),
    sc33_miss _ i3 u3 J3 h3 J3_inj b T (J2 k) c (fun k' => (J_ne_23 k k').symm),
    sc53_hit _ i2 u2 J2 h2 J2_inj b T k c,
    sc33_miss _ i1 u1 J1 h1 J1_inj b T (J2 k) c (fun k' => J_ne_12 k' k),
    sc33_miss _ i0 u0 J0 h0 J0_inj b T (J2 k) c (fun k' => J_ne_02 k' k)]

/-- At a joint of group 3 only group 3's scatter adds something: its update at the joint's place. -/
theorem nest3_g3 (b : Fin 1024) (T : Fin 243) (k : Fin 3) (c : Fin 3) :
    Host.scatterAdd (F := Ideal) (φ := .f32) scatter_S1024x243x17x3_S3x1_S1024x243x3x3_013_2_2_1 (Host.scatterAdd (F := Ideal) (φ := .f32) scatter_S1024x243x17x3_S3x1_S1024x243x3x3_013_2_2_1 (Host.scatterAdd (F := Ideal) (φ := .f32) scatter_S1024x243x17x3_S5x1_S1024x243x5x3_013_2_2_1 (Host.scatterAdd (F := Ideal) (φ := .f32) scatter_S1024x243x17x3_S3x1_S1024x243x3x3_013_2_2_1 (Host.scatterAdd (F := Ideal) (φ := .f32) scatter_S1024x243x17x3_S3x1_S1024x243x3x3_013_2_2_1 (z) i0 u0) i1 u1) i2 u2) i3 u3) i4 u4 (ix4 b T (J3 k) c)
      = z (ix4 b T (J3 k) c) + u3 (ix4 b T k c) := by
  rw [sc33_miss _ i4 u4 J4 h4 J4_inj b T (J3 k) c (fun k' => (J_ne_34 k k').symm),
    sc33_hit _ i3 u3 J3 h3 J3_inj b T k c,
    sc53_miss _ i2 u2 J2 h2 J2_inj b T (J3 k) c (fun k' => J_ne_23 k' k),
    sc33_miss _ i1 u1 J1 h1 J1_inj b T (J3 k) c (fun k' => J_ne_13 k' k),
    sc33_miss _ i0 u0 J0 h0 J0_inj b T (J3 k) c (fun k' => J_ne_03 k' k)]

/-- At a joint of group 4 only group 4's scatter adds something: its update at the joint's place. -/
theorem nest3_g4 (b : Fin 1024) (T : Fin 243) (k : Fin 3) (c : Fin 3) :
    Host.scatterAdd (F := Ideal) (φ := .f32) scatter_S1024x243x17x3_S3x1_S1024x243x3x3_013_2_2_1 (Host.scatterAdd (F := Ideal) (φ := .f32) scatter_S1024x243x17x3_S3x1_S1024x243x3x3_013_2_2_1 (Host.scatterAdd (F := Ideal) (φ := .f32) scatter_S1024x243x17x3_S5x1_S1024x243x5x3_013_2_2_1 (Host.scatterAdd (F := Ideal) (φ := .f32) scatter_S1024x243x17x3_S3x1_S1024x243x3x3_013_2_2_1 (Host.scatterAdd (F := Ideal) (φ := .f32) scatter_S1024x243x17x3_S3x1_S1024x243x3x3_013_2_2_1 (z) i0 u0) i1 u1) i2 u2) i3 u3) i4 u4 (ix4 b T (J4 k) c)
      = z (ix4 b T (J4 k) c) + u4 (ix4 b T k c) := by
  rw [sc33_hit _ i4 u4 J4 h4 J4_inj b T k c,
    sc33_miss _ i3 u3 J3 h3 J3_inj b T (J4 k) c (fun k' => J_ne_34 k' k),
    sc53_miss _ i2 u2 J2 h2 J2_inj b T (J4 k) c (fun k' => J_ne_24 k' k),
    sc33_miss _ i1 u1 J1 h1 J1_inj b T (J4 k) c (fun k' => J_ne_14 k' k),
    sc33_miss _ i0 u0 J0 h0 J0_inj b T (J4 k) c (fun k' => J_ne_04 k' k)]

end Nest3

/-! ### One channel: the counts -/

section Nest1
variable (z : FVec Ideal S1024x243x17x1 .f32) (i0 i1 : IVec S3x1 32) (i2 : IVec S5x1 32) (i3 i4 : IVec S3x1 32)
  (u0 u1 : FVec Ideal S1024x243x3x1 .f32) (u2 : FVec Ideal S1024x243x5x1 .f32) (u3 u4 : FVec Ideal S1024x243x3x1 .f32)
  (h0 : ∀ k, (i0 (ix2 k (0 : Fin 1))).toInt = ((J0 k).val : Int)) (h1 : ∀ k, (i1 (ix2 k (0 : Fin 1))).toInt = ((J1 k).val : Int))
  (h2 : ∀ k, (i2 (ix2 k (0 : Fin 1))).toInt = ((J2 k).val : Int)) (h3 : ∀ k, (i3 (ix2 k (0 : Fin 1))).toInt = ((J3 k).val : Int))
  (h4 : ∀ k, (i4 (ix2 k (0 : Fin 1))).toInt = ((J4 k).val : Int))
include h0 h1 h2 h3 h4

/-- At a joint of group 0 only group 0's scatter adds something: its update at the joint's place. -/
theorem nest1_g0 (b : Fin 1024) (T : Fin 243) (k : Fin 3) (c : Fin 1) :
    Host.scatterAdd (F := Ideal) (φ := .f32) scatter_S1024x243x17x1_S3x1_S1024x243x3x1_013_2_2_1 (Host.scatterAdd (F := Ideal) (φ := .f32) scatter_S1024x243x17x1_S3x1_S1024x243x3x1_013_2_2_1 (Host.scatterAdd (F := Ideal) (φ := .f32) scatter_S1024x243x17x1_S5x1_S1024x243x5x1_013_2_2_1 (Host.scatterAdd (F := Ideal) (φ := .f32) scatter_S1024x243x17x1_S3x1_S1024x243x3x1_013_2_2_1 (Host.scatterAdd (F := Ideal) (φ := .f32) scatter_S1024x243x17x1_S3x1_S1024x243x3x1_013_2_2_1 (z) i0 u0) i1 u1) i2 u2) i3 u3) i4 u4 (ix4 b T (J0 k) c)
      = z (ix4 b T (J0 k) c) + u0 (ix4 b T k c) := by
  rw [sc31_miss _ i4 u4 J4 h4 J4_inj b T (J0 k) c (fun k' => (J_ne_04 k k').symm),
    sc31_miss _ i3 u3 J3 h3 J3_inj b T (J0 k) c (fun k' => (J_ne_03 k k').symm),
    sc51_miss _ i2 u2 J2 h2 J2_inj b T (J0 k) c (fun k' => (J_ne_02 k k').symm),
    sc31_miss _ i1 u1 J1 h1 J1_inj b T (J0 k) c (fun k' => (J_ne_01 k k').symm),
    sc31_hit _ i0 u0 J0 h0 J0_inj b T k c]

/-- At a joint of group 1 only group 1's scatter adds something: its update at the joint's place. -/
theorem nest1_g1 (b : Fin 1024) (T : Fin 243) (k : Fin 3) (c : Fin 1) :
    Host.scatterAdd (F := Ideal) (φ := .f32) scatter_S1024x243x17x1_S3x1_S1024x243x3x1_013_2_2_1 (Host.scatterAdd (F := Ideal) (φ := .f32) scatter_S1024x243x17x1_S3x1_S1024x243x3x1_013_2_2_1 (Host.scatterAdd (F := Ideal) (φ := .f32) scatter_S1024x243x17x1_S5x1_S1024x243x5x1_013_2_2_1 (Host.scatterAdd (F := Ideal) (φ := .f32) scatter_S1024x243x17x1_S3x1_S1024x243x3x1_013_2_2_1 (Host.scatterAdd (F := Ideal) (φ := .f32) scatter_S1024x243x17x1_S3x1_S1024x243x3x1_013_2_2_1 (z) i0 u0) i1 u1) i2 u2) i3 u3) i4 u4 (ix4 b T (J1 k) c)
      = z (ix4 b T (J1 k) c) + u1 (ix4 b T k c) := by
  rw [sc31_miss _ i4 u4 J4 h4 J4_inj b T (J1 k) c (fun k' => (J_ne_14 k k').symm),
    sc31_miss _ i3 u3 J3 h3 J3_inj b T (J1 k) c (fun k' => (J_ne_13 k k').symm),
    sc51_miss _ i2 u2 J2 h2 J2_inj b T (J1 k) c (fun k' => (J_ne_12 k k').symm),
    sc31_hit _ i1 u1 J1 h1 J1_inj b T k c,
    sc31_miss _ i0 u0 J0 h0 J0_inj b T (J1 k) c (fun k' => J_ne_01 k' k)]

/-- At a joint of group 2 only group 2's scatter adds something: its update at the joint's place. -/
theorem nest1_g2 (b : Fin 1024) (T : Fin 243) (k : Fin 5) (c : Fin 1) :
    Host.scatterAdd (F := Ideal) (φ := .f32) scatter_S1024x243x17x1_S3x1_S1024x243x3x1_013_2_2_1 (Host.scatterAdd (F := Ideal) (φ := .f32) scatter_S1024x243x17x1_S3x1_S1024x243x3x1_013_2_2_1 (Host.scatterAdd (F := Ideal) (φ := .f32) scatter_S1024x243x17x1_S5x1_S1024x243x5x1_013_2_2_1 (Host.scatterAdd (F := Ideal) (φ := .f32) scatter_S1024x243x17x1_S3x1_S1024x243x3x1_013_2_2_1 (Host.scatterAdd (F := Ideal) (φ := .f32) scatter_S1024x243x17x1_S3x1_S1024x243x3x1_013_2_2_1 (z) i0 u0) i1 u1) i2 u2) i3 u3) i4 u4 (ix4 b T (J2 k) c)
      = z (ix4 b T (J2 k) c) + u2 (ix4 b T k c) := by
  rw [sc31_miss _ i4 u4 J4 h4 J4_inj b T (J2 k) c (fun k' => (J_ne_24 k k').symm),
    sc31_miss _ i3 u3 J3 h3 J3_inj b T (J2 k) c (fun k' => (J_ne_23 k k').symm),
    sc51_hit _ i2 u2 J2 h2 J2_inj b T k c,
    sc31_miss _ i1 u1 J1 h1 J1_inj b T (J2 k) c (fun k' => J_ne_12 k' k),
    sc31_miss _ i0 u0 J0 h0 J0_inj b T (J2 k) c (fun k' => J_ne_02 k' k)]

/-- At a joint of group 3 only group 3's scatter adds something: its update at the joint's place. -/
theorem nest1_g3 (b : Fin 1024) (T : Fin 243) (k : Fin 3) (c : Fin 1) :
    Host.scatterAdd (F := Ideal) (φ := .f32) scatter_S1024x243x17x1_S3x1_S1024x243x3x1_013_2_2_1 (Host.scatterAdd (F := Ideal) (φ := .f32) scatter_S1024x243x17x1_S3x1_S1024x243x3x1_013_2_2_1 (Host.scatterAdd (F := Ideal) (φ := .f32) scatter_S1024x243x17x1_S5x1_S1024x243x5x1_013_2_2_1 (Host.scatterAdd (F := Ideal) (φ := .f32) scatter_S1024x243x17x1_S3x1_S1024x243x3x1_013_2_2_1 (Host.scatterAdd (F := Ideal) (φ := .f32) scatter_S1024x243x17x1_S3x1_S1024x243x3x1_013_2_2_1 (z) i0 u0) i1 u1) i2 u2) i3 u3) i4 u4 (ix4 b T (J3 k) c)
      = z (ix4 b T (J3 k) c) + u3 (ix4 b T k c) := by
  rw [sc31_miss _ i4 u4 J4 h4 J4_inj b T (J3 k) c (fun k' => (J_ne_34 k k').symm),
    sc31_hit _ i3 u3 J3 h3 J3_inj b T k c,
    sc51_miss _ i2 u2 J2 h2 J2_inj b T (J3 k) c (fun k' => J_ne_23 k' k),
    sc31_miss _ i1 u1 J1 h1 J1_inj b T (J3 k) c (fun k' => J_ne_13 k' k),
    sc31_miss _ i0 u0 J0 h0 J0_inj b T (J3 k) c (fun k' => J_ne_03 k' k)]

/-- At a joint of group 4 only group 4's scatter adds something: its update at the joint's place. -/
theorem nest1_g4 (b : Fin 1024) (T : Fin 243) (k : Fin 3) (c : Fin 1) :
    Host.scatterAdd (F := Ideal) (φ := .f32) scatter_S1024x243x17x1_S3x1_S1024x243x3x1_013_2_2_1 (Host.scatterAdd (F := Ideal) (φ := .f32) scatter_S1024x243x17x1_S3x1_S1024x243x3x1_013_2_2_1 (Host.scatterAdd (F := Ideal) (φ := .f32) scatter_S1024x243x17x1_S5x1_S1024x243x5x1_013_2_2_1 (Host.scatterAdd (F := Ideal) (φ := .f32) scatter_S1024x243x17x1_S3x1_S1024x243x3x1_013_2_2_1 (Host.scatterAdd (F := Ideal) (φ := .f32) scatter_S1024x243x17x1_S3x1_S1024x243x3x1_013_2_2_1 (z) i0 u0) i1 u1) i2 u2) i3 u3) i4 u4 (ix4 b T (J4 k) c)
      = z (ix4 b T (J4 k) c) + u4 (ix4 b T k c) := by
  rw [sc31_hit _ i4 u4 J4 h4 J4_inj b T k c,
    sc31_miss _ i3 u3 J3 h3 J3_inj b T (J4 k) c (fun k' => J_ne_34 k' k),
    sc51_miss _ i2 u2 J2 h2 J2_inj b T (J4 k) c (fun k' => J_ne_24 k' k),
    sc31_miss _ i1 u1 J1 h1 J1_inj b T (J4 k) c (fun k' => J_ne_14 k' k),
    sc31_miss _ i0 u0 J0 h0 J0_inj b T (J4 k) c (fun k' => J_ne_04 k' k)]

end Nest1

end Cert.ReferenceIdeal.RefValue

end
-- ==== Proof.RefValue.lean ====
/-
  The reference computes the specification.

  At (b, T, j, c), with j the joint at place k of group i: the five scatters leave 0 + (group i's head at row
  (T mod 9)·(gs·3) + k·3 + c, batch row b, patch T / 9); the count there is 0 + 1, clipped below at one it is 1, and dividing by
  1 changes nothing on the extended reals. The specification reads lane 3·j + c of time step T mod 9, which is the same row of
  the same group. Every joint lies in a group, so the two arrays agree everywhere. No finiteness is used.
-/
import proofs.«135711_j69887707841118_2_alg».proof.Proof.RefPred
import proofs.«135711_j69887707841118_2_alg».proof.Proof.RefNest
import proofs.«135711_j69887707841118_2_alg».proof.Proof.Spec
import Idealize.ShloMosaic.Lib.Pipeline.Value

noncomputable section

namespace Cert.ReferenceIdeal.RefValue

open Idealize.ShloMosaic Idealize.ShloMosaic.ValueIdx Cert.ReferenceIdeal
open Cert.ReferenceIdeal.Facts₀ Cert.ReferenceIdeal.Facts

/-- The word 0x3F800000 is the number one. -/
theorem ofBits_one_f32 : Ideal.ofBits .f32 0x3F800000#32 = 1 := by
  simp [Ideal.ofBits, Ideal.ieee]
  exact_mod_cast (by norm_num : ((8388608 : ℝ) * (2 ^ 23 : ℝ)⁻¹) = 1)

/-- Dividing by one changes nothing, at the infinities too. -/
theorem div_one (x : EReal) : Ideal.div x 1 = x := by
  have h := Ideal.div_coe (y := 1) one_ne_zero x
  simpa using h

/-- The host's division at an index divides the elements. -/
theorem hostDivf_apply {s : Shape} (x y : FVec Ideal s .f32) (i : s.Idx) :
    Host.divf (F := Ideal) (φ := .f32) x y i = Ideal.div (x i) (y i) := rfl

variable [Facts]

theorem zeros3_apply (i : S1024x243x17x3.Idx) : RefTerm.zeros3 i = 0 := by
  show Ideal.ofBits .f32 0x00000000#32 = 0
  exact Ideal.ofBits_zero_f32
theorem zeros1_apply (i : S1024x243x17x1.Idx) : RefTerm.zeros1 i = 0 := by
  show Ideal.ofBits .f32 0x00000000#32 = 0
  exact Ideal.ofBits_zero_f32
theorem ones3_apply (i : S1024x243x3x1.Idx) : RefTerm.ones3 i = 1 := by
  show Ideal.ofBits .f32 0x3F800000#32 = 1
  exact ofBits_one_f32
theorem ones5_apply (i : S1024x243x5x1.Idx) : RefTerm.ones5 i = 1 := by
  show Ideal.ofBits .f32 0x3F800000#32 = 1
  exact ofBits_one_f32

/-- The clipped count is the larger of one and the count. -/
theorem cntClip_apply (i : S1024x243x17x1.Idx) :
    RefTerm.cntClip i = max (Ideal.ofBits .f32 0x3F800000#32) (RefTerm.cntAcc i) := rfl

/-- The result at an index: the accumulated updates there, divided by the clipped count of the joint. -/
theorem refTerm_apply (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (j : Fin 17) (c : Fin 3) :
    RefTerm.refTerm a0 a1 a2 a3 a4 a5 a6 a7 a8 a9 a10 (ix4 b T j c)
      = Ideal.div (RefTerm.outAcc a0 a1 a2 a3 a4 a5 a6 a7 a8 a9 a10 (ix4 b T j c)) (RefTerm.cntClip (ix4 b T j (0 : Fin 1))) := by
  unfold RefTerm.refTerm
  rw [hostDivf_apply, broadcastInDim_apply _ _ RefTerm.cntClip (ix4 b T j c) (ix4 b T j (0 : Fin 1)) (fun a => by
    match a with
    | ⟨0, _⟩ => rfl
    | ⟨1, _⟩ => rfl
    | ⟨2, _⟩ => rfl
    | ⟨3, _⟩ => rfl)]

/-! ### Group 0 -/

/-- The count at a joint of group 0 is one. -/
theorem cntAcc_g0 (b : Fin 1024) (T : Fin 243) (k : Fin 3) : RefTerm.cntAcc (ix4 b T (J0 k) (0 : Fin 1)) = 1 := by
  unfold RefTerm.cntAcc
  rw [nest1_g0 RefTerm.zeros1 RefTerm.idx0 RefTerm.idx1 RefTerm.idx2 RefTerm.idx3 RefTerm.idx4 RefTerm.ones3 RefTerm.ones3 RefTerm.ones5 RefTerm.ones3 RefTerm.ones3
      idx0_toInt idx1_toInt idx2_toInt idx3_toInt idx4_toInt b T k (0 : Fin 1), zeros1_apply, ones3_apply, zero_add]

/-- The accumulated updates at a joint of group 0: the group's head at the joint's place. -/
theorem outAcc_g0 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 3) (c : Fin 3) :
    RefTerm.outAcc a0 a1 a2 a3 a4 a5 a6 a7 a8 a9 a10 (ix4 b T (J0 k) c)
      = Cert.Decoder.lin a0 a1 (fun o => a2 (ix1 o)) (0 : Fin 5) b (⟨T.val / 9, by omega⟩ : Fin 27)
        (⟨T.val % 9 * 9 + k.val * 3 + c.val, by omega⟩ : Fin 81) := by
  unfold RefTerm.outAcc
  rw [nest3_g0 RefTerm.zeros3 RefTerm.idx0 RefTerm.idx1 RefTerm.idx2 RefTerm.idx3 RefTerm.idx4
      (RefTerm.pred0 a0 a1 a2) (RefTerm.pred1 a0 a3 a4) (RefTerm.pred2 a0 a5 a6) (RefTerm.pred3 a0 a7 a8) (RefTerm.pred4 a0 a9 a10)
      idx0_toInt idx1_toInt idx2_toInt idx3_toInt idx4_toInt b T k c, zeros3_apply, zero_add]
  exact pred81_apply a0 a1 a2 _ _ (0 : Fin 5) rfl b T k c

/-- The reference's result at a joint of group 0. -/
theorem refTerm_g0 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 3) (c : Fin 3) :
    RefTerm.refTerm a0 a1 a2 a3 a4 a5 a6 a7 a8 a9 a10 (ix4 b T (J0 k) c)
      = Cert.Decoder.lin a0 a1 (fun o => a2 (ix1 o)) (0 : Fin 5) b (⟨T.val / 9, by omega⟩ : Fin 27)
        (⟨T.val % 9 * 9 + k.val * 3 + c.val, by omega⟩ : Fin 81) := by
  rw [refTerm_apply, cntClip_apply, cntAcc_g0, ofBits_one_f32, max_self, div_one, outAcc_g0]

/-- The specification at a joint of group 0. -/
theorem G_g0 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 3) (c : Fin 3) :
    Cert.Decoder.G a0 a1 a2 a3 a4 a5 a6 a7 a8 a9 a10 (ix4 b T (J0 k) c)
      = Cert.Decoder.lin a0 a1 (fun o => a2 (ix1 o)) (0 : Fin 5) b (⟨T.val / 9, by omega⟩ : Fin 27)
        (⟨T.val % 9 * 9 + k.val * 3 + c.val, by omega⟩ : Fin 81) := by
  have hJ : (J0 k).val = k.val + 1 := rfl
  have hk := k.isLt
  have hc := c.isLt
  rw [Cert.Decoder.G_ix4]
  unfold Cert.Decoder.Gat Cert.Decoder.blkA Cert.Decoder.blk
  rw [dif_neg (show ¬((J0 k).val * 3 + c.val < 3) by omega),
    dif_pos (show (J0 k).val * 3 + c.val < 12 by omega)]
  exact Cert.Decoder.lin_congr _ _ _ _ _ _ (by
    show T.val % 9 * 9 + ((J0 k).val * 3 + c.val - 3) = T.val % 9 * 9 + k.val * 3 + c.val
    omega)

/-! ### Group 1 -/

/-- The count at a joint of group 1 is one. -/
theorem cntAcc_g1 (b : Fin 1024) (T : Fin 243) (k : Fin 3) : RefTerm.cntAcc (ix4 b T (J1 k) (0 : Fin 1)) = 1 := by
  unfold RefTerm.cntAcc
  rw [nest1_g1 RefTerm.zeros1 RefTerm.idx0 RefTerm.idx1 RefTerm.idx2 RefTerm.idx3 RefTerm.idx4 RefTerm.ones3 RefTerm.ones3 RefTerm.ones5 RefTerm.ones3 RefTerm.ones3
      idx0_toInt idx1_toInt idx2_toInt idx3_toInt idx4_toInt b T k (0 : Fin 1), zeros1_apply, ones3_apply, zero_add]

/-- The accumulated updates at a joint of group 1: the group's head at the joint's place. -/
theorem outAcc_g1 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 3) (c : Fin 3) :
    RefTerm.outAcc a0 a1 a2 a3 a4 a5 a6 a7 a8 a9 a10 (ix4 b T (J1 k) c)
      = Cert.Decoder.lin a0 a3 (fun o => a4 (ix1 o)) (1 : Fin 5) b (⟨T.val / 9, by omega⟩ : Fin 27)
        (⟨T.val % 9 * 9 + k.val * 3 + c.val, by omega⟩ : Fin 81) := by
  unfold RefTerm.outAcc
  rw [nest3_g1 RefTerm.zeros3 RefTerm.idx0 RefTerm.idx1 RefTerm.idx2 RefTerm.idx3 RefTerm.idx4
      (RefTerm.pred0 a0 a1 a2) (RefTerm.pred1 a0 a3 a4) (RefTerm.pred2 a0 a5 a6) (RefTerm.pred3 a0 a7 a8) (RefTerm.pred4 a0 a9 a10)
      idx0_toInt idx1_toInt idx2_toInt idx3_toInt idx4_toInt b T k c, zeros3_apply, zero_add]
  exact pred81_apply a0 a3 a4 _ _ (1 : Fin 5) rfl b T k c

/-- The reference's result at a joint of group 1. -/
theorem refTerm_g1 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 3) (c : Fin 3) :
    RefTerm.refTerm a0 a1 a2 a3 a4 a5 a6 a7 a8 a9 a10 (ix4 b T (J1 k) c)
      = Cert.Decoder.lin a0 a3 (fun o => a4 (ix1 o)) (1 : Fin 5) b (⟨T.val / 9, by omega⟩ : Fin 27)
        (⟨T.val % 9 * 9 + k.val * 3 + c.val, by omega⟩ : Fin 81) := by
  rw [refTerm_apply, cntClip_apply, cntAcc_g1, ofBits_one_f32, max_self, div_one, outAcc_g1]

/-- The specification at a joint of group 1. -/
theorem G_g1 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 3) (c : Fin 3) :
    Cert.Decoder.G a0 a1 a2 a3 a4 a5 a6 a7 a8 a9 a10 (ix4 b T (J1 k) c)
      = Cert.Decoder.lin a0 a3 (fun o => a4 (ix1 o)) (1 : Fin 5) b (⟨T.val / 9, by omega⟩ : Fin 27)
        (⟨T.val % 9 * 9 + k.val * 3 + c.val, by omega⟩ : Fin 81) := by
  have hJ : (J1 k).val = k.val + 4 := rfl
  have hk := k.isLt
  have hc := c.isLt
  rw [Cert.Decoder.G_ix4]
  unfold Cert.Decoder.Gat Cert.Decoder.blkA Cert.Decoder.blk
  rw [dif_neg (show ¬((J1 k).val * 3 + c.val < 3) by omega),
    dif_neg (show ¬((J1 k).val * 3 + c.val < 12) by omega),
    dif_pos (show (J1 k).val * 3 + c.val < 21 by omega)]
  exact Cert.Decoder.lin_congr _ _ _ _ _ _ (by
    show T.val % 9 * 9 + ((J1 k).val * 3 + c.val - 12) = T.val % 9 * 9 + k.val * 3 + c.val
    omega)

/-! ### Group 2 -/

/-- The count at a joint of group 2 is one. -/
theorem cntAcc_g2 (b : Fin 1024) (T : Fin 243) (k : Fin 5) : RefTerm.cntAcc (ix4 b T (J2 k) (0 : Fin 1)) = 1 := by
  unfold RefTerm.cntAcc
  rw [nest1_g2 RefTerm.zeros1 RefTerm.idx0 RefTerm.idx1 RefTerm.idx2 RefTerm.idx3 RefTerm.idx4 RefTerm.ones3 RefTerm.ones3 RefTerm.ones5 RefTerm.ones3 RefTerm.ones3
      idx0_toInt idx1_toInt idx2_toInt idx3_toInt idx4_toInt b T k (0 : Fin 1), zeros1_apply, ones5_apply, zero_add]

/-- The accumulated updates at a joint of group 2: the group's head at the joint's place. -/
theorem outAcc_g2 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 5) (c : Fin 3) :
    RefTerm.outAcc a0 a1 a2 a3 a4 a5 a6 a7 a8 a9 a10 (ix4 b T (J2 k) c)
      = Cert.Decoder.lin a0 a5 (fun o => a6 (ix1 o)) (2 : Fin 5) b (⟨T.val / 9, by omega⟩ : Fin 27)
        (⟨T.val % 9 * 15 + k.val * 3 + c.val, by omega⟩ : Fin 135) := by
  unfold RefTerm.outAcc
  rw [nest3_g2 RefTerm.zeros3 RefTerm.idx0 RefTerm.idx1 RefTerm.idx2 RefTerm.idx3 RefTerm.idx4
      (RefTerm.pred0 a0 a1 a2) (RefTerm.pred1 a0 a3 a4) (RefTerm.pred2 a0 a5 a6) (RefTerm.pred3 a0 a7 a8) (RefTerm.pred4 a0 a9 a10)
      idx0_toInt idx1_toInt idx2_toInt idx3_toInt idx4_toInt b T k c, zeros3_apply, zero_add]
  exact pred135_apply a0 a5 a6 _ _ (2 : Fin 5) rfl b T k c

/-- The reference's result at a joint of group 2. -/
theorem refTerm_g2 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 5) (c : Fin 3) :
    RefTerm.refTerm a0 a1 a2 a3 a4 a5 a6 a7 a8 a9 a10 (ix4 b T (J2 k) c)
      = Cert.Decoder.lin a0 a5 (fun o => a6 (ix1 o)) (2 : Fin 5) b (⟨T.val / 9, by omega⟩ : Fin 27)
        (⟨T.val % 9 * 15 + k.val * 3 + c.val, by omega⟩ : Fin 135) := by
  rw [refTerm_apply, cntClip_apply, cntAcc_g2, ofBits_one_f32, max_self, div_one, outAcc_g2]

/-- The specification at a joint of group 2: place 0 is joint 0, the places 1 … 4 are the joints 7 … 10. -/
theorem G_g2 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 5) (c : Fin 3) :
    Cert.Decoder.G a0 a1 a2 a3 a4 a5 a6 a7 a8 a9 a10 (ix4 b T (J2 k) c)
      = Cert.Decoder.lin a0 a5 (fun o => a6 (ix1 o)) (2 : Fin 5) b (⟨T.val / 9, by omega⟩ : Fin 27)
        (⟨T.val % 9 * 15 + k.val * 3 + c.val, by omega⟩ : Fin 135) := by
  have hJ : (J2 k).val = if k.val = 0 then 0 else k.val + 6 := rfl
  have hk := k.isLt
  have hc := c.isLt
  rw [Cert.Decoder.G_ix4]
  unfold Cert.Decoder.Gat Cert.Decoder.blkA Cert.Decoder.blk
  by_cases h0 : k.val = 0
  · rw [if_pos h0] at hJ
    rw [dif_pos (show (J2 k).val * 3 + c.val < 3 by omega)]
    exact Cert.Decoder.lin_congr _ _ _ _ _ _ (by
      show T.val % 9 * 15 + ((J2 k).val * 3 + c.val) = T.val % 9 * 15 + k.val * 3 + c.val
      omega)
  · rw [if_neg h0] at hJ
    rw [dif_neg (show ¬((J2 k).val * 3 + c.val < 3) by omega), dif_neg (show ¬((J2 k).val * 3 + c.val < 12) by omega),
      dif_neg (show ¬((J2 k).val * 3 + c.val < 21) by omega), dif_pos (show (J2 k).val * 3 + c.val < 33 by omega)]
    exact Cert.Decoder.lin_congr _ _ _ _ _ _ (by
      show T.val % 9 * 15 + ((J2 k).val * 3 + c.val - 18) = T.val % 9 * 15 + k.val * 3 + c.val
      omega)

/-! ### Group 3 -/

/-- The count at a joint of group 3 is one. -/
theorem cntAcc_g3 (b : Fin 1024) (T : Fin 243) (k : Fin 3) : RefTerm.cntAcc (ix4 b T (J3 k) (0 : Fin 1)) = 1 := by
  unfold RefTerm.cntAcc
  rw [nest1_g3 RefTerm.zeros1 RefTerm.idx0 RefTerm.idx1 RefTerm.idx2 RefTerm.idx3 RefTerm.idx4 RefTerm.ones3 RefTerm.ones3 RefTerm.ones5 RefTerm.ones3 RefTerm.ones3
      idx0_toInt idx1_toInt idx2_toInt idx3_toInt idx4_toInt b T k (0 : Fin 1), zeros1_apply, ones3_apply, zero_add]

/-- The accumulated updates at a joint of group 3: the group's head at the joint's place. -/
theorem outAcc_g3 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 3) (c : Fin 3) :
    RefTerm.outAcc a0 a1 a2 a3 a4 a5 a6 a7 a8 a9 a10 (ix4 b T (J3 k) c)
      = Cert.Decoder.lin a0 a7 (fun o => a8 (ix1 o)) (3 : Fin 5) b (⟨T.val / 9, by omega⟩ : Fin 27)
        (⟨T.val % 9 * 9 + k.val * 3 + c.val, by omega⟩ : Fin 81) := by
  unfold RefTerm.outAcc
  rw [nest3_g3 RefTerm.zeros3 RefTerm.idx0 RefTerm.idx1 RefTerm.idx2 RefTerm.idx3 RefTerm.idx4
      (RefTerm.pred0 a0 a1 a2) (RefTerm.pred1 a0 a3 a4) (RefTerm.pred2 a0 a5 a6) (RefTerm.pred3 a0 a7 a8) (RefTerm.pred4 a0 a9 a10)
      idx0_toInt idx1_toInt idx2_toInt idx3_toInt idx4_toInt b T k c, zeros3_apply, zero_add]
  exact pred81_apply a0 a7 a8 _ _ (3 : Fin 5) rfl b T k c

/-- The reference's result at a joint of group 3. -/
theorem refTerm_g3 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 3) (c : Fin 3) :
    RefTerm.refTerm a0 a1 a2 a3 a4 a5 a6 a7 a8 a9 a10 (ix4 b T (J3 k) c)
      = Cert.Decoder.lin a0 a7 (fun o => a8 (ix1 o)) (3 : Fin 5) b (⟨T.val / 9, by omega⟩ : Fin 27)
        (⟨T.val % 9 * 9 + k.val * 3 + c.val, by omega⟩ : Fin 81) := by
  rw [refTerm_apply, cntClip_apply, cntAcc_g3, ofBits_one_f32, max_self, div_one, outAcc_g3]

/-- The specification at a joint of group 3. -/
theorem G_g3 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 3) (c : Fin 3) :
    Cert.Decoder.G a0 a1 a2 a3 a4 a5 a6 a7 a8 a9 a10 (ix4 b T (J3 k) c)
      = Cert.Decoder.lin a0 a7 (fun o => a8 (ix1 o)) (3 : Fin 5) b (⟨T.val / 9, by omega⟩ : Fin 27)
        (⟨T.val % 9 * 9 + k.val * 3 + c.val, by omega⟩ : Fin 81) := by
  have hJ : (J3 k).val = k.val + 11 := rfl
  have hk := k.isLt
  have hc := c.isLt
  rw [Cert.Decoder.G_ix4]
  unfold Cert.Decoder.Gat Cert.Decoder.blkA Cert.Decoder.blk
  rw [dif_neg (show ¬((J3 k).val * 3 + c.val < 3) by omega),
    dif_neg (show ¬((J3 k).val * 3 + c.val < 12) by omega),
    dif_neg (show ¬((J3 k).val * 3 + c.val < 21) by omega),
    dif_neg (show ¬((J3 k).val * 3 + c.val < 33) by omega),
    dif_pos (show (J3 k).val * 3 + c.val < 42 by omega)]
  exact Cert.Decoder.lin_congr _ _ _ _ _ _ (by
    show T.val % 9 * 9 + ((J3 k).val * 3 + c.val - 33) = T.val % 9 * 9 + k.val * 3 + c.val
    omega)

/-! ### Group 4 -/

/-- The count at a joint of group 4 is one. -/
theorem cntAcc_g4 (b : Fin 1024) (T : Fin 243) (k : Fin 3) : RefTerm.cntAcc (ix4 b T (J4 k) (0 : Fin 1)) = 1 := by
  unfold RefTerm.cntAcc
  rw [nest1_g4 RefTerm.zeros1 RefTerm.idx0 RefTerm.idx1 RefTerm.idx2 RefTerm.idx3 RefTerm.idx4 RefTerm.ones3 RefTerm.ones3 RefTerm.ones5 RefTerm.ones3 RefTerm.ones3
      idx0_toInt idx1_toInt idx2_toInt idx3_toInt idx4_toInt b T k (0 : Fin 1), zeros1_apply, ones3_apply, zero_add]

/-- The accumulated updates at a joint of group 4: the group's head at the joint's place. -/
theorem outAcc_g4 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 3) (c : Fin 3) :
    RefTerm.outAcc a0 a1 a2 a3 a4 a5 a6 a7 a8 a9 a10 (ix4 b T (J4 k) c)
      = Cert.Decoder.lin a0 a9 (fun o => a10 (ix1 o)) (4 : Fin 5) b (⟨T.val / 9, by omega⟩ : Fin 27)
        (⟨T.val % 9 * 9 + k.val * 3 + c.val, by omega⟩ : Fin 81) := by
  unfold RefTerm.outAcc
  rw [nest3_g4 RefTerm.zeros3 RefTerm.idx0 RefTerm.idx1 RefTerm.idx2 RefTerm.idx3 RefTerm.idx4
      (RefTerm.pred0 a0 a1 a2) (RefTerm.pred1 a0 a3 a4) (RefTerm.pred2 a0 a5 a6) (RefTerm.pred3 a0 a7 a8) (RefTerm.pred4 a0 a9 a10)
      idx0_toInt idx1_toInt idx2_toInt idx3_toInt idx4_toInt b T k c, zeros3_apply, zero_add]
  exact pred81_apply a0 a9 a10 _ _ (4 : Fin 5) rfl b T k c

/-- The reference's result at a joint of group 4. -/
theorem refTerm_g4 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 3) (c : Fin 3) :
    RefTerm.refTerm a0 a1 a2 a3 a4 a5 a6 a7 a8 a9 a10 (ix4 b T (J4 k) c)
      = Cert.Decoder.lin a0 a9 (fun o => a10 (ix1 o)) (4 : Fin 5) b (⟨T.val / 9, by omega⟩ : Fin 27)
        (⟨T.val % 9 * 9 + k.val * 3 + c.val, by omega⟩ : Fin 81) := by
  rw [refTerm_apply, cntClip_apply, cntAcc_g4, ofBits_one_f32, max_self, div_one, outAcc_g4]

/-- The specification at a joint of group 4. -/
theorem G_g4 (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal))
    (b : Fin 1024) (T : Fin 243) (k : Fin 3) (c : Fin 3) :
    Cert.Decoder.G a0 a1 a2 a3 a4 a5 a6 a7 a8 a9 a10 (ix4 b T (J4 k) c)
      = Cert.Decoder.lin a0 a9 (fun o => a10 (ix1 o)) (4 : Fin 5) b (⟨T.val / 9, by omega⟩ : Fin 27)
        (⟨T.val % 9 * 9 + k.val * 3 + c.val, by omega⟩ : Fin 81) := by
  have hJ : (J4 k).val = k.val + 14 := rfl
  have hk := k.isLt
  have hc := c.isLt
  rw [Cert.Decoder.G_ix4]
  unfold Cert.Decoder.Gat Cert.Decoder.blkA Cert.Decoder.blk
  rw [dif_neg (show ¬((J4 k).val * 3 + c.val < 3) by omega),
    dif_neg (show ¬((J4 k).val * 3 + c.val < 12) by omega),
    dif_neg (show ¬((J4 k).val * 3 + c.val < 21) by omega),
    dif_neg (show ¬((J4 k).val * 3 + c.val < 33) by omega),
    dif_neg (show ¬((J4 k).val * 3 + c.val < 42) by omega)]
  exact Cert.Decoder.lin_congr _ _ _ _ _ _ (by
    show T.val % 9 * 9 + ((J4 k).val * 3 + c.val - 42) = T.val % 9 * 9 + k.val * 3 + c.val
    omega)

/-! ### Everywhere -/

/-- THE REFERENCE IS THE SPECIFICATION. -/
theorem refTerm_eq (a0 : (⟨S1024x27x5x512, .f32⟩ : BufTy).Contents (Elt Ideal))
    (a1 : (⟨S81x512, .f32⟩ : BufTy).Contents (Elt Ideal))
    (a2 : (⟨S81, .f32⟩ : BufTy).Contents (Elt Ideal))
    (a3 : (⟨S81x512, .f32⟩ : BufTy).Contents (Elt Ideal))
    (a4 : (⟨S81, .f32⟩ : BufTy).Contents (Elt Ideal))
    (a5 : (⟨S135x512, .f32⟩ : BufTy).Contents (Elt Ideal))
    (a6 : (⟨S135, .f32⟩ : BufTy).Contents (Elt Ideal))
    (a7 : (⟨S81x512, .f32⟩ : BufTy).Contents (Elt Ideal))
    (a8 : (⟨S81, .f32⟩ : BufTy).Contents (Elt Ideal))
    (a9 : (⟨S81x512, .f32⟩ : BufTy).Contents (Elt Ideal))
    (a10 : (⟨S81, .f32⟩ : BufTy).Contents (Elt Ideal)) :
    RefTerm.refTerm a0 a1 a2 a3 a4 a5 a6 a7 a8 a9 a10 = Cert.Decoder.G a0 a1 a2 a3 a4 a5 a6 a7 a8 a9 a10 := by
  funext i
  obtain ⟨b, T, j, c, rfl⟩ : ∃ (b : Fin 1024) (T : Fin 243) (j : Fin 17) (c : Fin 3), i = ix4 b T j c :=
    ⟨i 0, i 1, i 2, i 3, eq_ix4 i⟩
  rcases J_cover j with ⟨k, rfl⟩ | ⟨k, rfl⟩ | ⟨k, rfl⟩ | ⟨k, rfl⟩ | ⟨k, rfl⟩
  · rw [refTerm_g0, G_g0]
  · rw [refTerm_g1, G_g1]
  · rw [refTerm_g2, G_g2]
  · rw [refTerm_g3, G_g3]
  · rw [refTerm_g4, G_g4]

end Cert.ReferenceIdeal.RefValue

end
-- ==== Proof.lean ====
/-
  The certificate of a decoder that places five per-group linear heads into a joints array.

  tokens f32[1024, 27, 5, 512] carries, per batch row and patch, one 512-vector for each of five joint groups; group `g` has a
  weight matrix and a bias with one row per (time step of the patch, joint of the group, channel). The reference computes
  each group's head `Σ_h tokens · W + bias`, scatter-adds it into a zero array f32[1024, 243, 17, 3] at the group's joints,
  scatter-adds ones into a count array the same way, and divides by the count clipped below at one. The five groups partition
  the seventeen joints, so on the extended reals every count is `0 + 1 = 1`, every entry is `0 + head` with zeros added for the
  other groups, and the quotient by `max 1 1 = 1` changes nothing: the reference's result is the head of the joint's own group
  (`Cert.Decoder.G`; the reference side is `RefRun.run` and `RefValue.refTerm_eq`). The kernel computes the same heads block by
  block of 32 batch rows on the matrix unit and stores them at the joints' lanes directly (`KernelIdeal.Result.run`). No step
  uses the finiteness of the inputs: `0 + x = x`, `x + 0 = x` and `x / 1 = x` hold for every extended real.
  The three frames are the generated frame certificates (the reference's: its run with the result dropped); the idealization
  rewrote nothing, so `preserves` is trivial.
-/
import proofs.«135711_j69887707841118_2_alg».proof.Defs
import proofs.«135711_j69887707841118_2_alg».proof.Proof.Gen.Kernel
import proofs.«135711_j69887707841118_2_alg».proof.Proof.Gen.Kernel.Skeleton
import proofs.«135711_j69887707841118_2_alg».proof.Proof.Gen.Kernel.Launch
import proofs.«135711_j69887707841118_2_alg».proof.Proof.Gen.Kernel.Points
import proofs.«135711_j69887707841118_2_alg».proof.Proof.Gen.Kernel.Frame
import proofs.«135711_j69887707841118_2_alg».proof.Proof.Gen.KernelIdeal
import proofs.«135711_j69887707841118_2_alg».proof.Proof.Gen.KernelIdeal.Skeleton
import proofs.«135711_j69887707841118_2_alg».proof.Proof.Gen.KernelIdeal.Launch
import proofs.«135711_j69887707841118_2_alg».proof.Proof.Gen.KernelIdeal.Points
import proofs.«135711_j69887707841118_2_alg».proof.Proof.Gen.KernelIdeal.Frame
import proofs.«135711_j69887707841118_2_alg».proof.Proof.Gen.ReferenceIdeal
import proofs.«135711_j69887707841118_2_alg».proof.Proof.Gen.Pre_finite_inputs
import proofs.«135711_j69887707841118_2_alg».proof.Proof.KRun
import proofs.«135711_j69887707841118_2_alg».proof.Proof.RefRun
import proofs.«135711_j69887707841118_2_alg».proof.Proof.RefFrame
import proofs.«135711_j69887707841118_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefRun.frame m ρ

/-- The idealization rewrote no operation. -/
theorem preserves : Cert.preserves_Kernel_KernelIdeal := trivial

/-- Both idealized programs end with the result buffer at the specification of their argument arrays, and the argument arrays
    agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RefRun.run m' ρ')
  rw [Cert.ReferenceIdeal.RefValue.refTerm_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
